-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x13 : Shape := ⟨2, ![512, 13]⟩
abbrev S512x26 : Shape := ⟨2, ![512, 26]⟩
abbrev S26x100000x16 : Shape := ⟨3, ![26, 100000, 16]⟩
abbrev S13x512 : Shape := ⟨2, ![13, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x16 : Shape := ⟨2, ![64, 16]⟩
abbrev S16 : Shape := ⟨1, ![16]⟩
abbrev S186624x512 : Shape := ⟨2, ![186624, 512]⟩
abbrev S256x1 : Shape := ⟨2, ![256, 1]⟩
abbrev S1 : Shape := ⟨1, ![1]⟩
abbrev S_ : Shape := ⟨0, ![]⟩

class Facts : Prop where
  bcast_S_S512x13 : S_.BroadcastsInDim S512x13 (![] : Fin 0 → Fin S512x13.rank)
  reducesTo_S512x13_S_d0_1 : S512x13.ReducesTo [0, 1] S_
  h_S_ : 0 < S_.numel
  bcast_S_S26x100000x16 : S_.BroadcastsInDim S26x100000x16 (![] : Fin 0 → Fin S26x100000x16.rank)
  reducesTo_S26x100000x16_S_d0_1_2 : S26x100000x16.ReducesTo [0, 1, 2] S_
  bcast_S_S13x512 : S_.BroadcastsInDim S13x512 (![] : Fin 0 → Fin S13x512.rank)
  reducesTo_S13x512_S_d0_1 : S13x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S186624x512 : S_.BroadcastsInDim S186624x512 (![] : Fin 0 → Fin S186624x512.rank)
  reducesTo_S186624x512_S_d0_1 : S186624x512.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S256x1 .f32) (main_arg16 : FVec F S1 .f32) (main_v63 : IVec S_ 1) (main_v67 : IVec S_ 1) : IVec S_ 1 :=
  let main_v68 : IVec S_ 1 := andi main_v63 main_v67
  let main_v69 : FVec F S256x1 .f32 := Host.absf main_arg15
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S512 .f32) (main_arg13 : FVec F S512x256 .f32) (main_arg14 : FVec F S256 .f32) (main_arg15 : FVec F S256x1 .f32) (main_arg16 : FVec F S1 .f32) (main_v48 : IVec S_ 1) (main_v49 : FVec F S186624x512 .f32) (main_v50 : FVec F S186624x512 .f32) : IVec S_ 1 :=
  let main_v51 : IVec S186624x512 1 := cmpf .olt main_v49 main_v50
  let main_c_19 : IVec S_ 1 := constantI S_ 1 1#1
  let main_v52 : IVec S_ 1 := (fun x v => Host.reduce IntOp.andi x v reducesTo_S186624x512_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x256 .f32 := Host.absf main_arg13
  let main_cst_22 : FVec F S_ .f32 := constant S_ .f32 0x7F800000#32
  let main_v60 : FVec F S512x256 .f32 := broadcastInDim S512x256 ![] bcast_S_S512x256 main_cst_22
  let main_v61 : IVec S512x256 1 := cmpf .olt main_v59 main_v60
  let main_c_23 : IVec S_ 1 := constantI S_ 1 1#1
  let main_v62 : IVec S_ 1 := (fun x v => Host.reduce IntOp.andi x v reducesTo_S512x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_v63 main_v67

def fn_part2 {F : FTy → Type} [FloatOps F] (main_arg8 : FVec F S64 .f32) (main_arg9 : FVec F S64x16 .f32) (main_arg10 : FVec F S16 .f32) (main_arg11 : FVec F S186624x512 .f32) (main_arg12 : FVec F S512 .f32) (main_arg13 : FVec F S512x256 .f32) (main_arg14 : FVec F S256 .f32) (main_arg15 : FVec F S256x1 .f32) (main_arg16 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x16 .f32 := Host.absf main_arg9
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S186624x512 .f32 := Host.absf main_arg11
  let main_cst_18 : FVec F S_ .f32 := constant S_ .f32 0x7F800000#32
  let main_v50 : FVec F S186624x512 .f32 := broadcastInDim S186624x512 ![] bcast_S_S186624x512 main_cst_18
  fn_part3 (F := F) main_arg12 main_arg13 main_arg14 main_arg15 main_arg16 main_v48 main_v49 main_v50

def fn_part1 {F : FTy → Type} [FloatOps F] (main_arg5 : FVec F S512x256 .f32) (main_arg6 : FVec F S256 .f32) (main_arg7 : FVec F S256x64 .f32) (main_arg8 : FVec F S64 .f32) (main_arg9 : FVec F S64x16 .f32) (main_arg10 : FVec F S16 .f32) (main_arg11 : FVec F S186624x512 .f32) (main_arg12 : FVec F S512 .f32) (main_arg13 : FVec F S512x256 .f32) (main_arg14 : FVec F S256 .f32) (main_arg15 : FVec F S256x1 .f32) (main_arg16 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x64 .f32 := Host.absf main_arg7
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S512x13 .f32) (main_arg1 : IVec S512x26 32) (main_arg2 : FVec F S26x100000x16 .f32) (main_arg3 : FVec F S13x512 .f32) (main_arg4 : FVec F S512 .f32) (main_arg5 : FVec F S512x256 .f32) (main_arg6 : FVec F S256 .f32) (main_arg7 : FVec F S256x64 .f32) (main_arg8 : FVec F S64 .f32) (main_arg9 : FVec F S64x16 .f32) (main_arg10 : FVec F S16 .f32) (main_arg11 : FVec F S186624x512 .f32) (main_arg12 : FVec F S512 .f32) (main_arg13 : FVec F S512x256 .f32) (main_arg14 : FVec F S256 .f32) (main_arg15 : FVec F S256x1 .f32) (main_arg16 : FVec F S1 .f32) : IVec S_ 1 :=
  let main_v0 : FVec F S512x13 .f32 := Host.absf main_arg0
  let main_cst : FVec F S_ .f32 := constant S_ .f32 0x7F800000#32
  let main_v1 : FVec F S512x13 .f32 := broadcastInDim S512x13 ![] bcast_S_S512x13 main_cst
  let main_v2 : IVec S512x13 1 := cmpf .olt main_v0 main_v1
  let main_c : IVec S_ 1 := constantI S_ 1 1#1
  let main_v3 : IVec S_ 1 := (fun x v => Host.reduce IntOp.andi x v reducesTo_S512x13_S_d0_1 h_S_) main_v2 main_c
  let main_v4 : FVec F S26x100000x16 .f32 := Host.absf main_arg2
  let main_cst_0 : FVec F S_ .f32 := constant S_ .f32 0x7F800000#32
  let main_v5 : FVec F S26x100000x16 .f32 := broadcastInDim S26x100000x16 ![] bcast_S_S26x100000x16 main_cst_0
  let main_v6 : IVec S26x100000x16 1 := cmpf .olt main_v4 main_v5
  let main_c_1 : IVec S_ 1 := constantI S_ 1 1#1
  let main_v7 : IVec S_ 1 := (fun x v => Host.reduce IntOp.andi x v reducesTo_S26x100000x16_S_d0_1_2 h_S_) main_v6 main_c_1
  let main_v8 : IVec S_ 1 := andi main_v3 main_v7
  let main_v9 : FVec F S13x512 .f32 := Host.absf main_arg3
  let main_cst_2 : FVec F S_ .f32 := constant S_ .f32 0x7F800000#32
  let main_v10 : FVec F S13x512 .f32 := broadcastInDim S13x512 ![] bcast_S_S13x512 main_cst_2
  let main_v11 : IVec S13x512 1 := cmpf .olt main_v9 main_v10
  let main_c_3 : IVec S_ 1 := constantI S_ 1 1#1
  let main_v12 : IVec S_ 1 := (fun x v => Host.reduce IntOp.andi x v reducesTo_S13x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S512x13 : Shape := ⟨2, ![512, 13]⟩
abbrev S512x26 : Shape := ⟨2, ![512, 26]⟩
abbrev S26x100000x16 : Shape := ⟨3, ![26, 100000, 16]⟩
abbrev S13x512 : Shape := ⟨2, ![13, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x16 : Shape := ⟨2, ![64, 16]⟩
abbrev S16 : Shape := ⟨1, ![16]⟩
abbrev S186624x512 : Shape := ⟨2, ![186624, 512]⟩
abbrev S256x1 : Shape := ⟨2, ![256, 1]⟩
abbrev S1 : Shape := ⟨1, ![1]⟩
abbrev S_ : Shape := ⟨0, ![]⟩
abbrev S26x512 : Shape := ⟨2, ![26, 512]⟩
abbrev S26x512x1 : Shape := ⟨3, ![26, 512, 1]⟩
abbrev S26x512x16 : Shape := ⟨3, ![26, 512, 16]⟩
abbrev S512x26x16 : Shape := ⟨3, ![512, 26, 16]⟩
abbrev S512x416 : Shape := ⟨2, ![512, 416]⟩
abbrev S3456x512 : Shape := ⟨2, ![3456, 512]⟩
abbrev S512x432 : Shape := ⟨2, ![512, 432]⟩
abbrev S432x512 : Shape := ⟨2, ![432, 512]⟩
abbrev S512x512 : Shape := ⟨2, ![512, 512]⟩
abbrev S1x512 : Shape := ⟨2, ![1, 512]⟩
abbrev S1x256 : Shape := ⟨2, ![1, 256]⟩
abbrev S512x64 : Shape := ⟨2, ![512, 64]⟩
abbrev S1x64 : Shape := ⟨2, ![1, 64]⟩
abbrev S512x16 : Shape := ⟨2, ![512, 16]⟩
abbrev S1x16 : Shape := ⟨2, ![1, 16]⟩
abbrev S8x512 : Shape := ⟨2, ![8, 512]⟩
abbrev S512x8 : Shape := ⟨2, ![512, 8]⟩
abbrev S512x8x1 : Shape := ⟨3, ![512, 8, 1]⟩
abbrev S512x1x432 : Shape := ⟨3, ![512, 1, 432]⟩
abbrev S512x8x432 : Shape := ⟨3, ![512, 8, 432]⟩
abbrev S512x3456 : Shape := ⟨2, ![512, 3456]⟩
abbrev S512x1 : Shape := ⟨2, ![512, 1]⟩
abbrev S1x1 : Shape := ⟨2, ![1, 1]⟩

abbrev nBuf : Space → Nat
  | .hbm => 55
  | .vmem => 21
  | .smem => 0
  | _ => 0

abbrev bufTy : (tb : Table) → Fin (tcTables nBuf tb) → BufTy
  | .hbm, ⟨0, _⟩ => ⟨S512x13, .f32⟩
  | .hbm, ⟨1, _⟩ => ⟨S512x26, .i32⟩
  | .hbm, ⟨2, _⟩ => ⟨S26x100000x16, .f32⟩
  | .hbm, ⟨3, _⟩ => ⟨S13x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S186624x512, .f32⟩
  | .hbm, ⟨12, _⟩ => ⟨S512, .f32⟩
  | .hbm, ⟨13, _⟩ => ⟨S512x256, .f32⟩
  | .hbm, ⟨14, _⟩ => ⟨S256, .f32⟩
  | .hbm, ⟨15, _⟩ => ⟨S256x1, .f32⟩
  | .hbm, ⟨16, _⟩ => ⟨S1, .f32⟩
  | .hbm, ⟨17, _⟩ => ⟨S_, .i32⟩
  | .hbm, ⟨18, _⟩ => ⟨S512x26, .i32⟩
  | .hbm, ⟨19, _⟩ => ⟨S512x26, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S512x26, .i32⟩
  | .hbm, ⟨27, _⟩ => ⟨S512x26, .i32⟩
  | .hbm, ⟨28, _⟩ => ⟨S_, .i32⟩
  | .hbm, ⟨29, _⟩ => ⟨S512x26, .i32⟩
  | .hbm, ⟨30, _⟩ => ⟨S512x26, .i1⟩
  | .hbm, ⟨31, _⟩ => ⟨S_, .i32⟩
  | .hbm, ⟨32, _⟩ => ⟨S512x26, .i32⟩
  | .hbm, ⟨33, _⟩ => ⟨S512x26, .i1⟩
  | .hbm, ⟨34, _⟩ => ⟨S_, .i32⟩
  | .hbm, ⟨35, _⟩ => ⟨S_, .i1⟩
  | .hbm, ⟨36, _⟩ => ⟨S512x26, .i1⟩
  | .hbm, ⟨37, _⟩ => ⟨S512x26, .i1⟩
  | .hbm, ⟨38, _⟩ => ⟨S512x26, .i1⟩
  | .hbm, ⟨39, _⟩ => ⟨S512x26, .i32⟩
  | .hbm, ⟨40, _⟩ => ⟨S512x26, .i32⟩
  | .hbm, ⟨41, _⟩ => ⟨S512x26, .i32⟩
  | .hbm, ⟨42, _⟩ => ⟨S_, .i32⟩
  | .hbm, ⟨43, _⟩ => ⟨S512x26, .i32⟩
  | .hbm, ⟨44, _⟩ => ⟨S512x26, .i1⟩
  | .hbm, ⟨45, _⟩ => ⟨S_, .i32⟩
  | .hbm, ⟨46, _⟩ => ⟨S512x26, .i32⟩
  | .hbm, ⟨47, _⟩ => ⟨S512x26, .i32⟩
  | .hbm, ⟨48, _⟩ => ⟨S512x26, .i32⟩
  | .hbm, ⟨49, _⟩ => ⟨S26x512, .i32⟩
  | .hbm, ⟨50, _⟩ => ⟨S26x512x1, .i32⟩
  | .hbm, ⟨51, _⟩ => ⟨S26x512x16, .f32⟩
  | .hbm, ⟨52, _⟩ => ⟨S512x26x16, .f32⟩
  | .hbm, ⟨53, _⟩ => ⟨S512x416, .f32⟩
  | .hbm, ⟨54, _⟩ => ⟨S512, .f32⟩
  | .local _ .vmem, ⟨0, _⟩ => ⟨S512x13, .f32⟩
  | .local _ .vmem, ⟨1, _⟩ => ⟨S512x416, .f32⟩
  | .local _ .vmem, ⟨2, _⟩ => ⟨S13x512, .f32⟩
  | .local _ .vmem, ⟨3, _⟩ => ⟨S512, .f32⟩
  | .local _ .vmem, ⟨4, _⟩ => ⟨S512x256, .f32⟩
  | .local _ .vmem, ⟨5, _⟩ => ⟨S256, .f32⟩
  | .local _ .vmem, ⟨6, _⟩ => ⟨S256x64, .f32⟩
  | .local _ .vmem, ⟨7, _⟩ => ⟨S64, .f32⟩
  | .local _ .vmem, ⟨8, _⟩ => ⟨S64x16, .f32⟩
  | .local _ .vmem, ⟨9, _⟩ => ⟨S16, .f32⟩
  | .local _ .vmem, ⟨10, _⟩ => ⟨S3456x512, .f32⟩
  | .local _ .vmem, ⟨11, _⟩ => ⟨S3456x512, .f32⟩
  | .local _ .vmem, ⟨12, _⟩ => ⟨S512, .f32⟩
  | .local _ .vmem, ⟨13, _⟩ => ⟨S512x256, .f32⟩
  | .local _ .vmem, ⟨14, _⟩ => ⟨S256, .f32⟩
  | .local _ .vmem, ⟨15, _⟩ => ⟨S256x1, .f32⟩
  | .local _ .vmem, ⟨16, _⟩ => ⟨S1, .f32⟩
  | .local _ .vmem, ⟨17, _⟩ => ⟨S512, .f32⟩
  | .local _ .vmem, ⟨18, _⟩ => ⟨S512x432, .f32⟩
  | .local _ .vmem, ⟨19, _⟩ => ⟨S432x512, .f32⟩
  | .local _ .vmem, ⟨20, _⟩ => ⟨S512x512, .f32⟩
  | _, _ => ⟨S512x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v2 : Ref sig .tc := ⟨.hbm, 41, rfl⟩
abbrev main_c_1 : Ref sig .tc := ⟨.hbm, 42, rfl⟩
abbrev main_v3 : Ref sig .tc := ⟨.hbm, 43, rfl⟩
abbrev main_v4 : Ref sig .tc := ⟨.hbm, 44, rfl⟩
abbrev main_c_2 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem10_1 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17

abbrev nD : Nat := 1
abbrev τ : Topo := Topo.v7x

variable {F : FTy → Type} [FloatOps F]

abbrev grid0 : Pipeline.Grid := ⟨1, ![54], ![false]⟩

def k0_mult1 (i : grid0.Coords) : BitVec 32 :=
  let arg0 : BitVec 32 := BitVec.ofNat 32 (i 0).val
  let c8_i32 : BitVec 32 := 8#32
  let v3 : BitVec 32 := Scalar.muli arg0 c8_i32
  v3
def k0_off1 (i : grid0.Coords) : Fin 2 → Nat :=
  let arg0 : BitVec 32 := BitVec.ofNat 32 (i 0).val
  let c8_i32 : BitVec 32 := 8#32
  let v3 : BitVec 32 := Scalar.muli arg0 c8_i32
  let v4 : BitVec 32 := v3
  let v5 : Index := Scalar.indexCast v4
  let c0 : Index := 0#32
  ![v5.toNat, 0]
def k0_cond2 (i : grid0.Coords) : BitVec 1 :=
  let arg0 : BitVec 32 := BitVec.ofNat 32 (i 0).val
  let c53_i32 : BitVec 32 := 53#32
  let v24 : BitVec 1 := Scalar.cmpi .eq arg0 c53_i32
  let v25 : BitVec 32 := Scalar.extui v24
  let c0_i32_9 : BitVec 32 := 0#32
  let v26 : BitVec 1 := Scalar.cmpi .ne v25 c0_i32_9
  v26

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S512x13 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x416 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S13x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3456x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

class Facts₀ : Prop where
  bcast_S_S512x26 : S_.BroadcastsInDim S512x26 (![] : Fin 0 → Fin S512x26.rank)
  transposes_S512x26_S26x512_1_0 : S512x26.Transposes [1, 0] S26x512
  bcast_S26x512_S26x512x1_0_1 : S26x512.BroadcastsInDim S26x512x1 (![0, 1] : Fin 2 → Fin S26x512x1.rank)
  transposes_S26x512x16_S512x26x16_1_0_2 : S26x512x16.Transposes [1, 0, 2] S512x26x16
  shapeCasts_S512x26x16_S512x416 : S512x26x16.ShapeCasts S512x416
  inb_S512x13_S512x13_0_0 : ∀ a, (![0, 0] : Fin 2 → Nat) a + S512x13.size a ≤ S512x13.size a
  h_S512x13 : 0 < S512x13.numel
  bitsLt_bf16_f32 : FTy.bits .bf16 < FTy.bits .f32
  inb_S13x512_S13x512_0_0 : ∀ a, (![0, 0] : Fin 2 → Nat) a + S13x512.size a ≤ S13x512.size a
  h_S13x512 : 0 < S13x512.numel
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S512x16 : S1x16.Broadcasts S512x16
  inb_S512x432_S512x16_0_0 : ∀ a, (![0, 0] : Fin 2 → Nat) a + S512x16.size a ≤ S512x432.size a
  h_S512x16 : 0 < S512x16.numel
  shapeCasts_S512x16_S512x16 : S512x16.ShapeCasts S512x16
  inb_S512x416_S512x416_0_0 : ∀ a, (![0, 0] : Fin 2 → Nat) a + S512x416.size a ≤ S512x416.size a
  h_S512x416 : 0 < S512x416.numel
  shapeCasts_S512x416_S512x416 : S512x416.ShapeCasts S512x416
  inb_S512x432_S512x416_0_16 : ∀ a, (![0, 16] : Fin 2 → Nat) a + S512x416.size a ≤ S512x432.size a
  inb_S512x432_S512x432_0_0 : ∀ a, (![0, 0] : Fin 2 → Nat) a + S512x432.size a ≤ S512x432.size a
  h_S512x432 : 0 < S512x432.numel
  transposes_S512x432_p1_0_S432x512 : S512x432.Transposes [1, 0] S432x512
  inb_S432x512_S432x512_0_0 : ∀ a, (![0, 0] : Fin 2 → Nat) a + S432x512.size a ≤ S432x512.size a
  h_S432x512 : 0 < S432x512.numel
  shapeCasts_S432x512_S432x512 : S432x512.ShapeCasts S432x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  h_S8x512 : 0 < S8x512.numel
  transposes_S8x512_p1_0_S512x8 : S8x512.Transposes [1, 0] S512x8
  shapeCasts_S512x8_S512x8x1 : S512x8.ShapeCasts S512x8x1
  shapeCasts_S512x432_S512x1x432 : S512x432.ShapeCasts S512x1x432
  broadcasts_S512x8x1_S512x8x432 : S512x8x1.Broadcasts S512x8x432
  broadcasts_S512x1x432_S512x8x432 : S512x1x432.Broadcasts S512x8x432
  shapeCasts_S512x8x432_S512x3456 : S512x8x432.ShapeCasts S512x3456
  inb_S3456x512_S3456x512_0_0 : ∀ a, (![0, 0] : Fin 2 → Nat) a + S3456x512.size a ≤ S3456x512.size a
  h_S3456x512 : 0 < S3456x512.numel
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  shapeCasts_S512x1_S512 : S512x1.ShapeCasts S512
  gather_S26x100000x16_S26x512x1_S26x512x16_2_1_0_0_1_2_1116_wf : GatherDims.WF S26x100000x16 S26x512x1 S26x512x16 [2] [1] [0] [1] [0] 2 ![1, 1, 16]
  dot_S512x13_S13x512_S512x512_1_0_0_1_n_n_wf : DotDims.WF S512x13 S13x512 S512x512 [1] [0] [0] [1] [] []
  dot_S512x512_S512x256_S512x256_1_0_0_1_n_n_wf : DotDims.WF S512x512 S512x256 S512x256 [1] [0] [0] [1] [] []
  dot_S512x256_S256x64_S512x64_1_0_0_1_n_n_wf : DotDims.WF S512x256 S256x64 S512x64 [1] [0] [0] [1] [] []
  dot_S512x64_S64x16_S512x16_1_0_0_1_n_n_wf : DotDims.WF S512x64 S64x16 S512x16 [1] [0] [0] [1] [] []
  dot_S512x3456_S3456x512_S512x512_1_0_0_1_n_n_wf : DotDims.WF S512x3456 S3456x512 S512x512 [1] [0] [0] [1] [] []
  dot_S512x256_S256x1_S512x1_1_0_0_1_n_n_wf : DotDims.WF S512x256 S256x1 S512x1 [1] [0] [0] [1] [] []
  hrank0 : 0 < grid0.rank
  k0_mult1_dvd : ∀ i : grid0.Coords, 8 ∣ (k0_mult1 i).toNat
  k0_off1_inb : ∀ i : grid0.Coords, ∀ a, (k0_off1 i) a + S8x512.size a ≤ S432x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x13.size a ≤ S512x13.size a
  hwx0_0 : ∀ i : grid0.Coords, EltTy.bits .f32 = 32 ∨ (Rect.block (s := S512x13) S512x13.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x416.size a ≤ S512x416.size a
  hwx0_1 : ∀ i : grid0.Coords, EltTy.bits .f32 = 32 ∨ (Rect.block (s := S512x416) S512x416.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S13x512.size a ≤ S13x512.size a
  hwx0_2 : ∀ i : grid0.Coords, EltTy.bits .f32 = 32 ∨ (Rect.block (s := S13x512) S13x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S256x64.size a
  hwx0_6 : ∀ i : grid0.Coords, EltTy.bits .f32 = 32 ∨ (Rect.block (s := S256x64) S256x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x16.size a ≤ S64x16.size a
  hwx0_8 : ∀ i : grid0.Coords, EltTy.bits .f32 = 32 ∨ (Rect.block (s := S64x16) S64x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16.size a ≤ S16.size a
  hwx0_9 : ∀ i : grid0.Coords, EltTy.bits .f32 = 32 ∨ (Rect.block (s := S16) S16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3456x512.size a ≤ S186624x512.size a
  hwx0_10 : ∀ i : grid0.Coords, EltTy.bits .f32 = 32 ∨ (Rect.block (s := S186624x512) S3456x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S512x256.size a
  hwx0_12 : ∀ i : grid0.Coords, EltTy.bits .f32 = 32 ∨ (Rect.block (s := S512x256) S512x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x1.size a ≤ S256x1.size a
  hwx0_14 : ∀ i : grid0.Coords, EltTy.bits .f32 = 32 ∨ (Rect.block (s := S256x1) S256x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1.size a ≤ S1.size a
  hwx0_15 : ∀ i : grid0.Coords, EltTy.bits .f32 = 32 ∨ (Rect.block (s := S1) S1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512.size a ≤ S512.size a
  hwx0_16 : ∀ i : grid0.Coords, EltTy.bits .f32 = 32 ∨ (Rect.block (s := S512) S512.size (cc0_transform_16 i) (hinb0_16 i)).WholeWords (EltTy.packing .f32)

variable [Facts₀]

def gather_S26x100000x16_S26x512x1_S26x512x16_2_1_0_0_1_2_1116 : GatherDims S26x100000x16 S26x512x1 S26x512x16 where
  offsetDims := [2]
  collapsedSliceDims := [1]
  operandBatchingDims := [0]
  startIndicesBatchingDims := [0]
  startIndexMap := [1]
  indexVectorDim := 2
  sliceSizes := ![1, 1, 16]
  wf := gather_S26x100000x16_S26x512x1_S26x512x16_2_1_0_0_1_2_1116_wf
def dot_S512x13_S13x512_S512x512_1_0_0_1_n_n : DotDims S512x13 S13x512 S512x512 where
  lhsContracting := [1]
  rhsContracting := [0]
  lhsNonContracting := [0]
  rhsNonContracting := [1]
  lhsBatch := []
  rhsBatch := []
  wf := dot_S512x13_S13x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf
def dot_S512x3456_S3456x512_S512x512_1_0_0_1_n_n : DotDims S512x3456 S3456x512 S512x512 where
  lhsContracting := [1]
  rhsContracting := [0]
  lhsNonContracting := [0]
  rhsNonContracting := [1]
  lhsBatch := []
  rhsBatch := []
  wf := dot_S512x3456_S3456x512_S512x512_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S512x13.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x416.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S13x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S3456x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S512x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S256x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v13) S512.size cc0_transform_16 reads0_16 true true 1 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun i => !(k0_cond2 i == 1#1) | ⟨_ + 17, h⟩ => absurd h (Nat.not_lt.2 (Nat.le_add_left _ _))

class Facts : Prop extends Facts₀ where

variable [Facts]
-- ==== ReferenceIdeal.lean ====
abbrev S512x13 : Shape := ⟨2, ![512, 13]⟩
abbrev S512x26 : Shape := ⟨2, ![512, 26]⟩
abbrev S26x100000x16 : Shape := ⟨3, ![26, 100000, 16]⟩
abbrev S13x512 : Shape := ⟨2, ![13, 512]⟩
abbrev S512 : Shape := ⟨1, ![512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S64x16 : Shape := ⟨2, ![64, 16]⟩
abbrev S16 : Shape := ⟨1, ![16]⟩
abbrev S186624x512 : Shape := ⟨2, ![186624, 512]⟩
abbrev S256x1 : Shape := ⟨2, ![256, 1]⟩
abbrev S1 : Shape := ⟨1, ![1]⟩
abbrev S512x512 : Shape := ⟨2, ![512, 512]⟩
abbrev S1x512 : Shape := ⟨2, ![1, 512]⟩
abbrev S_ : Shape := ⟨0, ![]⟩
abbrev S1x256 : Shape := ⟨2, ![1, 256]⟩
abbrev S512x64 : Shape := ⟨2, ![512, 64]⟩
abbrev S1x64 : Shape := ⟨2, ![1, 64]⟩
abbrev S512x16 : Shape := ⟨2, ![512, 16]⟩
abbrev S1x16 : Shape := ⟨2, ![1, 16]⟩
abbrev S26x512 : Shape := ⟨2, ![26, 512]⟩
abbrev S26x512x1 : Shape := ⟨3, ![26, 512, 1]⟩
abbrev S26x512x16 : Shape := ⟨3, ![26, 512, 16]⟩
abbrev S512x26x16 : Shape := ⟨3, ![512, 26, 16]⟩
abbrev S512x416 : Shape := ⟨2, ![512, 416]⟩
abbrev S512x432 : Shape := ⟨2, ![512, 432]⟩
abbrev S512x432x1 : Shape := ⟨3, ![512, 432, 1]⟩
abbrev S512x1x432 : Shape := ⟨3, ![512, 1, 432]⟩
abbrev S512x432x432 : Shape := ⟨3, ![512, 432, 432]⟩
abbrev S512x186624 : Shape := ⟨2, ![512, 186624]⟩
abbrev S512x1 : Shape := ⟨2, ![512, 1]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S512x13, .f32⟩
  | .hbm, ⟨1, _⟩ => ⟨S512x26, .i32⟩
  | .hbm, ⟨2, _⟩ => ⟨S26x100000x16, .f32⟩
  | .hbm, ⟨3, _⟩ => ⟨S13x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S186624x512, .f32⟩
  | .hbm, ⟨12, _⟩ => ⟨S512, .f32⟩
  | .hbm, ⟨13, _⟩ => ⟨S512x256, .f32⟩
  | .hbm, ⟨14, _⟩ => ⟨S256, .f32⟩
  | .hbm, ⟨15, _⟩ => ⟨S256x1, .f32⟩
  | .hbm, ⟨16, _⟩ => ⟨S1, .f32⟩
  | .hbm, ⟨17, _⟩ => ⟨S512x512, .f32⟩
  | .hbm, ⟨18, _⟩ => ⟨S1x512, .f32⟩
  | .hbm, ⟨19, _⟩ => ⟨S512x512, .f32⟩
  | .hbm, ⟨20, _⟩ => ⟨S512x512, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x256, .f32⟩
  | .hbm, ⟨25, _⟩ => ⟨S1x256, .f32⟩
  | .hbm, ⟨26, _⟩ => ⟨S512x256, .f32⟩
  | .hbm, ⟨27, _⟩ => ⟨S512x256, .f32⟩
  | .hbm, ⟨28, _⟩ => ⟨S_, .f32⟩
  | .hbm, ⟨29, _⟩ => ⟨S512x256, .f32⟩
  | .hbm, ⟨30, _⟩ => ⟨S512x256, .f32⟩
  | .hbm, ⟨31, _⟩ => ⟨S512x64, .f32⟩
  | .hbm, ⟨32, _⟩ => ⟨S1x64, .f32⟩
  | .hbm, ⟨33, _⟩ => ⟨S512x64, .f32⟩
  | .hbm, ⟨34, _⟩ => ⟨S512x64, .f32⟩
  | .hbm, ⟨35, _⟩ => ⟨S_, .f32⟩
  | .hbm, ⟨36, _⟩ => ⟨S512x64, .f32⟩
  | .hbm, ⟨37, _⟩ => ⟨S512x64, .f32⟩
  | .hbm, ⟨38, _⟩ => ⟨S512x16, .f32⟩
  | .hbm, ⟨39, _⟩ => ⟨S1x16, .f32⟩
  | .hbm, ⟨40, _⟩ => ⟨S512x16, .f32⟩
  | .hbm, ⟨41, _⟩ => ⟨S512x16, .f32⟩
  | .hbm, ⟨42, _⟩ => ⟨S_, .i32⟩
  | .hbm, ⟨43, _⟩ => ⟨S512x26, .i32⟩
  | .hbm, ⟨44, _⟩ => ⟨S512x26, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S512x26, .i32⟩
  | .hbm, ⟨52, _⟩ => ⟨S512x26, .i32⟩
  | .hbm, ⟨53, _⟩ => ⟨S_, .i32⟩
  | .hbm, ⟨54, _⟩ => ⟨S512x26, .i32⟩
  | .hbm, ⟨55, _⟩ => ⟨S512x26, .i1⟩
  | .hbm, ⟨56, _⟩ => ⟨S_, .i32⟩
  | .hbm, ⟨57, _⟩ => ⟨S512x26, .i32⟩
  | .hbm, ⟨58, _⟩ => ⟨S512x26, .i1⟩
  | .hbm, ⟨59, _⟩ => ⟨S_, .i32⟩
  | .hbm, ⟨60, _⟩ => ⟨S_, .i1⟩
  | .hbm, ⟨61, _⟩ => ⟨S512x26, .i1⟩
  | .hbm, ⟨62, _⟩ => ⟨S512x26, .i1⟩
  | .hbm, ⟨63, _⟩ => ⟨S512x26, .i1⟩
  | .hbm, ⟨64, _⟩ => ⟨S512x26, .i32⟩
  | .hbm, ⟨65, _⟩ => ⟨S512x26, .i32⟩
  | .hbm, ⟨66, _⟩ => ⟨S512x26, .i32⟩
  | .hbm, ⟨67, _⟩ => ⟨S_, .i32⟩
  | .hbm, ⟨68, _⟩ => ⟨S512x26, .i32⟩
  | .hbm, ⟨69, _⟩ => ⟨S512x26, .i1⟩
  | .hbm, ⟨70, _⟩ => ⟨S_, .i32⟩
  | .hbm, ⟨71, _⟩ => ⟨S512x26, .i32⟩
  | .hbm, ⟨72, _⟩ => ⟨S512x26, .i32⟩
  | .hbm, ⟨73, _⟩ => ⟨S512x26, .i32⟩
  | .hbm, ⟨74, _⟩ => ⟨S26x512, .i32⟩
  | .hbm, ⟨75, _⟩ => ⟨S26x512x1, .i32⟩
  | .hbm, ⟨76, _⟩ => ⟨S26x512x16, .f32⟩
  | .hbm, ⟨77, _⟩ => ⟨S512x26x16, .f32⟩
  | .hbm, ⟨78, _⟩ => ⟨S512x416, .f32⟩
  | .hbm, ⟨79, _⟩ => ⟨S512x432, .f32⟩
  | .hbm, ⟨80, _⟩ => ⟨S512x432x1, .f32⟩
  | .hbm, ⟨81, _⟩ => ⟨S512x1x432, .f32⟩
  | .hbm, ⟨82, _⟩ => ⟨S512x432x432, .f32⟩
  | .hbm, ⟨83, _⟩ => ⟨S512x432x432, .f32⟩
  | .hbm, ⟨84, _⟩ => ⟨S512x432x432, .f32⟩
  | .hbm, ⟨85, _⟩ => ⟨S512x186624, .f32⟩
  | .hbm, ⟨86, _⟩ => ⟨S512x512, .f32⟩
  | .hbm, ⟨87, _⟩ => ⟨S1x512, .f32⟩
  | .hbm, ⟨88, _⟩ => ⟨S512x512, .f32⟩
  | .hbm, ⟨89, _⟩ => ⟨S512x512, .f32⟩
  | .hbm, ⟨90, _⟩ => ⟨S_, .f32⟩
  | .hbm, ⟨91, _⟩ => ⟨S512x512, .f32⟩
  | .hbm, ⟨92, _⟩ => ⟨S512x512, .f32⟩
  | .hbm, ⟨93, _⟩ => ⟨S512x256, .f32⟩
  | .hbm, ⟨94, _⟩ => ⟨S1x256, .f32⟩
  | .hbm, ⟨95, _⟩ => ⟨S512x256, .f32⟩
  | .hbm, ⟨96, _⟩ => ⟨S512x256, .f32⟩
  | .hbm, ⟨97, _⟩ => ⟨S_, .f32⟩
  | .hbm, ⟨98, _⟩ => ⟨S512x256, .f32⟩
  | .hbm, ⟨99, _⟩ => ⟨S512x256, .f32⟩
  | .hbm, ⟨100, _⟩ => ⟨S512x1, .f32⟩
  | .hbm, ⟨101, _⟩ => ⟨S1x1, .f32⟩
  | .hbm, ⟨102, _⟩ => ⟨S512x1, .f32⟩
  | .hbm, ⟨103, _⟩ => ⟨S512x1, .f32⟩
  | .hbm, ⟨104, _⟩ => ⟨S512x1, .f32⟩
  | .hbm, ⟨105, _⟩ => ⟨S512x1, .f32⟩
  | .hbm, ⟨106, _⟩ => ⟨S_, .f32⟩
  | .hbm, ⟨107, _⟩ => ⟨S512x1, .f32⟩
  | .hbm, ⟨108, _⟩ => ⟨S512x1, .f32⟩
  | .hbm, ⟨109, _⟩ => ⟨S_, .f32⟩
  | .hbm, ⟨110, _⟩ => ⟨S512x1, .f32⟩
  | .hbm, ⟨111, _⟩ => ⟨S512x1, .f32⟩
  | .hbm, ⟨112, _⟩ => ⟨S512, .f32⟩
  | _, _ => ⟨S512x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call2_cst : Ref sig .tc := ⟨.hbm, 35, rfl⟩
abbrev main_call2_v0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_0 : Ref sig .tc := ⟨.hbm, 45, rfl⟩
abbrev main_call3_v0 : Ref sig .tc := ⟨.hbm, 46, rfl⟩
abbrev main_call3_c : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_c_1 : Ref sig .tc := ⟨.hbm, 53, rfl⟩
abbrev main_call3_v5 : Ref sig .tc := ⟨.hbm, 54, rfl⟩
abbrev main_call3_v6 : Ref sig .tc := ⟨.hbm, 55, rfl⟩
abbrev main_call3_c_2 : Ref sig .tc := ⟨.hbm, 56, rfl⟩
abbrev main_call3_v7 : Ref sig .tc := ⟨.hbm, 57, rfl⟩
abbrev main_call3_v8 : Ref sig .tc := ⟨.hbm, 58, rfl⟩
abbrev main_call3_c_3 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_v12 : Ref sig .tc := ⟨.hbm, 63, rfl⟩
abbrev main_call3_v13 : Ref sig .tc := ⟨.hbm, 64, rfl⟩
abbrev main_call3_v14 : Ref sig .tc := ⟨.hbm, 65, rfl⟩
abbrev main_v21 : Ref sig .tc := ⟨.hbm, 66, rfl⟩
abbrev main_c_1 : Ref sig .tc := ⟨.hbm, 67, rfl⟩
abbrev main_v22 : Ref sig .tc := ⟨.hbm, 68, rfl⟩
abbrev main_v23 : Ref sig .tc := ⟨.hbm, 69, rfl⟩
abbrev main_c_2 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_call4_cst : Ref sig .tc := ⟨.hbm, 90, rfl⟩
abbrev main_call4_v0 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_call5_cst : Ref sig .tc := ⟨.hbm, 97, rfl⟩
abbrev main_call5_v0 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_cst : Ref sig .tc := ⟨.hbm, 106, rfl⟩
abbrev main_v55 : Ref sig .tc := ⟨.hbm, 107, rfl⟩
abbrev main_v56 : Ref sig .tc := ⟨.hbm, 108, rfl⟩
abbrev main_cst_3 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  bcast_S_S512x26 : S_.BroadcastsInDim S512x26 (![] : Fin 0 → Fin S512x26.rank)
  transposes_S512x26_S26x512_1_0 : S512x26.Transposes [1, 0] S26x512
  bcast_S26x512_S26x512x1_0_1 : S26x512.BroadcastsInDim S26x512x1 (![0, 1] : Fin 2 → Fin S26x512x1.rank)
  transposes_S26x512x16_S512x26x16_1_0_2 : S26x512x16.Transposes [1, 0, 2] S512x26x16
  shapeCasts_S512x26x16_S512x416 : S512x26x16.ShapeCasts S512x416
  concatenates_S512x16_S512x416_S512x432_d1 : Shape.Concatenates [S512x16, S512x416] S512x432 1
  bcast_S512x432_S512x432x1_0_1 : S512x432.BroadcastsInDim S512x432x1 (![0, 1] : Fin 2 → Fin S512x432x1.rank)
  bcast_S512x432_S512x1x432_0_2 : S512x432.BroadcastsInDim S512x1x432 (![0, 2] : Fin 2 → Fin S512x1x432.rank)
  bcast_S512x432x1_S512x432x432_0_1_2 : S512x432x1.BroadcastsInDim S512x432x432 (![0, 1, 2] : Fin 3 → Fin S512x432x432.rank)
  bcast_S512x1x432_S512x432x432_0_1_2 : S512x1x432.BroadcastsInDim S512x432x432 (![0, 1, 2] : Fin 3 → Fin S512x432x432.rank)
  shapeCasts_S512x432x432_S512x186624 : S512x432x432.ShapeCasts S512x186624
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  shapeCasts_S512x1_S512 : S512x1.ShapeCasts S512
  dot_S512x13_S13x512_S512x512_1_0_0_1_n_n_wf : DotDims.WF S512x13 S13x512 S512x512 [1] [0] [0] [1] [] []
  dot_S512x512_S512x256_S512x256_1_0_0_1_n_n_wf : DotDims.WF S512x512 S512x256 S512x256 [1] [0] [0] [1] [] []
  dot_S512x256_S256x64_S512x64_1_0_0_1_n_n_wf : DotDims.WF S512x256 S256x64 S512x64 [1] [0] [0] [1] [] []
  dot_S512x64_S64x16_S512x16_1_0_0_1_n_n_wf : DotDims.WF S512x64 S64x16 S512x16 [1] [0] [0] [1] [] []
  gather_S26x100000x16_S26x512x1_S26x512x16_2_1_0_0_1_2_1116_wf : GatherDims.WF S26x100000x16 S26x512x1 S26x512x16 [2] [1] [0] [1] [0] 2 ![1, 1, 16]
  dot_S512x186624_S186624x512_S512x512_1_0_0_1_n_n_wf : DotDims.WF S512x186624 S186624x512 S512x512 [1] [0] [0] [1] [] []
  dot_S512x256_S256x1_S512x1_1_0_0_1_n_n_wf : DotDims.WF S512x256 S256x1 S512x1 [1] [0] [0] [1] [] []

variable [Facts₀]

def dot_S512x13_S13x512_S512x512_1_0_0_1_n_n : DotDims S512x13 S13x512 S512x512 where
  lhsContracting := [1]
  rhsContracting := [0]
  lhsNonContracting := [0]
  rhsNonContracting := [1]
  lhsBatch := []
  rhsBatch := []
  wf := dot_S512x13_S13x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf
def gather_S26x100000x16_S26x512x1_S26x512x16_2_1_0_0_1_2_1116 : GatherDims S26x100000x16 S26x512x1 S26x512x16 where
  offsetDims := [2]
  collapsedSliceDims := [1]
  operandBatchingDims := [0]
  startIndicesBatchingDims := [0]
  startIndexMap := [1]
  indexVectorDim := 2
  sliceSizes := ![1, 1, 16]
  wf := gather_S26x100000x16_S26x512x1_S26x512x16_2_1_0_0_1_2_1116_wf
def dot_S512x186624_S186624x512_S512x512_1_0_0_1_n_n : DotDims S512x186624 S186624x512 S512x512 where
  lhsContracting := [1]
  rhsContracting := [0]
  lhsNonContracting := [0]
  rhsNonContracting := [1]
  lhsBatch := []
  rhsBatch := []
  wf := dot_S512x186624_S186624x512_S512x512_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.KernelPieces.lean ====
/-
  What each case of the kernel body leaves in the three buffers it carries from one grid step to the next, and in the output
  block, as pure functions of the input blocks.

  The body keeps z (the dense network's sixteen columns beside the 416 gathered embedding columns) in a [512, 432]
  buffer, its transpose in a [432, 512] buffer, and a [512, 512] accumulator. The first step fills the first two and
  zeroes the third; every step adds to the accumulator the product of eight rows of the transpose (against all of z,
  flattened) with that step's block of weights; the last step stores the prediction computed from the accumulator.
-/
import proofs.«182230_j49744311222349_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- A load of a whole buffer after the stores `L` reads what those stores leave. -/
theorem readCov_zero {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (L : List (View.Piece Val S e)) :
    v.readCov L (Rect.unit off S.size inb).toLoadRect = View.canon L :=
  (View.readCov_eq_canon' v L _).trans (View.ld_unit_zero h inb (View.canon L))

/-- Rows `8·i … 8·i + 7` of the transposed z, as the body loads them at grid step `i`. -/
abbrev slab (i : grid0.Coords) (zt : Vec F S432x512 .f32) : Vec F S8x512 .f32 :=
  View.ld zt (Rect.unit (s := S432x512) (k0_off1 i) S8x512.size (Facts₀.k0_off1_inb i))

/-- z as the first step lays it out: the dense columns `0 … 15` and the embedding columns `16 … 431`, two stores. -/
def zlay (d : Vec F S512x16 .f32) (s : Vec F S512x416 .f32) : Vec F S512x432 .f32 :=
  View.canon ([⟨Rect.unit (s := S512x432) ![0, 16] ![512, 416] Gen.inb_S512x432_S512x416_0_16, k0_pay2 s⟩,
    ⟨Rect.unit (s := S512x432) ![0, 0] ![512, 16] Gen.inb_S512x432_S512x16_0_0, k0_pay1 d⟩] : List (View.Piece (Elt F) S512x432 .f32))

/-- The first step leaves z in the first buffer. -/
theorem first_z (c : Dev nD) (i : grid0.Coords) (arg1 : Memref sig .tc .vmem S512x13 .f32) (harg1 : arg1.IsWhole) (arg2 : Memref sig .tc .vmem S512x416 .f32) (harg2 : arg2.IsWhole) (arg3 : Memref sig .tc .vmem S13x512 .f32) (harg3 : arg3.IsWhole) (arg4 : Memref sig .tc .vmem S512 .f32) (harg4 : arg4.IsWhole) (arg5 : Memref sig .tc .vmem S512x256 .f32) (harg5 : arg5.IsWhole) (arg6 : Memref sig .tc .vmem S256 .f32) (harg6 : arg6.IsWhole) (arg7 : Memref sig .tc .vmem S256x64 .f32) (harg7 : arg7.IsWhole) (arg8 : Memref sig .tc .vmem S64 .f32) (harg8 : arg8.IsWhole) (arg9 : Memref sig .tc .vmem S64x16 .f32) (harg9 : arg9.IsWhole) (arg10 : Memref sig .tc .vmem S16 .f32) (harg10 : arg10.IsWhole) (arg11 : Memref sig .tc .vmem S3456x512 .f32) (harg11 : arg11.IsWhole) (arg12 : Memref sig .tc .vmem S512 .f32) (harg12 : arg12.IsWhole) (arg13 : Memref sig .tc .vmem S512x256 .f32) (harg13 : arg13.IsWhole) (arg14 : Memref sig .tc .vmem S256 .f32) (harg14 : arg14.IsWhole) (arg15 : Memref sig .tc .vmem S256x1 .f32) (harg15 : arg15.IsWhole) (arg16 : Memref sig .tc .vmem S1 .f32) (harg16 : arg16.IsWhole) (arg17 : Memref sig .tc .vmem S512 .f32) (harg17 : arg17.IsWhole) (arg18 : Memref sig .tc .vmem S512x432 .f32) (harg18 : arg18.IsWhole) (arg19 : Memref sig .tc .vmem S432x512 .f32) (harg19 : arg19.IsWhole) (arg20 : Memref sig .tc .vmem S512x512 .f32) (harg20 : arg20.IsWhole) (hc0 : cond0_0 i) (hc1 : ¬cond0_1 i)
    (x0 : Vec F S512x13 .f32) (x1 : Vec F S512x416 .f32) (x2 : Vec F S13x512 .f32) (x3 : Vec F S512 .f32) (x4 : Vec F S512x256 .f32) (x5 : Vec F S256 .f32) (x6 : Vec F S256x64 .f32) (x7 : Vec F S64 .f32) (x8 : Vec F S64x16 .f32) (x9 : Vec F S16 .f32) (x10 : Vec F S3456x512 .f32) (x11 : Vec F S512 .f32) (x12 : Vec F S512x256 .f32) (x13 : Vec F S256 .f32) (x14 : Vec F S256x1 .f32) (x15 : Vec F S1 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 = zlay (k0_pay7 x0 x2 x3 x4 x5 x6 x7 x8 x9) x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x13) hz2, View.ld_unit_zero (S := S13x512) hz2, View.ld_unit_zero (S := S512x256) hz2, View.ld_unit_zero (S := S256x64) hz2, View.ld_unit_zero (S := S64x16) hz2, View.ld_unit_zero (S := S512x416) hz2, View.ld_unit_zero (S := S512) hz1, View.ld_unit_zero (S := S256) hz1, View.ld_unit_zero (S := S64) hz1, View.ld_unit_zero (S := S16) hz1]
  rfl

/-- The first step leaves the transpose of z in the second buffer. -/
theorem first_zt (c : Dev nD) (i : grid0.Coords) (arg1 : Memref sig .tc .vmem S512x13 .f32) (harg1 : arg1.IsWhole) (arg2 : Memref sig .tc .vmem S512x416 .f32) (harg2 : arg2.IsWhole) (arg3 : Memref sig .tc .vmem S13x512 .f32) (harg3 : arg3.IsWhole) (arg4 : Memref sig .tc .vmem S512 .f32) (harg4 : arg4.IsWhole) (arg5 : Memref sig .tc .vmem S512x256 .f32) (harg5 : arg5.IsWhole) (arg6 : Memref sig .tc .vmem S256 .f32) (harg6 : arg6.IsWhole) (arg7 : Memref sig .tc .vmem S256x64 .f32) (harg7 : arg7.IsWhole) (arg8 : Memref sig .tc .vmem S64 .f32) (harg8 : arg8.IsWhole) (arg9 : Memref sig .tc .vmem S64x16 .f32) (harg9 : arg9.IsWhole) (arg10 : Memref sig .tc .vmem S16 .f32) (harg10 : arg10.IsWhole) (arg11 : Memref sig .tc .vmem S3456x512 .f32) (harg11 : arg11.IsWhole) (arg12 : Memref sig .tc .vmem S512 .f32) (harg12 : arg12.IsWhole) (arg13 : Memref sig .tc .vmem S512x256 .f32) (harg13 : arg13.IsWhole) (arg14 : Memref sig .tc .vmem S256 .f32) (harg14 : arg14.IsWhole) (arg15 : Memref sig .tc .vmem S256x1 .f32) (harg15 : arg15.IsWhole) (arg16 : Memref sig .tc .vmem S1 .f32) (harg16 : arg16.IsWhole) (arg17 : Memref sig .tc .vmem S512 .f32) (harg17 : arg17.IsWhole) (arg18 : Memref sig .tc .vmem S512x432 .f32) (harg18 : arg18.IsWhole) (arg19 : Memref sig .tc .vmem S432x512 .f32) (harg19 : arg19.IsWhole) (arg20 : Memref sig .tc .vmem S512x512 .f32) (harg20 : arg20.IsWhole) (hc0 : cond0_0 i) (hc1 : ¬cond0_1 i)
    (x0 : Vec F S512x13 .f32) (x1 : Vec F S512x416 .f32) (x2 : Vec F S13x512 .f32) (x3 : Vec F S512 .f32) (x4 : Vec F S512x256 .f32) (x5 : Vec F S256 .f32) (x6 : Vec F S256x64 .f32) (x7 : Vec F S64 .f32) (x8 : Vec F S64x16 .f32) (x9 : Vec F S16 .f32) (x10 : Vec F S3456x512 .f32) (x11 : Vec F S512 .f32) (x12 : Vec F S512x256 .f32) (x13 : Vec F S256 .f32) (x14 : Vec F S256x1 .f32) (x15 : Vec F S1 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 = k0_pay3 (zlay (k0_pay7 x0 x2 x3 x4 x5 x6 x7 x8 x9) x1) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15)]
  unfold kernelRun0_A
  dsimp only
  sl_unfold_words
  rw [View.canon_unit_zero (S := S432x512) hz2, readCov_zero _ hz2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x13) hz2, View.ld_unit_zero (S := S13x512) hz2, View.ld_unit_zero (S := S512x256) hz2, View.ld_unit_zero (S := S256x64) hz2, View.ld_unit_zero (S := S64x16) hz2, View.ld_unit_zero (S := S512x416) hz2, View.ld_unit_zero (S := S512) hz1, View.ld_unit_zero (S := S256) hz1, View.ld_unit_zero (S := S64) hz1, View.ld_unit_zero (S := S16) hz1]
  rfl

/-- The first step leaves in the accumulator the zero array plus the first product. -/
theorem first_acc (c : Dev nD) (i : grid0.Coords) (arg1 : Memref sig .tc .vmem S512x13 .f32) (harg1 : arg1.IsWhole) (arg2 : Memref sig .tc .vmem S512x416 .f32) (harg2 : arg2.IsWhole) (arg3 : Memref sig .tc .vmem S13x512 .f32) (harg3 : arg3.IsWhole) (arg4 : Memref sig .tc .vmem S512 .f32) (harg4 : arg4.IsWhole) (arg5 : Memref sig .tc .vmem S512x256 .f32) (harg5 : arg5.IsWhole) (arg6 : Memref sig .tc .vmem S256 .f32) (harg6 : arg6.IsWhole) (arg7 : Memref sig .tc .vmem S256x64 .f32) (harg7 : arg7.IsWhole) (arg8 : Memref sig .tc .vmem S64 .f32) (harg8 : arg8.IsWhole) (arg9 : Memref sig .tc .vmem S64x16 .f32) (harg9 : arg9.IsWhole) (arg10 : Memref sig .tc .vmem S16 .f32) (harg10 : arg10.IsWhole) (arg11 : Memref sig .tc .vmem S3456x512 .f32) (harg11 : arg11.IsWhole) (arg12 : Memref sig .tc .vmem S512 .f32) (harg12 : arg12.IsWhole) (arg13 : Memref sig .tc .vmem S512x256 .f32) (harg13 : arg13.IsWhole) (arg14 : Memref sig .tc .vmem S256 .f32) (harg14 : arg14.IsWhole) (arg15 : Memref sig .tc .vmem S256x1 .f32) (harg15 : arg15.IsWhole) (arg16 : Memref sig .tc .vmem S1 .f32) (harg16 : arg16.IsWhole) (arg17 : Memref sig .tc .vmem S512 .f32) (harg17 : arg17.IsWhole) (arg18 : Memref sig .tc .vmem S512x432 .f32) (harg18 : arg18.IsWhole) (arg19 : Memref sig .tc .vmem S432x512 .f32) (harg19 : arg19.IsWhole) (arg20 : Memref sig .tc .vmem S512x512 .f32) (harg20 : arg20.IsWhole) (hc0 : cond0_0 i) (hc1 : ¬cond0_1 i)
    (x0 : Vec F S512x13 .f32) (x1 : Vec F S512x416 .f32) (x2 : Vec F S13x512 .f32) (x3 : Vec F S512 .f32) (x4 : Vec F S512x256 .f32) (x5 : Vec F S256 .f32) (x6 : Vec F S256x64 .f32) (x7 : Vec F S64 .f32) (x8 : Vec F S64x16 .f32) (x9 : Vec F S16 .f32) (x10 : Vec F S3456x512 .f32) (x11 : Vec F S512 .f32) (x12 : Vec F S512x256 .f32) (x13 : Vec F S256 .f32) (x14 : Vec F S256x1 .f32) (x15 : Vec F S1 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 = k0_pay5 (slab i (k0_pay3 (zlay (k0_pay7 x0 x2 x3 x4 x5 x6 x7 x8 x9) x1))) (zlay (k0_pay7 x0 x2 x3 x4 x5 x6 x7 x8 x9) x1) x10 k0_pay4 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15)]
  unfold kernelRun0_A
  dsimp only
  sl_unfold_words
  rw [View.canon_cons_unit_zero (S := S512x512) hz2, View.readAt_writes_junk_eq_canon, View.canon_unit_zero (S := S432x512) hz2,
    readCov_zero _ hz2, readCov_zero _ hz2, View.canon_unit_zero (S := S512x512) hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S512x13) hz2, View.ld_unit_zero (S := S13x512) hz2, View.ld_unit_zero (S := S512x256) hz2, View.ld_unit_zero (S := S256x64) hz2, View.ld_unit_zero (S := S64x16) hz2, View.ld_unit_zero (S := S512x416) hz2, View.ld_unit_zero (S := S512) hz1, View.ld_unit_zero (S := S256) hz1, View.ld_unit_zero (S := S64) hz1, View.ld_unit_zero (S := S16) hz1, View.ld_unit_zero (S := S3456x512) hz2]
  rfl

/-- A later step adds its product to what the accumulator held. -/
theorem next_acc (c : Dev nD) (i : grid0.Coords) (arg1 : Memref sig .tc .vmem S512x13 .f32) (harg1 : arg1.IsWhole) (arg2 : Memref sig .tc .vmem S512x416 .f32) (harg2 : arg2.IsWhole) (arg3 : Memref sig .tc .vmem S13x512 .f32) (harg3 : arg3.IsWhole) (arg4 : Memref sig .tc .vmem S512 .f32) (harg4 : arg4.IsWhole) (arg5 : Memref sig .tc .vmem S512x256 .f32) (harg5 : arg5.IsWhole) (arg6 : Memref sig .tc .vmem S256 .f32) (harg6 : arg6.IsWhole) (arg7 : Memref sig .tc .vmem S256x64 .f32) (harg7 : arg7.IsWhole) (arg8 : Memref sig .tc .vmem S64 .f32) (harg8 : arg8.IsWhole) (arg9 : Memref sig .tc .vmem S64x16 .f32) (harg9 : arg9.IsWhole) (arg10 : Memref sig .tc .vmem S16 .f32) (harg10 : arg10.IsWhole) (arg11 : Memref sig .tc .vmem S3456x512 .f32) (harg11 : arg11.IsWhole) (arg12 : Memref sig .tc .vmem S512 .f32) (harg12 : arg12.IsWhole) (arg13 : Memref sig .tc .vmem S512x256 .f32) (harg13 : arg13.IsWhole) (arg14 : Memref sig .tc .vmem S256 .f32) (harg14 : arg14.IsWhole) (arg15 : Memref sig .tc .vmem S256x1 .f32) (harg15 : arg15.IsWhole) (arg16 : Memref sig .tc .vmem S1 .f32) (harg16 : arg16.IsWhole) (arg17 : Memref sig .tc .vmem S512 .f32) (harg17 : arg17.IsWhole) (arg18 : Memref sig .tc .vmem S512x432 .f32) (harg18 : arg18.IsWhole) (arg19 : Memref sig .tc .vmem S432x512 .f32) (harg19 : arg19.IsWhole) (arg20 : Memref sig .tc .vmem S512x512 .f32) (harg20 : arg20.IsWhole) (hc0 : ¬cond0_0 i) (hc1 : ¬cond0_1 i)
    (x0 : Vec F S512x13 .f32) (x1 : Vec F S512x416 .f32) (x2 : Vec F S13x512 .f32) (x3 : Vec F S512 .f32) (x4 : Vec F S512x256 .f32) (x5 : Vec F S256 .f32) (x6 : Vec F S256x64 .f32) (x7 : Vec F S64 .f32) (x8 : Vec F S64x16 .f32) (x9 : Vec F S16 .f32) (x10 : Vec F S3456x512 .f32) (x11 : Vec F S512 .f32) (x12 : Vec F S512x256 .f32) (x13 : Vec F S256 .f32) (x14 : Vec F S256x1 .f32) (x15 : Vec F S1 .f32) (xs0 : Vec F S512x432 .f32) (xs1 : Vec F S432x512 .f32) (xs2 : Vec F S512x512 .f32) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 xs0 xs1 xs2 = k0_pay5 (slab i xs1) xs0 x10 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 xs0 xs1 xs2)]
  unfold kernelRun0_B
  dsimp only
  rw [View.canon_unit_zero (S := S512x512) hz2]
  simp only [View.readAt_eq_ld, harg11.read_unread, harg18.read_unread, harg19.read_unread, harg20.read_unread, View.ld_unit_zero (S := S512x432) hz2, View.ld_unit_zero (S := S3456x512) hz2, View.ld_unit_zero (S := S512x512) hz2]

/-- So does the last step, -/
theorem last_acc (c : Dev nD) (i : grid0.Coords) (arg1 : Memref sig .tc .vmem S512x13 .f32) (harg1 : arg1.IsWhole) (arg2 : Memref sig .tc .vmem S512x416 .f32) (harg2 : arg2.IsWhole) (arg3 : Memref sig .tc .vmem S13x512 .f32) (harg3 : arg3.IsWhole) (arg4 : Memref sig .tc .vmem S512 .f32) (harg4 : arg4.IsWhole) (arg5 : Memref sig .tc .vmem S512x256 .f32) (harg5 : arg5.IsWhole) (arg6 : Memref sig .tc .vmem S256 .f32) (harg6 : arg6.IsWhole) (arg7 : Memref sig .tc .vmem S256x64 .f32) (harg7 : arg7.IsWhole) (arg8 : Memref sig .tc .vmem S64 .f32) (harg8 : arg8.IsWhole) (arg9 : Memref sig .tc .vmem S64x16 .f32) (harg9 : arg9.IsWhole) (arg10 : Memref sig .tc .vmem S16 .f32) (harg10 : arg10.IsWhole) (arg11 : Memref sig .tc .vmem S3456x512 .f32) (harg11 : arg11.IsWhole) (arg12 : Memref sig .tc .vmem S512 .f32) (harg12 : arg12.IsWhole) (arg13 : Memref sig .tc .vmem S512x256 .f32) (harg13 : arg13.IsWhole) (arg14 : Memref sig .tc .vmem S256 .f32) (harg14 : arg14.IsWhole) (arg15 : Memref sig .tc .vmem S256x1 .f32) (harg15 : arg15.IsWhole) (arg16 : Memref sig .tc .vmem S1 .f32) (harg16 : arg16.IsWhole) (arg17 : Memref sig .tc .vmem S512 .f32) (harg17 : arg17.IsWhole) (arg18 : Memref sig .tc .vmem S512x432 .f32) (harg18 : arg18.IsWhole) (arg19 : Memref sig .tc .vmem S432x512 .f32) (harg19 : arg19.IsWhole) (arg20 : Memref sig .tc .vmem S512x512 .f32) (harg20 : arg20.IsWhole) (hc0 : ¬cond0_0 i) (hc1 : cond0_1 i)
    (x0 : Vec F S512x13 .f32) (x1 : Vec F S512x416 .f32) (x2 : Vec F S13x512 .f32) (x3 : Vec F S512 .f32) (x4 : Vec F S512x256 .f32) (x5 : Vec F S256 .f32) (x6 : Vec F S256x64 .f32) (x7 : Vec F S64 .f32) (x8 : Vec F S64x16 .f32) (x9 : Vec F S16 .f32) (x10 : Vec F S3456x512 .f32) (x11 : Vec F S512 .f32) (x12 : Vec F S512x256 .f32) (x13 : Vec F S256 .f32) (x14 : Vec F S256x1 .f32) (x15 : Vec F S1 .f32) (xs0 : Vec F S512x432 .f32) (xs1 : Vec F S432x512 .f32) (xs2 : Vec F S512x512 .f32) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 xs0 xs1 xs2 = k0_pay5 (slab i xs1) xs0 x10 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 xs0 xs1 xs2)]
  unfold kernelRun0_C
  dsimp only
  sl_unfold_words
  rw [View.canon_unit_zero (S := S512x512) hz2]
  simp only [View.readAt_eq_ld, harg11.read_unread, harg18.read_unread, harg19.read_unread, harg20.read_unread, View.ld_unit_zero (S := S512x432) hz2, View.ld_unit_zero (S := S3456x512) hz2, View.ld_unit_zero (S := S512x512) hz2]
  rfl

/-- and it stores, in the output block, the prediction computed from the accumulator it has just updated. -/
theorem last_out (c : Dev nD) (i : grid0.Coords) (arg1 : Memref sig .tc .vmem S512x13 .f32) (harg1 : arg1.IsWhole) (arg2 : Memref sig .tc .vmem S512x416 .f32) (harg2 : arg2.IsWhole) (arg3 : Memref sig .tc .vmem S13x512 .f32) (harg3 : arg3.IsWhole) (arg4 : Memref sig .tc .vmem S512 .f32) (harg4 : arg4.IsWhole) (arg5 : Memref sig .tc .vmem S512x256 .f32) (harg5 : arg5.IsWhole) (arg6 : Memref sig .tc .vmem S256 .f32) (harg6 : arg6.IsWhole) (arg7 : Memref sig .tc .vmem S256x64 .f32) (harg7 : arg7.IsWhole) (arg8 : Memref sig .tc .vmem S64 .f32) (harg8 : arg8.IsWhole) (arg9 : Memref sig .tc .vmem S64x16 .f32) (harg9 : arg9.IsWhole) (arg10 : Memref sig .tc .vmem S16 .f32) (harg10 : arg10.IsWhole) (arg11 : Memref sig .tc .vmem S3456x512 .f32) (harg11 : arg11.IsWhole) (arg12 : Memref sig .tc .vmem S512 .f32) (harg12 : arg12.IsWhole) (arg13 : Memref sig .tc .vmem S512x256 .f32) (harg13 : arg13.IsWhole) (arg14 : Memref sig .tc .vmem S256 .f32) (harg14 : arg14.IsWhole) (arg15 : Memref sig .tc .vmem S256x1 .f32) (harg15 : arg15.IsWhole) (arg16 : Memref sig .tc .vmem S1 .f32) (harg16 : arg16.IsWhole) (arg17 : Memref sig .tc .vmem S512 .f32) (harg17 : arg17.IsWhole) (arg18 : Memref sig .tc .vmem S512x432 .f32) (harg18 : arg18.IsWhole) (arg19 : Memref sig .tc .vmem S432x512 .f32) (harg19 : arg19.IsWhole) (arg20 : Memref sig .tc .vmem S512x512 .f32) (harg20 : arg20.IsWhole) (hc0 : ¬cond0_0 i) (hc1 : cond0_1 i)
    (x0 : Vec F S512x13 .f32) (x1 : Vec F S512x416 .f32) (x2 : Vec F S13x512 .f32) (x3 : Vec F S512 .f32) (x4 : Vec F S512x256 .f32) (x5 : Vec F S256 .f32) (x6 : Vec F S256x64 .f32) (x7 : Vec F S64 .f32) (x8 : Vec F S64x16 .f32) (x9 : Vec F S16 .f32) (x10 : Vec F S3456x512 .f32) (x11 : Vec F S512 .f32) (x12 : Vec F S512x256 .f32) (x13 : Vec F S256 .f32) (x14 : Vec F S256x1 .f32) (x15 : Vec F S1 .f32) (xs0 : Vec F S512x432 .f32) (xs1 : Vec F S432x512 .f32) (xs2 : Vec F S512x512 .f32) :
    out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 xs0 xs1 xs2 = k0_pay6 (k0_pay5 (slab i xs1) xs0 x10 xs2) x11 x12 x13 x14 x15 := by
  unfold out0_C_16
  rw [View.read_writes_eq_canon _ _ _ (cover0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 x14 x15 xs0 xs1 xs2)]
  unfold kernelRun0_C
  dsimp only
  sl_unfold_words
  rw [View.canon_unit_zero (S := S512) hz1, readCov_zero _ hz2, View.canon_unit_zero (S := S512x512) hz2]
  simp only [View.readAt_eq_ld, harg11.read_unread, harg12.read_unread, harg13.read_unread, harg14.read_unread, harg15.read_unread, harg16.read_unread, harg18.read_unread, harg19.read_unread, harg20.read_unread, View.ld_unit_zero (S := S512x432) hz2, View.ld_unit_zero (S := S3456x512) hz2, View.ld_unit_zero (S := S512x512) hz2, View.ld_unit_zero (S := S512x256) hz2, View.ld_unit_zero (S := S256x1) hz2, View.ld_unit_zero (S := S512) hz1, View.ld_unit_zero (S := S256) hz1, View.ld_unit_zero (S := S1) hz1]
  rfl

end Cert.KernelIdeal.Pieces

end
-- ==== Proof.KernelSweep.lean ====
/-
  The kernel's run read as values. By induction on the grid step, the three carried buffers hold: z (laid out by the first
  step from the blocks that step reads), the transpose of z, and the running accumulator `((0 + P₀) + P₁) + … + Pₙ` of the
  steps' products. The last step's output block is the prediction computed from the full accumulator; that block is the
  whole result array, written back once, after the last step.
-/
import proofs.«182230_j49744311222349_2_alg».proof.Proof.KernelPieces
import proofs.«182230_j49744311222349_2_alg».proof.Proof.Gen.KernelIdeal.Value
import Idealize.ShloMosaic.Lib.Pipeline.Value

set_option maxRecDepth 16384

noncomputable section

open Idealize.ShloMosaic Idealize.ShloMosaic.TcCoe Idealize.SL.Sem

namespace Cert.KernelIdeal.Sweep

open Cert.KernelIdeal Cert.KernelIdeal.Gen Cert.KernelIdeal.Pieces
open Idealize.ShloMosaic.Pipeline (Dat)

variable {F : FTy → Type} [FloatOps F]
variable (m : (ℓ : Loc nD τ sig) → Buf (Elt F) ℓ) (ρ : Dev nD → PrngReg)

theorem hN : cfg0.N = 54 := N_0

/-- The first and the last grid step. -/
abbrev pFirst : Fin cfg0.N := ⟨0, by rw [hN]; decide⟩
abbrev pLast : Fin cfg0.N := ⟨53, by rw [hN]; decide⟩

/-- z, from the blocks a step reads: the dense network of the feature block beside the embedding block. -/
def zAt (c : Dev nD) (t : Fin cfg0.N) : Vec F S512x432 .f32 := zlay (k0_pay7 (iblk m c 0 t) (iblk m c 2 t) (iblk m c 3 t) (iblk m c 4 t) (iblk m c 5 t) (iblk m c 6 t) (iblk m c 7 t) (iblk m c 8 t) (iblk m c 9 t)) (iblk m c 1 t)

/-! ## One step, component by component -/

set_option maxHeartbeats 4000000 in
theorem first_z_at (c : Dev nD) (t : Fin cfg0.N) (h0 : t.val % 54 = 0) (h1 : ¬t.val % 54 = 53) :
    (outsAt0 m c t.val t.isLt).2.1 = zAt m c t :=
  (congrArg (fun p => p.2.1) (outsAt0_A m c t h0 h1)).trans (first_z c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))

set_option maxHeartbeats 4000000 in
theorem first_zt_at (c : Dev nD) (t : Fin cfg0.N) (h0 : t.val % 54 = 0) (h1 : ¬t.val % 54 = 53) :
    (outsAt0 m c t.val t.isLt).2.2.1 = k0_pay3 (zAt m c t) :=
  (congrArg (fun p => p.2.2.1) (outsAt0_A m c t h0 h1)).trans (first_zt c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))

set_option maxHeartbeats 4000000 in
theorem first_acc_at (c : Dev nD) (t : Fin cfg0.N) (h0 : t.val % 54 = 0) (h1 : ¬t.val % 54 = 53) :
    (outsAt0 m c t.val t.isLt).2.2.2
      = k0_pay5 (slab (grid0.coords t) (k0_pay3 (zAt m c t))) (zAt m c t) (iblk m c 10 t) k0_pay4 :=
  (congrArg (fun p => p.2.2.2) (outsAt0_A m c t h0 h1)).trans (first_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))

theorem next_z_at (c : Dev nD) (t : Fin cfg0.N) (h0 : ¬t.val % 54 = 0) (h1 : ¬t.val % 54 = 53) :
    (outsAt0 m c t.val t.isLt).2.1 = (outsAt0 m c (t.val - 1) (Nat.lt_of_le_of_lt (Nat.sub_le _ _) t.isLt)).2.1 :=
  congrArg (fun p => p.2.1) (outsAt0_B m c t h0 h1)

theorem next_zt_at (c : Dev nD) (t : Fin cfg0.N) (h0 : ¬t.val % 54 = 0) (h1 : ¬t.val % 54 = 53) :
    (outsAt0 m c t.val t.isLt).2.2.1 = (outsAt0 m c (t.val - 1) (Nat.lt_of_le_of_lt (Nat.sub_le _ _) t.isLt)).2.2.1 :=
  congrArg (fun p => p.2.2.1) (outsAt0_B m c t h0 h1)

set_option maxHeartbeats 4000000 in
theorem next_acc_at (c : Dev nD) (t : Fin cfg0.N) (h0 : ¬t.val % 54 = 0) (h1 : ¬t.val % 54 = 53) :
    (outsAt0 m c t.val t.isLt).2.2.2
      = k0_pay5 (slab (grid0.coords t) (outsAt0 m c (t.val - 1) (Nat.lt_of_le_of_lt (Nat.sub_le _ _) t.isLt)).2.2.1) (outsAt0 m c (t.val - 1) (Nat.lt_of_le_of_lt (Nat.sub_le _ _) t.isLt)).2.1 (iblk m c 10 t) (outsAt0 m c (t.val - 1) (Nat.lt_of_le_of_lt (Nat.sub_le _ _) t.isLt)).2.2.2 :=
  (congrArg (fun p => p.2.2.2) (outsAt0_B m c t h0 h1)).trans (next_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

theorem last_z_at (c : Dev nD) (t : Fin cfg0.N) (h0 : ¬t.val % 54 = 0) (h1 : t.val % 54 = 53) :
    (outsAt0 m c t.val t.isLt).2.1 = (outsAt0 m c (t.val - 1) (Nat.lt_of_le_of_lt (Nat.sub_le _ _) t.isLt)).2.1 :=
  congrArg (fun p => p.2.1) (outsAt0_C m c t h0 h1)

theorem last_zt_at (c : Dev nD) (t : Fin cfg0.N) (h0 : ¬t.val % 54 = 0) (h1 : t.val % 54 = 53) :
    (outsAt0 m c t.val t.isLt).2.2.1 = (outsAt0 m c (t.val - 1) (Nat.lt_of_le_of_lt (Nat.sub_le _ _) t.isLt)).2.2.1 :=
  congrArg (fun p => p.2.2.1) (outsAt0_C m c t h0 h1)

set_option maxHeartbeats 4000000 in
theorem last_acc_at (c : Dev nD) (t : Fin cfg0.N) (h0 : ¬t.val % 54 = 0) (h1 : t.val % 54 = 53) :
    (outsAt0 m c t.val t.isLt).2.2.2
      = k0_pay5 (slab (grid0.coords t) (outsAt0 m c (t.val - 1) (Nat.lt_of_le_of_lt (Nat.sub_le _ _) t.isLt)).2.2.1) (outsAt0 m c (t.val - 1) (Nat.lt_of_le_of_lt (Nat.sub_le _ _) t.isLt)).2.1 (iblk m c 10 t) (outsAt0 m c (t.val - 1) (Nat.lt_of_le_of_lt (Nat.sub_le _ _) t.isLt)).2.2.2 :=
  (congrArg (fun p => p.2.2.2) (outsAt0_C m c t h0 h1)).trans (last_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

set_option maxHeartbeats 4000000 in
theorem last_out_at (c : Dev nD) (t : Fin cfg0.N) (h0 : ¬t.val % 54 = 0) (h1 : t.val % 54 = 53) :
    (outsAt0 m c t.val t.isLt).1
      = k0_pay6 (k0_pay5 (slab (grid0.coords t) (outsAt0 m c (t.val - 1) (Nat.lt_of_le_of_lt (Nat.sub_le _ _) t.isLt)).2.2.1) (outsAt0 m c (t.val - 1) (Nat.lt_of_le_of_lt (Nat.sub_le _ _) t.isLt)).2.1 (iblk m c 10 t) (outsAt0 m c (t.val - 1) (Nat.lt_of_le_of_lt (Nat.sub_le _ _) t.isLt)).2.2.2)
          (iblk m c 11 t) (iblk m c 12 t) (iblk m c 13 t) (iblk m c 14 t) (iblk m c 15 t) :=
  (congrArg (fun p => p.1) (outsAt0_C m c t h0 h1)).trans (last_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

/-! ## All the steps -/

/-- z as the first step lays it out. -/
def zK (c : Dev nD) : Vec F S512x432 .f32 := zAt m c pFirst

/-- The running accumulator after step `n`: the zero array plus the products of steps `0 … n`, added in step order. -/
def accK (c : Dev nD) : (n : ℕ) → n < cfg0.N → Vec F S512x512 .f32
  | 0, h => k0_pay5 (slab (grid0.coords ⟨0, h⟩) (k0_pay3 (zK m c))) (zK m c) (iblk m c 10 ⟨0, h⟩) k0_pay4
  | n + 1, h => k0_pay5 (slab (grid0.coords ⟨n + 1, h⟩) (k0_pay3 (zK m c))) (zK m c) (iblk m c 10 ⟨n + 1, h⟩)
      (accK c n (Nat.lt_of_succ_lt h))

/-- What the carried buffers hold after step `n`. -/
theorem carried (c : Dev nD) : ∀ (n : ℕ) (h : n < cfg0.N),
    (outsAt0 m c n h).2.1 = zK m c ∧ (outsAt0 m c n h).2.2.1 = k0_pay3 (zK m c) ∧ (outsAt0 m c n h).2.2.2 = accK m c n h
  | 0, h => ⟨first_z_at m c ⟨0, h⟩ rfl (by dsimp only; decide), first_zt_at m c ⟨0, h⟩ rfl (by dsimp only; decide),
      first_acc_at m c ⟨0, h⟩ rfl (by dsimp only; decide)⟩
  | n + 1, h => by
    have hlt : n + 1 < 54 := lt_of_lt_of_eq h hN
    obtain ⟨e0, e1, e2⟩ := carried c n (Nat.lt_of_succ_lt h)
    have h0 : ¬(⟨n + 1, h⟩ : Fin cfg0.N).val % 54 = 0 := by dsimp only; omega
    by_cases h1 : (⟨n + 1, h⟩ : Fin cfg0.N).val % 54 = 53
    · refine ⟨(last_z_at m c ⟨n + 1, h⟩ h0 h1).trans e0, (last_zt_at m c ⟨n + 1, h⟩ h0 h1).trans e1,
        (last_acc_at m c ⟨n + 1, h⟩ h0 h1).trans ?_⟩
      show k0_pay5 (slab _ (outsAt0 m c n _).2.2.1) (outsAt0 m c n _).2.1 _ (outsAt0 m c n _).2.2.2 = _
      rw [e0, e1, e2]
      rfl
    · refine ⟨(next_z_at m c ⟨n + 1, h⟩ h0 h1).trans e0, (next_zt_at m c ⟨n + 1, h⟩ h0 h1).trans e1,
        (next_acc_at m c ⟨n + 1, h⟩ h0 h1).trans ?_⟩
      show k0_pay5 (slab _ (outsAt0 m c n _).2.2.1) (outsAt0 m c n _).2.1 _ (outsAt0 m c n _).2.2.2 = _
      rw [e0, e1, e2]
      rfl

/-- The prediction: the last step's output block, computed from the full accumulator and the blocks that step reads. -/
def resultK (c : Dev nD) : Vec F S512 .f32 :=
  k0_pay6 (accK m c 53 pLast.isLt) (iblk m c 11 pLast) (iblk m c 12 pLast) (iblk m c 13 pLast) (iblk m c 14 pLast) (iblk m c 15 pLast)

/-- The last step leaves it in the output's block. -/
theorem out_last (c : Dev nD) : (outsAt0 m c pLast.val pLast.isLt).1 = resultK m c := by
  obtain ⟨e0, e1, e2⟩ := carried m c 52 (by rw [hN]; decide)
  refine (last_out_at m c pLast (by decide) (by decide)).trans ?_
  show k0_pay6 (k0_pay5 (slab _ (outsAt0 m c 52 _).2.2.1) (outsAt0 m c 52 _).2.1 _ (outsAt0 m c 52 _).2.2.2) _ _ _ _ _ = _
  rw [e0, e1, e2]
  rfl

end Cert.KernelIdeal.Sweep

end
-- ==== Proof.KernelFinal.lean ====
/-
  The result array after the kernel's run. Only the last grid step writes the output block back, and that block is the whole
  [512] array: so the array ends holding the prediction the last step computed.
-/
import proofs.«182230_j49744311222349_2_alg».proof.Proof.KernelSweep

set_option maxRecDepth 16384

noncomputable section

open Idealize.ShloMosaic Idealize.ShloMosaic.TcCoe Idealize.SL.Sem

namespace Cert.KernelIdeal.Sweep

open Cert.KernelIdeal Cert.KernelIdeal.Gen Cert.KernelIdeal.Pieces
open Idealize.ShloMosaic.Pipeline (Dat)

variable {F : FTy → Type} [FloatOps F]
variable (m : (ℓ : Loc nD τ sig) → Buf (Elt F) ℓ) (ρ : Dev nD → PrngReg)

/-- The one write-back, after the last step, writes the prediction: the block at zero offsets is the array. -/
theorem flushed_eq (c : Dev nD) (t : Fin cfg0.N) (hf : (cfg0.win 16).flush t = true) :
    (dats m 0 c).flushed 16 t = ((cfg0.win 16).blk t).view.read (Elt F) (resultK m c) := by
  have h53 : t.val = 53 := by
    have h1 := (flush0_16 t).mp hf
    have h2 := lt_of_lt_of_eq t.isLt hN
    omega
  obtain rfl : t = pLast := Fin.ext h53
  show (cfg0.win 16).cut (grid0.coords pLast) ((dats m 0 c).after 16 pLast) = _
  rw [after0_16, out_last]
  have hz' : (fun a => win0_16.index pLast a * main_v13.ty.shape.size a) = fun _ => 0 :=
    funext fun a => by fin_cases a <;> decide +kernel
  exact (Memref.read_access_unit_zero (Elt F) main_v13 hz' (fun a => by rw [congrFun hz' a]; simp) (resultK m c)).symm

/-- So the result array ends holding it. -/
theorem final (c : Dev nD) : (dats m 0 c).arrAt 16 cfg0.N = resultK m c :=
  (dats m 0 c).arrAt_eq_of_cover 16 (resultK m c) (flushed_eq m c) fun i =>
    ⟨pLast, (flush0_16 pLast).mpr (by decide), by
      show i ∈ ((View.whole main_v13).slice (win0_16.rect pLast)).set
      rw [View.set_slice_whole, Rect.mem_set_unit]
      intro a
      have h0 : (i 0 : Nat) < 512 := (i 0).isLt
      match a with
      | ⟨0, _⟩ =>
        show win0_16.index pLast 0 * win0_16.size 0 ≤ (i 0 : Nat)
          ∧ (i 0 : Nat) < win0_16.index pLast 0 * win0_16.size 0 + win0_16.xsize (grid0.coords pLast) 0
        rw [show win0_16.index pLast 0 * win0_16.size 0 = 0 from by decide +kernel,
          show win0_16.xsize (grid0.coords pLast) 0 = 512 from by decide +kernel]
        omega⟩

/-- The kernel's run, read: the result array at the prediction, the arguments unchanged. -/
theorem run : θ_run defs (onTc (τ := τ) (main (F := F))) ⟨m, fun _ => 0, ρ⟩ fun r => ∀ c : Dev nD,
      r.2.mem ((c : Thread nD τ).loc main_v13) = resultK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (Cert.KernelIdeal.Value.run_blocks m ρ)

end Cert.KernelIdeal.Sweep

end
-- ==== Proof.BlockReads.lean ====
/-
  What the kernel's input windows read. Every window but one holds its whole array at every grid step; the window on the
  [186624, 512] weight matrix holds, at step `t`, the 3456 rows starting at row `3456·t`.
-/
import proofs.«182230_j49744311222349_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem

namespace Cert.KernelIdeal.BlockReads

open Cert.KernelIdeal Cert.KernelIdeal.Gen Idealize.ShloMosaic.ValueIdx

variable {F : FTy → Type} [FloatOps F]
variable (m : (ℓ : Loc nD τ sig) → Buf (Elt F) ℓ)

/-- Window 0's block is the whole array at every step. -/
theorem blk0 (c : Dev nD) (t : Fin cfg0.N) : (iblk m c 0 t : Vec F S512x13 .f32) = V m c main_arg0 := by
  have hi : win0_0.index t 0 = 0 ∧ win0_0.index t 1 = 0 := (by decide +kernel : ∀ t : Fin grid0.N, win0_0.index t 0 = 0 ∧ win0_0.index t 1 = 0) t
  funext j
  unfold iblk
  rw [View.read_apply]
  show V m c main_arg0 _ = V m c main_arg0 _
  congr 1
  funext a
  apply Fin.ext
  match a with
  | ⟨0, _⟩ => show win0_0.index t 0 * 512 + 1 * (j 0).val = (j 0).val; rw [hi.1]; omega
  | ⟨1, _⟩ => show win0_0.index t 1 * 13 + 1 * (j 1).val = (j 1).val; rw [hi.2]; omega

/-- Window 1's block is the whole array at every step. -/
theorem blk1 (c : Dev nD) (t : Fin cfg0.N) : (iblk m c 1 t : Vec F S512x416 .f32) = V m c main_v12 := by
  have hi : win0_1.index t 0 = 0 ∧ win0_1.index t 1 = 0 := (by decide +kernel : ∀ t : Fin grid0.N, win0_1.index t 0 = 0 ∧ win0_1.index t 1 = 0) t
  funext j
  unfold iblk
  rw [View.read_apply]
  show V m c main_v12 _ = V m c main_v12 _
  congr 1
  funext a
  apply Fin.ext
  match a with
  | ⟨0, _⟩ => show win0_1.index t 0 * 512 + 1 * (j 0).val = (j 0).val; rw [hi.1]; omega
  | ⟨1, _⟩ => show win0_1.index t 1 * 416 + 1 * (j 1).val = (j 1).val; rw [hi.2]; omega

/-- Window 2's block is the whole array at every step. -/
theorem blk2 (c : Dev nD) (t : Fin cfg0.N) : (iblk m c 2 t : Vec F S13x512 .f32) = V m c main_arg3 := by
  have hi : win0_2.index t 0 = 0 ∧ win0_2.index t 1 = 0 := (by decide +kernel : ∀ t : Fin grid0.N, win0_2.index t 0 = 0 ∧ win0_2.index t 1 = 0) t
  funext j
  unfold iblk
  rw [View.read_apply]
  show V m c main_arg3 _ = V m c main_arg3 _
  congr 1
  funext a
  apply Fin.ext
  match a with
  | ⟨0, _⟩ => show win0_2.index t 0 * 13 + 1 * (j 0).val = (j 0).val; rw [hi.1]; omega
  | ⟨1, _⟩ => show win0_2.index t 1 * 512 + 1 * (j 1).val = (j 1).val; rw [hi.2]; omega

/-- Window 3's block is the whole array at every step. -/
theorem blk3 (c : Dev nD) (t : Fin cfg0.N) : (iblk m c 3 t : Vec F S512 .f32) = V m c main_arg4 := by
  have hi : win0_3.index t 0 = 0 := (by decide +kernel : ∀ t : Fin grid0.N, win0_3.index t 0 = 0) t
  funext j
  unfold iblk
  rw [View.read_apply]
  show V m c main_arg4 _ = V m c main_arg4 _
  congr 1
  funext a
  apply Fin.ext
  match a with
  | ⟨0, _⟩ => show win0_3.index t 0 * 512 + 1 * (j 0).val = (j 0).val; rw [hi]; omega

/-- Window 4's block is the whole array at every step. -/
theorem blk4 (c : Dev nD) (t : Fin cfg0.N) : (iblk m c 4 t : Vec F S512x256 .f32) = V m c main_arg5 := by
  have hi : win0_4.index t 0 = 0 ∧ win0_4.index t 1 = 0 := (by decide +kernel : ∀ t : Fin grid0.N, win0_4.index t 0 = 0 ∧ win0_4.index t 1 = 0) t
  funext j
  unfold iblk
  rw [View.read_apply]
  show V m c main_arg5 _ = V m c main_arg5 _
  congr 1
  funext a
  apply Fin.ext
  match a with
  | ⟨0, _⟩ => show win0_4.index t 0 * 512 + 1 * (j 0).val = (j 0).val; rw [hi.1]; omega
  | ⟨1, _⟩ => show win0_4.index t 1 * 256 + 1 * (j 1).val = (j 1).val; rw [hi.2]; omega

/-- Window 5's block is the whole array at every step. -/
theorem blk5 (c : Dev nD) (t : Fin cfg0.N) : (iblk m c 5 t : Vec F S256 .f32) = V m c main_arg6 := by
  have hi : win0_5.index t 0 = 0 := (by decide +kernel : ∀ t : Fin grid0.N, win0_5.index t 0 = 0) t
  funext j
  unfold iblk
  rw [View.read_apply]
  show V m c main_arg6 _ = V m c main_arg6 _
  congr 1
  funext a
  apply Fin.ext
  match a with
  | ⟨0, _⟩ => show win0_5.index t 0 * 256 + 1 * (j 0).val = (j 0).val; rw [hi]; omega

/-- Window 6's block is the whole array at every step. -/
theorem blk6 (c : Dev nD) (t : Fin cfg0.N) : (iblk m c 6 t : Vec F S256x64 .f32) = V m c main_arg7 := by
  have hi : win0_6.index t 0 = 0 ∧ win0_6.index t 1 = 0 := (by decide +kernel : ∀ t : Fin grid0.N, win0_6.index t 0 = 0 ∧ win0_6.index t 1 = 0) t
  funext j
  unfold iblk
  rw [View.read_apply]
  show V m c main_arg7 _ = V m c main_arg7 _
  congr 1
  funext a
  apply Fin.ext
  match a with
  | ⟨0, _⟩ => show win0_6.index t 0 * 256 + 1 * (j 0).val = (j 0).val; rw [hi.1]; omega
  | ⟨1, _⟩ => show win0_6.index t 1 * 64 + 1 * (j 1).val = (j 1).val; rw [hi.2]; omega

/-- Window 7's block is the whole array at every step. -/
theorem blk7 (c : Dev nD) (t : Fin cfg0.N) : (iblk m c 7 t : Vec F S64 .f32) = V m c main_arg8 := by
  have hi : win0_7.index t 0 = 0 := (by decide +kernel : ∀ t : Fin grid0.N, win0_7.index t 0 = 0) t
  funext j
  unfold iblk
  rw [View.read_apply]
  show V m c main_arg8 _ = V m c main_arg8 _
  congr 1
  funext a
  apply Fin.ext
  match a with
  | ⟨0, _⟩ => show win0_7.index t 0 * 64 + 1 * (j 0).val = (j 0).val; rw [hi]; omega

/-- Window 8's block is the whole array at every step. -/
theorem blk8 (c : Dev nD) (t : Fin cfg0.N) : (iblk m c 8 t : Vec F S64x16 .f32) = V m c main_arg9 := by
  have hi : win0_8.index t 0 = 0 ∧ win0_8.index t 1 = 0 := (by decide +kernel : ∀ t : Fin grid0.N, win0_8.index t 0 = 0 ∧ win0_8.index t 1 = 0) t
  funext j
  unfold iblk
  rw [View.read_apply]
  show V m c main_arg9 _ = V m c main_arg9 _
  congr 1
  funext a
  apply Fin.ext
  match a with
  | ⟨0, _⟩ => show win0_8.index t 0 * 64 + 1 * (j 0).val = (j 0).val; rw [hi.1]; omega
  | ⟨1, _⟩ => show win0_8.index t 1 * 16 + 1 * (j 1).val = (j 1).val; rw [hi.2]; omega

/-- Window 9's block is the whole array at every step. -/
theorem blk9 (c : Dev nD) (t : Fin cfg0.N) : (iblk m c 9 t : Vec F S16 .f32) = V m c main_arg10 := by
  have hi : win0_9.index t 0 = 0 := (by decide +kernel : ∀ t : Fin grid0.N, win0_9.index t 0 = 0) t
  funext j
  unfold iblk
  rw [View.read_apply]
  show V m c main_arg10 _ = V m c main_arg10 _
  congr 1
  funext a
  apply Fin.ext
  match a with
  | ⟨0, _⟩ => show win0_9.index t 0 * 16 + 1 * (j 0).val = (j 0).val; rw [hi]; omega

/-- Window 11's block is the whole array at every step. -/
theorem blk11 (c : Dev nD) (t : Fin cfg0.N) : (iblk m c 11 t : Vec F S512 .f32) = V m c main_arg12 := by
  have hi : win0_11.index t 0 = 0 := (by decide +kernel : ∀ t : Fin grid0.N, win0_11.index t 0 = 0) t
  funext j
  unfold iblk
  rw [View.read_apply]
  show V m c main_arg12 _ = V m c main_arg12 _
  congr 1
  funext a
  apply Fin.ext
  match a with
  | ⟨0, _⟩ => show win0_11.index t 0 * 512 + 1 * (j 0).val = (j 0).val; rw [hi]; omega

/-- Window 12's block is the whole array at every step. -/
theorem blk12 (c : Dev nD) (t : Fin cfg0.N) : (iblk m c 12 t : Vec F S512x256 .f32) = V m c main_arg13 := by
  have hi : win0_12.index t 0 = 0 ∧ win0_12.index t 1 = 0 := (by decide +kernel : ∀ t : Fin grid0.N, win0_12.index t 0 = 0 ∧ win0_12.index t 1 = 0) t
  funext j
  unfold iblk
  rw [View.read_apply]
  show V m c main_arg13 _ = V m c main_arg13 _
  congr 1
  funext a
  apply Fin.ext
  match a with
  | ⟨0, _⟩ => show win0_12.index t 0 * 512 + 1 * (j 0).val = (j 0).val; rw [hi.1]; omega
  | ⟨1, _⟩ => show win0_12.index t 1 * 256 + 1 * (j 1).val = (j 1).val; rw [hi.2]; omega

/-- Window 13's block is the whole array at every step. -/
theorem blk13 (c : Dev nD) (t : Fin cfg0.N) : (iblk m c 13 t : Vec F S256 .f32) = V m c main_arg14 := by
  have hi : win0_13.index t 0 = 0 := (by decide +kernel : ∀ t : Fin grid0.N, win0_13.index t 0 = 0) t
  funext j
  unfold iblk
  rw [View.read_apply]
  show V m c main_arg14 _ = V m c main_arg14 _
  congr 1
  funext a
  apply Fin.ext
  match a with
  | ⟨0, _⟩ => show win0_13.index t 0 * 256 + 1 * (j 0).val = (j 0).val; rw [hi]; omega

/-- Window 14's block is the whole array at every step. -/
theorem blk14 (c : Dev nD) (t : Fin cfg0.N) : (iblk m c 14 t : Vec F S256x1 .f32) = V m c main_arg15 := by
  have hi : win0_14.index t 0 = 0 ∧ win0_14.index t 1 = 0 := (by decide +kernel : ∀ t : Fin grid0.N, win0_14.index t 0 = 0 ∧ win0_14.index t 1 = 0) t
  funext j
  unfold iblk
  rw [View.read_apply]
  show V m c main_arg15 _ = V m c main_arg15 _
  congr 1
  funext a
  apply Fin.ext
  match a with
  | ⟨0, _⟩ => show win0_14.index t 0 * 256 + 1 * (j 0).val = (j 0).val; rw [hi.1]; omega
  | ⟨1, _⟩ => show win0_14.index t 1 * 1 + 1 * (j 1).val = (j 1).val; rw [hi.2]; omega

/-- Window 15's block is the whole array at every step. -/
theorem blk15 (c : Dev nD) (t : Fin cfg0.N) : (iblk m c 15 t : Vec F S1 .f32) = V m c main_arg16 := by
  have hi : win0_15.index t 0 = 0 := (by decide +kernel : ∀ t : Fin grid0.N, win0_15.index t 0 = 0) t
  funext j
  unfold iblk
  rw [View.read_apply]
  show V m c main_arg16 _ = V m c main_arg16 _
  congr 1
  funext a
  apply Fin.ext
  match a with
  | ⟨0, _⟩ => show win0_15.index t 0 * 1 + 1 * (j 0).val = (j 0).val; rw [hi]; omega

theorem wrow_lt (t : Fin cfg0.N) (j : Fin 3456) : 3456 * t.val + j.val < 186624 := by
  have := lt_of_lt_of_eq t.isLt (show cfg0.N = 54 from N_0); have := j.isLt; omega

/-- The weight window's block at step `t` holds rows `3456·t … 3456·t + 3455`. -/
theorem blk10_apply (c : Dev nD) (t : Fin cfg0.N) (j : Fin 3456) (h : Fin 512) :
    (iblk m c 10 t : Vec F S3456x512 .f32) (ix2 j h) = V m c main_arg11 (ix2 ⟨3456 * t.val + j.val, wrow_lt t j⟩ h) := by
  have hi : win0_10.index t 0 = t.val ∧ win0_10.index t 1 = 0 :=
    (by decide +kernel : ∀ t : Fin grid0.N, win0_10.index t 0 = t.val ∧ win0_10.index t 1 = 0) t
  unfold iblk
  rw [View.read_apply]
  show V m c main_arg11 _ = V m c main_arg11 _
  congr 1
  funext a
  apply Fin.ext
  match a with
  | ⟨0, _⟩ => show win0_10.index t 0 * 3456 + 1 * j.val = 3456 * t.val + j.val; rw [hi.1]; omega
  | ⟨1, _⟩ => show win0_10.index t 1 * 512 + 1 * h.val = h.val; rw [hi.2]; omega

end Cert.KernelIdeal.BlockReads

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibFlatten.lean ====
/-
  Shape casts that merge or split adjacent axes of a rank-3 array, read at indices given by coordinates. Row-major order
  puts entry `(p, n, f)` of an `[a, b, c]` array at position `(p·b + n)·c + f`, so
  • cast to `[a·b, c]` (leading axes merged) it is entry `(p·b + n, f)`, and an `[a·b, c]` matrix cast to `[a, b, c]` reads at
    `(p, n, f)` its entry `(p·b + n, f)`;
  • cast to `[a, b·c]` (trailing axes merged) it is entry `(p, n·c + f)`, and back.
  The merged extent is a literal in a printed program (`8192`, not `128·64`), so it is a separate variable `m` here and the
  merged coordinate's bound is an argument.
-/
import Idealize.ShloMosaic.Lib.Pipeline.Value
import Idealize.ShloMosaic.Lib.ValueIdx

namespace Idealize.ShloMosaic.Flatten

open Idealize.ShloMosaic Idealize.ShloMosaic.ValueIdx

variable {α : Type} {a b c m : ℕ}

/-- `[a, b, c]` cast to `[m, c]`, `m = a·b`: row `p·b + n` is the slab entry `(p, n)`. -/
theorem merge01_apply (x : (⟨3, ![a, b, c]⟩ : Shape).Idx → α) (h : (⟨3, ![a, b, c]⟩ : Shape).ShapeCasts ⟨2, ![m, c]⟩)
    (p : Fin a) (n : Fin b) (f : Fin c) (hr : p.val * b + n.val < m) :
    shapeCast ⟨2, ![m, c]⟩ x h (ix2 ⟨p.val * b + n.val, hr⟩ f) = x (ix3 p n f) :=
  shapeCast_apply x h _ _ (by rw [Shape.rowMajor_val_three, Shape.rowMajor_val_two]; rfl)

/-- `[m, c]` cast to `[a, b, c]`, `m = a·b`: entry `(p, n, f)` is the matrix entry `(p·b + n, f)`. -/
theorem split0_apply (x : (⟨2, ![m, c]⟩ : Shape).Idx → α) (h : (⟨2, ![m, c]⟩ : Shape).ShapeCasts ⟨3, ![a, b, c]⟩)
    (p : Fin a) (n : Fin b) (f : Fin c) (hr : p.val * b + n.val < m) :
    shapeCast ⟨3, ![a, b, c]⟩ x h (ix3 p n f) = x (ix2 ⟨p.val * b + n.val, hr⟩ f) :=
  shapeCast_apply x h _ _ (by rw [Shape.rowMajor_val_three, Shape.rowMajor_val_two]; rfl)

/-- `[a, b, c]` cast to `[a, m]`, `m = b·c`: column `n·c + f` of row `p` is the entry `(p, n, f)`. -/
theorem merge12_apply (x : (⟨3, ![a, b, c]⟩ : Shape).Idx → α) (h : (⟨3, ![a, b, c]⟩ : Shape).ShapeCasts ⟨2, ![a, m]⟩)
    (p : Fin a) (n : Fin b) (f : Fin c) (hr : n.val * c + f.val < m) (hm : m = b * c) :
    shapeCast ⟨2, ![a, m]⟩ x h (ix2 p ⟨n.val * c + f.val, hr⟩) = x (ix3 p n f) :=
  shapeCast_apply x h _ _ (by
    rw [Shape.rowMajor_val_three, Shape.rowMajor_val_two]
    show (p.val * b + n.val) * c + f.val = p.val * m + (n.val * c + f.val)
    rw [hm, Nat.add_mul, Nat.mul_assoc, Nat.add_assoc])

/-- `[a, m]` cast to `[a, b, c]`, `m = b·c`: entry `(p, n, f)` is the matrix entry `(p, n·c + f)`. -/
theorem split1_apply (x : (⟨2, ![a, m]⟩ : Shape).Idx → α) (h : (⟨2, ![a, m]⟩ : Shape).ShapeCasts ⟨3, ![a, b, c]⟩)
    (p : Fin a) (n : Fin b) (f : Fin c) (hr : n.val * c + f.val < m) (hm : m = b * c) :
    shapeCast ⟨3, ![a, b, c]⟩ x h (ix3 p n f) = x (ix2 p ⟨n.val * c + f.val, hr⟩) :=
  shapeCast_apply x h _ _ (by
    rw [Shape.rowMajor_val_three, Shape.rowMajor_val_two]
    show p.val * m + (n.val * c + f.val) = (p.val * b + n.val) * c + f.val
    rw [hm, Nat.add_mul, Nat.mul_assoc, Nat.add_assoc])

end Idealize.ShloMosaic.Flatten
-- ==== Proof.LibTrailingUnit.lean ====
/-
  A trailing axis of extent 1 added by a shape cast.

  A sum along the last axis that keeps that axis with extent 1 (a keepdims reduction) is printed as the reduction followed
  by a cast from [a, b] to [a, b, 1], or from [a, b, c] to [a, b, c, 1]. Multiplying a row-major position by 1 and adding 0
  leaves it unchanged, so the cast reads, at (i, j, 0) or (i, j, k, 0), the operand at (i, j) or (i, j, k). Any extents.
-/
import Idealize.ShloMosaic.Lib.ValueIdx
import Idealize.ShloMosaic.Lib.Pipeline.Value

namespace Idealize.ShloMosaic.TrailingUnit

open Idealize.ShloMosaic Idealize.ShloMosaic.ValueIdx

variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, c] array cast to [a, b, c, 1] reads, at (i, j, k, u), the operand at (i, j, k). -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

end Idealize.ShloMosaic.TrailingUnit
-- ==== Proof.LibMiddleUnit.lean ====
/-
  A middle axis of extent 1, read at indices given by coordinates: a matrix `[a, c]` cast to `[a, 1, c]` reads, at
  `(i, u, k)`, the operand at `(i, k)`; an `[a, 1, c]` array broadcast along its unit axis to `[a, b, c]` reads, at
  `(i, j, k)`, the operand at `(i, 0, k)`. Row-major position `(i·1 + u)·c + k` with `u = 0` is `i·c + k`. Any extents,
  any element type.
-/
import Idealize.ShloMosaic.Lib.Pipeline.Value
import Idealize.ShloMosaic.Lib.ValueIdx

namespace Idealize.ShloMosaic.MiddleUnit

open Idealize.ShloMosaic Idealize.ShloMosaic.ValueIdx

variable {α : Type}

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast along its unit axis to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Idealize.ShloMosaic.MiddleUnit
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«182230_j49744311222349_2_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.LibLastAxis.lean ====
/-
  A softmax along the LAST axis of a rank-3 array `[B, L, N]`, operation by operation, read at indices given by coordinates —
  for a kernel body (`vector.multi_reduction`, `vector.broadcast`) and for the host (`stablehlo.reduce`,
  `stablehlo.broadcast_in_dim`):
  • the maximum / the sum over the last axis at `(b, r)`: the fold of `max` from the accumulator, resp. the sum, over
    `k : Fin N` of the entries `(b, r, k)` (the host's sum adds its initial value in front);
  • the reduced `[B, L]` array kept as `[B, L, 1]` and broadcast back to `[B, L, N]` reads, at `(b, r, k)`, the entry
    `(b, r)` (kernel: a broadcast along the unit axis; host: two `broadcast_in_dim`s);
  • a rank-0 value broadcast to any shape is that value everywhere; a `[c]` vector lifted to `[1, 1, c]` and broadcast to
    `[a, b, c]` (a bias row added to every row) reads, at `(i, j, k)`, the entry `k`.
-/
import proofs.«182230_j49744311222349_2_alg».proof.Proof.LibRowReduce

namespace Idealize.ShloMosaic.LastAxis

open Idealize.ShloMosaic Idealize.ShloMosaic.ValueIdx

variable {φ : FTy} {α : Type} {B L N : ℕ}

/-- The maximum over the last axis at `(b, r)`, as a kernel's `multi_reduction <maximumf>` computes it. -/
theorem multiReduction_maximumf_last3 (src : FVec Ideal ⟨3, ![B, L, N]⟩ φ) (acc : BitVec φ.bits)
    (h : (⟨3, ![B, L, N]⟩ : Shape).Reduces [2] (⟨2, ![B, L]⟩ : Shape)) (hφ : FKind.Formats φ)
    (hacc : acc = FKind.maximumf.neutral φ hφ) (b : Fin B) (r : Fin L) :
    multiReduction .maximumf [2] ⟨2, ![B, L]⟩ src acc h hφ hacc (ix2 b r)
      = (Finset.univ : Finset (Fin N)).fold max (Ideal.ofBits φ acc) (fun k => src (ix3 b r k)) := by
  rw [Ideal.multiReduction_maximumf_single]
  exact congrArg (fun f => Finset.fold max (Ideal.ofBits φ acc) f (Finset.univ : Finset (Fin N)))
    (funext fun k => congrArg src (RowReduce.lift_last3 h b r k))

/-- The sum over the last axis at `(b, r)`, as a kernel's `multi_reduction <add>` computes it. -/
theorem multiReduction_add_last3 (src : FVec Ideal ⟨3, ![B, L, N]⟩ φ) (acc : BitVec φ.bits)
    (h : (⟨3, ![B, L, N]⟩ : Shape).Reduces [2] (⟨2, ![B, L]⟩ : Shape)) (hφ : FKind.Formats φ)
    (hacc : acc = FKind.add.neutral φ hφ) (b : Fin B) (r : Fin L) :
    multiReduction .add [2] ⟨2, ![B, L]⟩ src acc h hφ hacc (ix2 b r) = ∑ k : Fin N, src (ix3 b r k) := by
  rw [Ideal.multiReduction_add_single]
  exact Finset.sum_congr rfl fun k _ => congrArg src (RowReduce.lift_last3 h b r k)

/-- The host's float sum over the last axis at `(b, r)`: the initial value plus the sum. -/
theorem hostReduceAdd_last3 {u : Shape} (x : FVec Ideal ⟨3, ![B, L, N]⟩ φ) (init : u.Idx → Ideal φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduceAdd x init h' hu (ix2 b r) = init (Shape.Idx.first hu) + ∑ k : Fin N, x (ix3 b r k) := by
  show Ideal.hostReduceAdd h' x (init (Shape.Idx.first hu)) (ix2 b r) = _
  rw [Ideal.hostReduceAdd_single h' h]
  exact congrArg (init (Shape.Idx.first hu) + ·) (Finset.sum_congr rfl fun k _ => congrArg x (RowReduce.lift_last3 h b r k))

/-- A `[B, L, 1]` array broadcast along its unit axis to `[B, L, N]` (a kernel's `vector.broadcast`) reads, at `(b, r, k)`,
    the entry `(b, r, 0)`. -/
theorem broadcastTo_ab1_abc_apply (v : (⟨3, ![B, L, 1]⟩ : Shape).Idx → α) (h : (⟨3, ![B, L, 1]⟩ : Shape).Broadcasts ⟨3, ![B, L, N]⟩)
    (b : Fin B) (r : Fin L) (k : Fin N) : broadcastTo ⟨3, ![B, L, N]⟩ v h (ix3 b r k) = v (ix3 b r (0 : Fin 1)) := by
  refine broadcastTo_apply v h (ix3 b r k) (ix3 b r (0 : Fin 1)) fun ax => ?_
  match ax with
  | ⟨0, _⟩ =>
    show b.val = if B = 1 then 0 else b.val
    split
    · have := b.isLt; omega
    · rfl
  | ⟨1, _⟩ =>
    show r.val = if L = 1 then 0 else r.val
    split
    · have := r.isLt; omega
    · rfl
  | ⟨2, _⟩ => rfl

/-- The host's lift of a `[B, L]` array to `[B, L, 1]` (`broadcast_in_dim`, dims `[0, 1]`) reads, at `(b, r, u)`, the
    entry `(b, r)`. -/
theorem broadcastInDim_ab_ab1_apply (x : (⟨2, ![B, L]⟩ : Shape).Idx → α)
    (h : (⟨2, ![B, L]⟩ : Shape).BroadcastsInDim ⟨3, ![B, L, 1]⟩ (![0, 1] : Fin 2 → Fin 3)) (b : Fin B) (r : Fin L) (u : Fin 1) :
    broadcastInDim ⟨3, ![B, L, 1]⟩ ![0, 1] h x (ix3 b r u) = x (ix2 b r) := by
  refine broadcastInDim_apply _ h x (ix3 b r u) (ix2 b r) fun ax => ?_
  match ax with
  | ⟨0, _⟩ =>
    show b.val = if B = 1 then 0 else b.val
    split
    · have := b.isLt; omega
    · rfl
  | ⟨1, _⟩ =>
    show r.val = if L = 1 then 0 else r.val
    split
    · have := r.isLt; omega
    · rfl

/-- The host's broadcast of `[B, L, 1]` to `[B, L, N]` (`broadcast_in_dim`, dims `[0, 1, 2]`) reads, at `(b, r, k)`, the
    entry `(b, r, 0)`. -/
theorem broadcastInDim_ab1_abc_apply (x : (⟨3, ![B, L, 1]⟩ : Shape).Idx → α)
    (h : (⟨3, ![B, L, 1]⟩ : Shape).BroadcastsInDim ⟨3, ![B, L, N]⟩ (![0, 1, 2] : Fin 3 → Fin 3)) (b : Fin B) (r : Fin L) (k : Fin N) :
    broadcastInDim ⟨3, ![B, L, N]⟩ ![0, 1, 2] h x (ix3 b r k) = x (ix3 b r (0 : Fin 1)) := by
  refine broadcastInDim_apply _ h x (ix3 b r k) (ix3 b r (0 : Fin 1)) fun ax => ?_
  match ax with
  | ⟨0, _⟩ =>
    show b.val = if B = 1 then 0 else b.val
    split
    · have := b.isLt; omega
    · rfl
  | ⟨1, _⟩ =>
    show r.val = if L = 1 then 0 else r.val
    split
    · have := r.isLt; omega
    · rfl
  | ⟨2, _⟩ => rfl

/-- A rank-0 value broadcast to any shape (`broadcast_in_dim`, no dims) is that value at every index. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A `[c]` vector lifted to `[1, 1, c]` (`broadcast_in_dim`, dims `[2]`) reads, at `(u, w, k)`, the entry `k`. -/
theorem broadcastInDim_c_11c_apply {c : ℕ} (x : (⟨1, ![c]⟩ : Shape).Idx → α)
    (h : (⟨1, ![c]⟩ : Shape).BroadcastsInDim ⟨3, ![1, 1, c]⟩ (![2] : Fin 1 → Fin 3)) (u w : Fin 1) (k : Fin c) :
    broadcastInDim ⟨3, ![1, 1, c]⟩ ![2] h x (ix3 u w k) = x (ix1 k) := by
  refine broadcastInDim_apply _ h x (ix3 u w k) (ix1 k) fun ax => ?_
  match ax with
  | ⟨0, _⟩ =>
    show k.val = if c = 1 then 0 else k.val
    split
    · have := k.isLt; omega
    · rfl

/-- A `[1, 1, c]` row broadcast to `[a, b, c]` (`broadcast_in_dim`, dims `[0, 1, 2]`) reads, at `(i, j, k)`, the entry
    `(0, 0, k)`. -/
theorem broadcastInDim_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3)) (i : Fin a) (j : Fin b) (k : Fin c) :
    broadcastInDim ⟨3, ![a, b, c]⟩ ![0, 1, 2] h x (ix3 i j k) = x (ix3 (0 : Fin 1) (0 : Fin 1) k) := by
  refine broadcastInDim_apply _ h x (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Idealize.ShloMosaic.LastAxis
-- ==== Proof.AccStep.lean ====
/-
  One step of the blocked accumulation, and the four layout payloads around it, read at indices given by coordinates
  over the extended reals.

  The step takes eight rows `u` of the transposed array (an `[8, 512]` block of `zᵀ`), the whole array `z : [512, 432]`,
  a block `w : [3456, 512]` of weights and the running total `acc : [512, 512]`. It forms, for every row `b`, the outer
  product of the eight entries `u(·, b)` with the row `z(b, ·)` — an `[8, 432]` slab — flattens the slab row-major to a
  row of `3456 = 8 · 432` entries (entry `j` is the product of `u(j / 432, b)` and `z(b, j % 432)`), multiplies the
  resulting `[512, 3456]` matrix by `w` and adds the product to `acc`. Roundings to bf16 are the identity here, and the
  matrix unit's product into a zero accumulator is the finite sum over the contracted coordinate. So entry `(b, h)` of the
  step's result is

      acc(b, h) + Σ_{j < 3456} (u(j / 432, b) · z(b, j % 432)) · w(j, h).

  Around it: two arrays recast to their own shape (the identity), the transposition of `z`, and the zero accumulator.
-/
import proofs.«182230_j49744311222349_2_alg».proof.Proof.Gen.KernelIdeal.Skeleton
import proofs.«182230_j49744311222349_2_alg».proof.Proof.LibPlainDot
import proofs.«182230_j49744311222349_2_alg».proof.Proof.LibFlatten
import proofs.«182230_j49744311222349_2_alg».proof.Proof.LibTrailingUnit
import proofs.«182230_j49744311222349_2_alg».proof.Proof.LibMiddleUnit
import proofs.«182230_j49744311222349_2_alg».proof.Proof.LibLastAxis

namespace Cert.KernelIdeal.AccStep

open Idealize.ShloMosaic Idealize.ShloMosaic.ValueIdx Cert.KernelIdeal Cert.KernelIdeal.Gen

/-- The flattened outer product. For `u : [B, A]` and `z : [A, C]`: transpose `u` to `[A, B]`, give it a trailing unit axis and
    repeat it along that axis to `[A, B, C]`; give `z` a middle unit axis and repeat it along that axis to `[A, B, C]`;
    multiply entry by entry; merge the two trailing axes. Entry `(p, k)` of the `[A, B·C]` result is
    `u(k / C, p) · z(p, k % C)`. -/
theorem outerFlat_apply {A B C m : ℕ} (u : FVec Ideal ⟨2, ![B, A]⟩ .f32) (z : FVec Ideal ⟨2, ![A, C]⟩ .f32)
    (hT : (⟨2, ![B, A]⟩ : Shape).Transposes [1, 0] ⟨2, ![A, B]⟩)
    (h1 : (⟨2, ![A, B]⟩ : Shape).ShapeCasts ⟨3, ![A, B, 1]⟩)
    (h2 : (⟨2, ![A, C]⟩ : Shape).ShapeCasts ⟨3, ![A, 1, C]⟩)
    (g1 : (⟨3, ![A, B, 1]⟩ : Shape).Broadcasts ⟨3, ![A, B, C]⟩)
    (g2 : (⟨3, ![A, 1, C]⟩ : Shape).Broadcasts ⟨3, ![A, B, C]⟩)
    (hm : (⟨3, ![A, B, C]⟩ : Shape).ShapeCasts ⟨2, ![A, m]⟩) (hmeq : m = B * C)
    (p : Fin A) (k : Fin m) (hn : k.val / C < B) (hf : k.val % C < C) :
    shapeCast ⟨2, ![A, m]⟩
        (mulf (broadcastTo ⟨3, ![A, B, C]⟩ (shapeCast ⟨3, ![A, B, 1]⟩ (transpose ⟨2, ![A, B]⟩ [1, 0] u hT) h1) g1)
          (broadcastTo ⟨3, ![A, B, C]⟩ (shapeCast ⟨3, ![A, 1, C]⟩ z h2) g2)) hm (ix2 p k)
      = u (ix2 ⟨k.val / C, hn⟩ p) * z (ix2 p ⟨k.val % C, hf⟩) := by
  -- column `k` is `(k / C) · C + k % C`
  have hr : k.val / C * C + k.val % C < m := by rw [Nat.div_add_mod']; exact k.isLt
  have hk : k = ⟨k.val / C * C + k.val % C, hr⟩ := Fin.ext (Nat.div_add_mod' _ _).symm
  refine (congrArg (fun q => shapeCast ⟨2, ![A, m]⟩ _ hm (ix2 p q)) hk).trans ?_
  refine (Flatten.merge12_apply _ hm p ⟨k.val / C, hn⟩ ⟨k.val % C, hf⟩ hr hmeq).trans ?_
  refine (mulf_apply _ _ _).trans ?_
  refine congrArg₂ (· * ·) ?_ ?_
  · refine (LastAxis.broadcastTo_ab1_abc_apply _ g1 p _ _).trans ?_
    refine (TrailingUnit.shapeCast_ab_ab1_apply _ h1 p _ 0).trans ?_
    exact RowReduce.transpose_10_apply u hT p _
  · refine (MiddleUnit.broadcastTo_a1c_abc_apply _ g2 p _ _).trans ?_
    exact MiddleUnit.shapeCast_ac_a1c_apply z h2 p 0 _

/-- A flattened column `j < 3456 = 8 · 432` lies in slab row `j / 432 < 8` … -/
theorem slabRow_lt (j : Fin 3456) : j.val / 432 < 8 := by have := j.isLt; omega

/-- … at slab column `j % 432 < 432`. -/
theorem slabCol_lt (j : Fin 3456) : j.val % 432 < 432 := Nat.mod_lt _ (by norm_num)

/-- The accumulation step at `(b, h)`: the running total there plus the sum over the `3456` flattened columns of the outer
    product's entry times the weight. -/
theorem pay5_apply (v6 : FVec Ideal S8x512 .f32) (v8 : FVec Ideal S512x432 .f32) (v15 : FVec Ideal S3456x512 .f32)
    (v19 : FVec Ideal S512x512 .f32) (b h : Fin 512) :
    k0_pay5 (F := Ideal) v6 v8 v15 v19 (ix2 b h)
      = v19 (ix2 b h) + ∑ j : Fin 3456,
          (v6 (ix2 ⟨j.val / 432, slabRow_lt j⟩ b) * v8 (ix2 b ⟨j.val % 432, slabCol_lt j⟩)) * v15 (ix2 j h) := by
  unfold k0_pay5
  rw [shapeCast_self, show dot_S512x3456_S3456x512_S512x512_1_0_0_1_n_n = DotDims.plain 512 3456 512 from rfl]
  refine (addf_apply _ _ _).trans ?_
  refine congrArg (v19 (ix2 b h) + ·) ?_
  refine (PlainDot.matmul_apply_ix2 none _ _ b h).trans ?_
  refine Finset.sum_congr rfl fun j _ => ?_
  refine congrArg₂ (· * ·) ((truncf_apply (ψ := .bf16) _ bitsLt_bf16_f32 _).trans ?_)
    (truncf_apply (ψ := .bf16) _ bitsLt_bf16_f32 _)
  exact outerFlat_apply (A := 512) (B := 8) (C := 432) (m := 3456) v6 v8 _ _ _ _ _ _ (by norm_num) b j
    (slabRow_lt j) (slabCol_lt j)

/-- The dense network's result recast to its own shape: itself. -/
theorem pay1_eq (v65 : FVec Ideal S512x16 .f32) : k0_pay1 (F := Ideal) v65 = v65 := by
  unfold k0_pay1
  exact shapeCast_self _ _

/-- The second array recast twice to its own shape: itself. -/
theorem pay2_eq (v69 : FVec Ideal S512x416 .f32) : k0_pay2 (F := Ideal) v69 = v69 := by
  unfold k0_pay2
  exact (shapeCast_self _ _).trans (shapeCast_self _ _)

/-- The transposed array at `(f, b)` is the array at `(b, f)`. -/
theorem pay3_apply (v74 : FVec Ideal S512x432 .f32) (f : Fin 432) (b : Fin 512) :
    k0_pay3 (F := Ideal) v74 (ix2 f b) = v74 (ix2 b f) := by
  unfold k0_pay3
  rw [shapeCast_self]
  exact RowReduce.transpose_10_apply v74 _ f b

/-- The initial accumulator is `0` everywhere: the f32 zero word is the real zero. -/
theorem pay4_apply (i : S512x512.Idx) : k0_pay4 (F := Ideal) i = (0 : EReal) := by
  unfold k0_pay4
  rw [shapeCast_self]
  exact Ideal.ofBits_zero_f32

end Cert.KernelIdeal.AccStep
-- ==== Proof.ZLayout.lean ====
/-
  The array `z : [512, 432]` as the first step lays it out, and the eight rows of its transpose a later step loads, read at
  indices given by coordinates over the extended reals.

  Two stores fill `z`: the dense network's sixteen columns at columns `0 … 15`, then the `416` embedding columns at columns
  `16 … 431`. Each stored array is first recast to its own shape (the identity), so entry `(b, f)`, `f < 16`, is the dense
  array's entry `(b, f)` and entry `(b, 16 + g)`, `g < 416`, is the embedding array's entry `(b, g)`: `z` is the two arrays laid
  side by side along the columns, which is how the host spells it (a concatenation along axis 1).

  At grid step `i` the body loads the eight rows `8·i, …, 8·i + 7` of the transposed array: entry `(r, b)` of the loaded block
  is entry `(8·i + r, b)`.
-/
import proofs.«182230_j49744311222349_2_alg».proof.Proof.KernelPieces
import proofs.«182230_j49744311222349_2_alg».proof.Proof.AccStep

namespace Cert.KernelIdeal.ZLayout

open Idealize.ShloMosaic Idealize.ShloMosaic.ValueIdx Cert.KernelIdeal Cert.KernelIdeal.Gen
open Cert.KernelIdeal.Pieces Cert.KernelIdeal.AccStep

/-- Column `f < 16` of the dense part is column `f` of `z` … -/
theorem leftCol_lt (f : Fin 16) : f.val < 432 := by have := f.isLt; omega

/-- … and column `g < 416` of the embedding part is column `16 + g`. -/
theorem rightCol_lt (g : Fin 416) : 16 + g.val < 432 := by have := g.isLt; omega

/-- The second store's rectangle (offset `(0, 16)`, extents `(512, 416)`) places its entry `(b, g)` at `(b, 16 + g)`. -/
theorem right_emb (b : Fin 512) (g : Fin 416) :
    (Rect.unit (s := S512x432) ![0, 16] ![512, 416] inb_S512x432_S512x416_0_16).emb (ix2 b g)
      = ix2 b ⟨16 + g.val, rightCol_lt g⟩ := by
  funext a
  apply Fin.ext
  match a with
  | ⟨0, _⟩ => show 0 + 1 * b.val = b.val; omega
  | ⟨1, _⟩ => show 16 + 1 * g.val = 16 + g.val; omega

/-- The first store's rectangle (offset `(0, 0)`, extents `(512, 16)`) places its entry `(b, f)` at `(b, f)`. -/
theorem left_emb (b : Fin 512) (f : Fin 16) :
    (Rect.unit (s := S512x432) ![0, 0] ![512, 16] inb_S512x432_S512x16_0_0).emb (ix2 b f)
      = ix2 b ⟨f.val, leftCol_lt f⟩ := by
  funext a
  apply Fin.ext
  match a with
  | ⟨0, _⟩ => show 0 + 1 * b.val = b.val; omega
  | ⟨1, _⟩ => show 0 + 1 * f.val = f.val; omega

/-- A column below `16` is outside the second store's rectangle. -/
theorem left_not_mem (b : Fin 512) (f : Fin 16) :
    ix2 b ⟨f.val, leftCol_lt f⟩ ∉ (Rect.unit (s := S512x432) ![0, 16] ![512, 416] inb_S512x432_S512x416_0_16).set := by
  intro hm
  have h := (Rect.mem_set_unit.mp hm) 1
  have h1 : 16 ≤ f.val := h.1
  have := f.isLt
  omega

/-- `z` at a dense column. -/
theorem zlay_left (d : FVec Ideal S512x16 .f32) (s : FVec Ideal S512x416 .f32) (b : Fin 512) (f : Fin 16) :
    zlay (F := Ideal) d s (ix2 b ⟨f.val, leftCol_lt f⟩) = d (ix2 b f) := by
  unfold zlay
  refine (View.canon_cons_of_not_mem
    (⟨Rect.unit (s := S512x432) ![0, 16] ![512, 416] inb_S512x432_S512x416_0_16, k0_pay2 (F := Ideal) s⟩ :
      View.Piece (Elt Ideal) S512x432 .f32) _ (left_not_mem b f)).trans ?_
  rw [← left_emb b f, View.canon_cons_emb, pay1_eq]

/-- `z` at an embedding column. -/
theorem zlay_right (d : FVec Ideal S512x16 .f32) (s : FVec Ideal S512x416 .f32) (b : Fin 512) (g : Fin 416) :
    zlay (F := Ideal) d s (ix2 b ⟨16 + g.val, rightCol_lt g⟩) = s (ix2 b g) := by
  unfold zlay
  rw [← right_emb b g, View.canon_cons_emb, pay2_eq]

/-- `z` is the dense array and the embedding array laid side by side along the columns, as the host concatenates them. -/
theorem zlay_eq_concat (d : FVec Ideal S512x16 .f32) (s : FVec Ideal S512x416 .f32)
    (hcat : Shape.Concatenates [(⟨2, ![512, 16]⟩ : Shape), ⟨2, ![512, 416]⟩] ⟨2, ![512, 432]⟩ 1) :
    zlay (F := Ideal) d s
      = concatenate ⟨2, ![512, 432]⟩ 1 [⟨⟨2, ![512, 16]⟩, d⟩, ⟨⟨2, ![512, 416]⟩, s⟩] hcat := by
  funext y
  obtain ⟨b, c, rfl⟩ : ∃ (b : Fin 512) (c : Fin 432), y = ix2 b c := ⟨y 0, y 1, eq_ix2 y⟩
  by_cases hc : c.val < 16
  · refine (zlay_left d s b ⟨c.val, hc⟩).trans ?_
    exact (concatenate_pair_apply_left 1 d s hcat (ix2 b c) rfl (ix2 b ⟨c.val, hc⟩) fun a =>
      match a with
      | ⟨0, _⟩ => rfl
      | ⟨1, _⟩ => rfl).symm
  · obtain ⟨g, rfl⟩ : ∃ g : Fin 416, c = ⟨16 + g.val, rightCol_lt g⟩ :=
      ⟨⟨c.val - 16, by have := c.isLt; omega⟩, Fin.ext (by show c.val = 16 + (c.val - 16); omega)⟩
    refine (zlay_right d s b g).trans ?_
    exact (concatenate_pair_apply_right 1 d s hcat (ix2 b ⟨16 + g.val, rightCol_lt g⟩) rfl rfl (ix2 b g)
      (fun a ha =>
        match a, ha with
        | ⟨0, _⟩, _ => rfl
        | ⟨1, _⟩, ha => absurd rfl ha)
      (show g.val + 16 = 16 + g.val from Nat.add_comm _ _)).symm

/-- Row `r < 8` of the block loaded at grid step `i` is row `8·i + r` of the transposed array, inside its `432` rows. -/
theorem slabRow_lt (i : grid0.Coords) (r : Fin 8) : 8 * (i 0).val + r.val < 432 := by
  have h0 : k0_off1 i 0 = 8 * (i 0).val := congrFun (k0_off1_eq i) 0
  have h : k0_off1 i 0 + 8 ≤ 432 := k0_off1_inb i 0
  have := r.isLt
  omega

/-- The eight rows loaded at grid step `i`. -/
theorem slab_apply (i : grid0.Coords) (zt : FVec Ideal S432x512 .f32) (r : Fin 8) (b : Fin 512) :
    slab (F := Ideal) i zt (ix2 r b) = zt (ix2 ⟨8 * (i 0).val + r.val, slabRow_lt i r⟩ b) := by
  have h0 : k0_off1 i 0 = 8 * (i 0).val := congrFun (k0_off1_eq i) 0
  have h1 : k0_off1 i 1 = 0 := congrFun (k0_off1_eq i) 1
  show zt ((Rect.unit (s := S432x512) (k0_off1 i) S8x512.size (Facts₀.k0_off1_inb i)).idx (ix2 r b)) = _
  refine congrArg zt (funext fun a => Fin.ext ?_)
  match a with
  | ⟨0, _⟩ => show k0_off1 i 0 + 1 * r.val = 8 * (i 0).val + r.val; omega
  | ⟨1, _⟩ => show k0_off1 i 1 + 1 * b.val = b.val; omega

end Cert.KernelIdeal.ZLayout
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«182230_j49744311222349_2_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibSoftplusLayers.lean ====
/-
  The shifted softplus `log(1 + eˣ) − c` in the numerically stable spelling `max(x, 0) + log1p(exp(−|x − 0|))`, guarded by a
  test `(x − 0) ≠ (x − 0)` that never fires on the extended reals, and dense layers `rows · weights + bias row` with that
  activation between them, each in two spellings that denote one function of the extended reals:

  * a kernel body's — the rows of one block, the weights rounded to bf16 (the identity here), a matrix-unit product into a zero
    accumulator, the bias a `[1, M]` row repeated down the rows, the negation spelled `0 − y`, the never-firing test the ordered
    "not equal";
  * the host's — `dot_general`, the bias `[M]` lifted to `[1, M]` and then to `[A, M]`, the constants rank-0 arrays broadcast
    to the shape, `negate`, the test the unordered "not equal".

  Entry `(p, q)` of a layer reads row `p` of its input only, so a block of rows of the result is the result of that block of rows.
-/
import Idealize.ShloMosaic.PureOps.Ideal.Laws
import Idealize.ShloMosaic.Lib.ValueIdx
import Idealize.ShloMosaic.Lib.ValueLayout
import Idealize.ShloMosaic.Lib.Pipeline.Value
import proofs.«182230_j49744311222349_2_alg».proof.Proof.LibPlainDot
import proofs.«182230_j49744311222349_2_alg».proof.Proof.LibAffine

noncomputable section

namespace Idealize.ShloMosaic.SoftplusLayers

open Idealize.ShloMosaic.ValueIdx Idealize.ShloMosaic.Affine

/-! ## The activation on one extended real -/

/-- The f32 word of `0.0`, kept as a word: both spellings carry it, and only the step `0 − y = −y` evaluates it. -/
def zeroW : EReal := Ideal.ofBits .f32 0x00000000#32

/-- The f32 word the activation is shifted by (the float nearest `log 2`), never evaluated: both spellings carry the same word. -/
def shiftW : EReal := Ideal.ofBits .f32 0x3F317218#32

/-- `max(x, 0) + log1p(exp(−|x − 0|)) − c` behind the guard `(x − 0) ≠ (x − 0)`, which selects `x + 0` where it holds (nowhere). -/
def ssp (x : EReal) : EReal :=
  Scalar.select (Ideal.cmp .une (x - zeroW) (x - zeroW)) (x + zeroW)
    (max x zeroW + Ideal.log1p (Ideal.exp (-(max (x - zeroW) (-(x - zeroW)))))) - shiftW

/-- The kernel body's spelling of the same number: the ordered "not equal" and `0 − |·|`. -/
theorem ssp_kernel (x : EReal) :
    Scalar.select (Ideal.cmp .one (x - zeroW) (x - zeroW)) (x + zeroW)
      (max x zeroW + Ideal.log1p (Ideal.exp (zeroW - max (x - zeroW) (-(x - zeroW))))) - shiftW = ssp x := by
  have hz : zeroW - max (x - zeroW) (-(x - zeroW)) = -(max (x - zeroW) (-(x - zeroW))) := by
    rw [show zeroW = (0 : EReal) from Ideal.ofBits_zero_f32, zero_sub]
  rw [hz]
  rfl

/-! ## The activation on an array, in the two spellings -/

variable {s : Shape}

/-- The activation applied to every entry. -/
def sspV (x : FVec Ideal s .f32) : FVec Ideal s .f32 := fun i => ssp (x i)

/-- A kernel body's spelling on a vector: scalar constants splat to the shape. -/
def sspK (x : FVec Ideal s .f32) : FVec Ideal s .f32 :=
  subf (select (cmpf .one (subf x (broadcast s (Scalar.ofBits (F := Ideal) .f32 0x00000000#32))) (subf x (broadcast s (Scalar.ofBits (F := Ideal) .f32 0x00000000#32))))
      (addf x (broadcast s (Scalar.ofBits (F := Ideal) .f32 0x00000000#32)))
      (addf (maximumf x (broadcast s (Scalar.ofBits (F := Ideal) .f32 0x00000000#32)))
        (log1p (exp (subf (broadcast s (Scalar.ofBits (F := Ideal) .f32 0x00000000#32)) (absf (subf x (broadcast s (Scalar.ofBits (F := Ideal) .f32 0x00000000#32)))))))))
    (broadcast s (Scalar.ofBits (F := Ideal) .f32 0x3F317218#32))

theorem sspK_eq (x : FVec Ideal s .f32) : sspK x = sspV x := funext fun i => ssp_kernel (x i)

/-- The host's spelling: rank-0 constants broadcast to the shape, `abs`, `negate`, `exponential`, `log_plus_one`. -/
def sspH (h0 : (⟨0, ![]⟩ : Shape).BroadcastsInDim s ![]) (x : FVec Ideal s .f32) : FVec Ideal s .f32 :=
  subf (select (cmpf .une (subf x (broadcastInDim s ![] h0 (constant (F := Ideal) ⟨0, ![]⟩ .f32 0x00000000#32))) (subf x (broadcastInDim s ![] h0 (constant (F := Ideal) ⟨0, ![]⟩ .f32 0x00000000#32))))
      (addf x (broadcastInDim s ![] h0 (constant (F := Ideal) ⟨0, ![]⟩ .f32 0x00000000#32)))
      (addf (maximumf x (broadcastInDim s ![] h0 (constant (F := Ideal) ⟨0, ![]⟩ .f32 0x00000000#32)))
        (Host.log1p (Host.exp (Host.negf (Host.absf (subf x (broadcastInDim s ![] h0 (constant (F := Ideal) ⟨0, ![]⟩ .f32 0x00000000#32)))))))))
    (broadcastInDim s ![] h0 (constant (F := Ideal) ⟨0, ![]⟩ .f32 0x3F317218#32))

theorem sspH_eq (h0 : (⟨0, ![]⟩ : Shape).BroadcastsInDim s ![]) (x : FVec Ideal s .f32) : sspH h0 x = sspV x := rfl

/-! ## A dense layer in the two spellings -/

variable {A A' K H M : Nat}

/-- A kernel body's dense layer on a block of rows: rows and weights rounded to bf16, the matrix unit's product into a zero
    accumulator, the bias row (recast to its own shape) repeated down the rows. -/
def denseK (d : DotDims ⟨2, ![A, K]⟩ ⟨2, ![K, M]⟩ ⟨2, ![A, M]⟩) (ht : FTy.bf16.bits < FTy.f32.bits)
    (hc : (⟨2, ![1, M]⟩ : Shape).ShapeCasts ⟨2, ![1, M]⟩) (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    FVec Ideal ⟨2, ![A, M]⟩ .f32 :=
  addf (matmul d none (truncf .bf16 x ht) (truncf .bf16 w ht) (constant ⟨2, ![A, M]⟩ .f32 0x00000000#32))
    (broadcastTo ⟨2, ![A, M]⟩ (shapeCast ⟨2, ![1, M]⟩ b hc) hb)

/-- It is `rows · weights + bias row`, entry by entry. -/
theorem denseK_eq {d : DotDims ⟨2, ![A, K]⟩ ⟨2, ![K, M]⟩ ⟨2, ![A, M]⟩} (hd : d = DotDims.plain A K M)
    (ht : FTy.bf16.bits < FTy.f32.bits) (hc : (⟨2, ![1, M]⟩ : Shape).ShapeCasts ⟨2, ![1, M]⟩)
    (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    denseK d ht hc hb x w b = affine x (truncf .bf16 w ht) b := by
  subst hd
  funext i
  obtain ⟨p, q, rfl⟩ : ∃ (p : Fin A) (q : Fin M), i = ix2 p q := ⟨i 0, i 1, eq_ix2 i⟩
  unfold denseK
  rw [shapeCast_self]
  exact body_apply none x (truncf .bf16 w ht) b ht hb p q

/-- The host's dense layer on all the rows: `dot_general` plus the bias lifted to a row and then to the rows. -/
def denseH (d : DotDims ⟨2, ![A, K]⟩ ⟨2, ![K, M]⟩ ⟨2, ![A, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (X : FVec Ideal ⟨2, ![A, K]⟩ .f32) (W : FVec Ideal ⟨2, ![K, M]⟩ .f32) (b : FVec Ideal ⟨1, ![M]⟩ .f32) :
    FVec Ideal ⟨2, ![A, M]⟩ .f32 :=
  addf (Host.dotGeneral d none X W) (broadcastInDim ⟨2, ![A, M]⟩ ![0, 1] h2 (broadcastInDim ⟨2, ![1, M]⟩ ![1] h1 b))

/-- It is the same function of the weights rounded to bf16 and the bias recast to a row. -/
theorem denseH_eq {d : DotDims ⟨2, ![A, K]⟩ ⟨2, ![K, M]⟩ ⟨2, ![A, M]⟩} (hd : d = DotDims.plain A K M)
    (h1 : (⟨1, ![M]⟩ : Shape).BroadcastsInDim ⟨2, ![1, M]⟩ ![1])
    (h2 : (⟨2, ![1, M]⟩ : Shape).BroadcastsInDim ⟨2, ![A, M]⟩ ![0, 1])
    (ht : FTy.bf16.bits < FTy.f32.bits) (hc : (⟨1, ![M]⟩ : Shape).ShapeCasts ⟨2, ![1, M]⟩)
    (X : FVec Ideal ⟨2, ![A, K]⟩ .f32) (W : FVec Ideal ⟨2, ![K, M]⟩ .f32) (b : FVec Ideal ⟨1, ![M]⟩ .f32) :
    denseH d h1 h2 X W b = affine X (truncf .bf16 W ht) (shapeCast ⟨2, ![1, M]⟩ b hc) := by
  subst hd
  exact (affine_eq_host none .single X W b ht hc h1 h2).symm

/-- Entry `(p, q)` of a dense layer reads row `p` of its input only: rows that agree give entries that agree. -/
theorem affine_rows {φw : FTy} (Xb : FVec Ideal ⟨2, ![A, K]⟩ .f32) (X : FVec Ideal ⟨2, ![A', K]⟩ .f32)
    (W : FVec Ideal ⟨2, ![K, M]⟩ φw) (b : FVec Ideal ⟨2, ![1, M]⟩ .f32) (p : Fin A) (r : Fin A')
    (h : ∀ k : Fin K, Xb (ix2 p k) = X (ix2 r k)) (q : Fin M) :
    affine Xb W b (ix2 p q) = affine X W b (ix2 r q) := by
  rw [affine_ix2, affine_ix2]
  congr 1
  exact Finset.sum_congr rfl fun k _ => by rw [h k]

/-! ## Two layers with the activation after each (an edge network), and two layers with the activation between (an output head) -/

/-- `ssp (ssp (X·W1 + b1)·W2 + b2)`. -/
def mlp2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  sspV (affine (sspV (affine X W1 b1)) W2 b2)

theorem mlp2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    mlp2 Xb W1 b1 W2 b2 (ix2 p q) = mlp2 X W1 b1 W2 b2 (ix2 r q) := by
  show ssp (affine (sspV (affine Xb W1 b1)) W2 b2 (ix2 p q)) = ssp (affine (sspV (affine X W1 b1)) W2 b2 (ix2 r q))
  refine congrArg ssp ?_
  exact affine_rows _ _ W2 b2 p r (fun k => congrArg ssp (affine_rows Xb X W1 b1 p r h k)) q

/-- `ssp (X·Wo + bo)·Wp + bp`. -/
def proj2 {φ1 φ2 : FTy} (X : FVec Ideal ⟨2, ![A, K]⟩ .f32) (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) : FVec Ideal ⟨2, ![A, M]⟩ .f32 :=
  affine (sspV (affine X Wo bo)) Wp bp

theorem proj2_rows {φ1 φ2 : FTy} (Xb : FVec Ideal ⟨2, ![A, K]⟩ .f32) (X : FVec Ideal ⟨2, ![A', K]⟩ .f32)
    (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) (p : Fin A) (r : Fin A')
    (h : ∀ k : Fin K, Xb (ix2 p k) = X (ix2 r k)) (q : Fin M) :
    proj2 Xb Wo bo Wp bp (ix2 p q) = proj2 X Wo bo Wp bp (ix2 r q) :=
  affine_rows _ _ Wp bp p r (fun k => congrArg ssp (affine_rows Xb X Wo bo p r h k)) q

/-- The edge network as a kernel body spells it on a block of rows. -/
def mlp2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  sspK (denseK d2 ht hc2 hb2 (sspK (denseK d1 ht hc1 hb1 x0 x1 x2)) x3 x4)

theorem mlp2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    mlp2K d1 d2 ht hc1 hb1 hc2 hb2 x0 x1 x2 x3 x4 = mlp2 x0 (truncf .bf16 x1 ht) x2 (truncf .bf16 x3 ht) x4 := by
  unfold mlp2K mlp2
  rw [denseK_eq hd1, sspK_eq, denseK_eq hd2, sspK_eq]

/-- The output head as a kernel body spells it on a block of rows. -/
def proj2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  denseK d2 ht hc2 hb2 (sspK (denseK d1 ht hc1 hb1 x0 x1 x2)) x3 x4

theorem proj2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    proj2K d1 d2 ht hc1 hb1 hc2 hb2 x0 x1 x2 x3 x4 = proj2 x0 (truncf .bf16 x1 ht) x2 (truncf .bf16 x3 ht) x4 := by
  unfold proj2K proj2
  rw [denseK_eq hd1, sspK_eq, denseK_eq hd2]

end Idealize.ShloMosaic.SoftplusLayers

end
-- ==== Proof.LibReluMlp.lean ====
/-
  Dense layers `rows · weights + bias row` followed by the rectifier `max(·, 0)`, and the logistic function `1 / (1 + e⁻ˣ)`
  after a last layer, each in two spellings that denote one function of the extended reals:

  * a kernel body's — a block of rows, rows and weights rounded to bf16 (the identity here), the matrix unit's product into a
    zero accumulator, the bias a `[1, M]` row repeated down the rows, the zero a scalar splat to the shape, the logistic
    function one operation;
  * the host's — `dot_general`, the bias `[M]` lifted to `[1, M]` and then to `[A, M]`, the zero and the one rank-0 arrays
    broadcast to the shape, the logistic function spelled `1 / (1 + exp(−x))`.

  Entry `(p, q)` of every layer reads row `p` of its input only, so a block of rows of the result is the result of that
  block of rows. Two stacks are named: two rectified layers (`phi2`), and two rectified layers, a third layer and the
  logistic function (`rho3`).
-/
import Idealize.ShloMosaic.PureOps.Ideal.Laws
import Idealize.ShloMosaic.Lib.ValueIdx
import Idealize.ShloMosaic.Lib.ValueLayout
import Idealize.ShloMosaic.Lib.Pipeline.Value
import proofs.«182230_j49744311222349_2_alg».proof.Proof.LibPlainDot
import proofs.«182230_j49744311222349_2_alg».proof.Proof.LibAffine
import proofs.«182230_j49744311222349_2_alg».proof.Proof.LibSoftplusLayers

noncomputable section

namespace Idealize.ShloMosaic.ReluMlp

open Idealize.ShloMosaic.ValueIdx Idealize.ShloMosaic.Affine Idealize.ShloMosaic.SoftplusLayers

/-! ## The rectifier and the logistic function on an array, in the two spellings -/

variable {s : Shape}

/-- `max(x, 0)`, the zero kept as the f32 word both spellings carry. -/
def relu (x : EReal) : EReal := max x zeroW

/-- The rectifier applied to every entry. -/
def reluV (x : FVec Ideal s .f32) : FVec Ideal s .f32 := fun i => relu (x i)

/-- A kernel body's spelling: the scalar zero splat to the shape. -/
def reluK (x : FVec Ideal s .f32) : FVec Ideal s .f32 :=
  maximumf x (broadcast s (Scalar.ofBits (F := Ideal) .f32 0x00000000#32))

theorem reluK_eq (x : FVec Ideal s .f32) : reluK x = reluV x := rfl

/-- The host's spelling: the rank-0 zero broadcast to the shape. -/
def reluH (h0 : (⟨0, ![]⟩ : Shape).BroadcastsInDim s ![]) (x : FVec Ideal s .f32) : FVec Ideal s .f32 :=
  maximumf x (broadcastInDim s ![] h0 (constant (F := Ideal) ⟨0, ![]⟩ .f32 0x00000000#32))

theorem reluH_eq (h0 : (⟨0, ![]⟩ : Shape).BroadcastsInDim s ![]) (x : FVec Ideal s .f32) : reluH h0 x = reluV x := rfl

/-- The f32 word of `1.0` is the real one. -/
theorem one_word : Ideal.ofBits .f32 0x3F800000#32 = 1 := by
  simp [Ideal.ofBits, Ideal.ieee, -EReal.coe_mul]; norm_num

/-- The logistic function applied to every entry. -/
def sigV (x : FVec Ideal s .f32) : FVec Ideal s .f32 := fun i => Ideal.logistic (x i)

/-- A kernel body's spelling is the one operation. -/
theorem sigK_eq (x : FVec Ideal s .f32) : logistic x = sigV x := rfl

/-- The host's spelling: `1 / (1 + exp(−x))` with the ones rank-0 arrays broadcast to the shape. -/
def sigH (h0 : (⟨0, ![]⟩ : Shape).BroadcastsInDim s ![]) (x : FVec Ideal s .f32) : FVec Ideal s .f32 :=
  Host.divf (broadcastInDim s ![] h0 (constant (F := Ideal) ⟨0, ![]⟩ .f32 0x3F800000#32))
    (addf (broadcastInDim s ![] h0 (constant (F := Ideal) ⟨0, ![]⟩ .f32 0x3F800000#32)) (Host.exp (Host.negf x)))

theorem sigH_eq (h0 : (⟨0, ![]⟩ : Shape).BroadcastsInDim s ![]) (x : FVec Ideal s .f32) : sigH h0 x = sigV x := by
  funext i
  show Ideal.div (Ideal.ofBits .f32 0x3F800000#32) (Ideal.ofBits .f32 0x3F800000#32 + Ideal.exp (-(x i))) = Ideal.logistic (x i)
  rw [one_word]
  rfl

/-! ## Rectified layers -/

variable {A A' K H H' M : Nat}

/-- `max(X·W + b, 0)`. -/
def layer {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  reluV (affine X W b)

/-- Entry `(p, q)` of a rectified layer reads row `p` of its input only. -/
theorem layer_rows {φw : FTy} (Xb : FVec Ideal ⟨2, ![A, K]⟩ .f32) (X : FVec Ideal ⟨2, ![A', K]⟩ .f32)
    (W : FVec Ideal ⟨2, ![K, M]⟩ φw) (b : FVec Ideal ⟨2, ![1, M]⟩ .f32) (p : Fin A) (r : Fin A')
    (h : ∀ k : Fin K, Xb (ix2 p k) = X (ix2 r k)) (q : Fin M) :
    layer Xb W b (ix2 p q) = layer X W b (ix2 r q) :=
  congrArg relu (affine_rows Xb X W b p r h q)

/-- Two rectified layers: `max(max(X·W1 + b1, 0)·W2 + b2, 0)`. -/
def phi2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  layer (layer X W1 b1) W2 b2

theorem phi2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    phi2 Xb W1 b1 W2 b2 (ix2 p q) = phi2 X W1 b1 W2 b2 (ix2 r q) :=
  layer_rows _ _ W2 b2 p r (fun k => layer_rows Xb X W1 b1 p r h k) q

/-- Two rectified layers, a third layer and the logistic function. -/
def rho3 {φ1 φ2 φ3 : FTy} (X : FVec Ideal ⟨2, ![A, K]⟩ .f32) (W1 : FVec Ideal ⟨2, ![K, H]⟩ φ1) (b1 : FVec Ideal ⟨2, ![1, H]⟩ .f32)
    (W2 : FVec Ideal ⟨2, ![H, H']⟩ φ2) (b2 : FVec Ideal ⟨2, ![1, H']⟩ .f32)
    (W3 : FVec Ideal ⟨2, ![H', M]⟩ φ3) (b3 : FVec Ideal ⟨2, ![1, M]⟩ .f32) : FVec Ideal ⟨2, ![A, M]⟩ .f32 :=
  sigV (affine (phi2 X W1 b1 W2 b2) W3 b3)

theorem rho3_rows {φ1 φ2 φ3 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, H']⟩ φ2) (b2 : FVec Ideal ⟨2, ![1, H']⟩ .f32)
    (W3 : FVec Ideal ⟨2, ![H', M]⟩ φ3) (b3 : FVec Ideal ⟨2, ![1, M]⟩ .f32) (p : Fin A) (r : Fin A')
    (h : ∀ k : Fin K, Xb (ix2 p k) = X (ix2 r k)) (q : Fin M) :
    rho3 Xb W1 b1 W2 b2 W3 b3 (ix2 p q) = rho3 X W1 b1 W2 b2 W3 b3 (ix2 r q) :=
  congrArg Ideal.logistic
    (affine_rows _ _ W3 b3 p r (fun k => phi2_rows Xb X W1 b1 W2 b2 p r h k) q)

/-! ## The stacks as a kernel body spells them on a block of rows -/

def phi2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  reluK (denseK d2 ht hc2 hb2 (reluK (denseK d1 ht hc1 hb1 x0 x1 x2)) x3 x4)

theorem phi2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    phi2K d1 d2 ht hc1 hb1 hc2 hb2 x0 x1 x2 x3 x4 = phi2 x0 (truncf .bf16 x1 ht) x2 (truncf .bf16 x3 ht) x4 := by
  unfold phi2K phi2 layer
  rw [denseK_eq hd1, reluK_eq, denseK_eq hd2, reluK_eq]

/-- The second stack on a block of rows, the block first recast to its own shape. -/
def rho3K (d1 : DotDims ⟨2, ![A, K]⟩ ⟨2, ![K, H]⟩ ⟨2, ![A, H]⟩) (d2 : DotDims ⟨2, ![A, H]⟩ ⟨2, ![H, H']⟩ ⟨2, ![A, H']⟩)
    (d3 : DotDims ⟨2, ![A, H']⟩ ⟨2, ![H', M]⟩ ⟨2, ![A, M]⟩) (ht : FTy.bf16.bits < FTy.f32.bits)
    (hc0 : (⟨2, ![A, K]⟩ : Shape).ShapeCasts ⟨2, ![A, K]⟩)
    (hc1 : (⟨2, ![1, H]⟩ : Shape).ShapeCasts ⟨2, ![1, H]⟩) (hb1 : (⟨2, ![1, H]⟩ : Shape).Broadcasts ⟨2, ![A, H]⟩)
    (hc2 : (⟨2, ![1, H']⟩ : Shape).ShapeCasts ⟨2, ![1, H']⟩) (hb2 : (⟨2, ![1, H']⟩ : Shape).Broadcasts ⟨2, ![A, H']⟩)
    (hc3 : (⟨2, ![1, M]⟩ : Shape).ShapeCasts ⟨2, ![1, M]⟩) (hb3 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, H']⟩ .f32) (x4 : FVec Ideal ⟨2, ![1, H']⟩ .f32)
    (x5 : FVec Ideal ⟨2, ![H', M]⟩ .f32) (x6 : FVec Ideal ⟨2, ![1, M]⟩ .f32) : FVec Ideal ⟨2, ![A, M]⟩ .f32 :=
  logistic (denseK d3 ht hc3 hb3 (reluK (denseK d2 ht hc2 hb2
    (reluK (denseK d1 ht hc1 hb1 (shapeCast ⟨2, ![A, K]⟩ x0 hc0) x1 x2)) x3 x4)) x5 x6)

theorem rho3K_eq {d1 : DotDims ⟨2, ![A, K]⟩ ⟨2, ![K, H]⟩ ⟨2, ![A, H]⟩} {d2 : DotDims ⟨2, ![A, H]⟩ ⟨2, ![H, H']⟩ ⟨2, ![A, H']⟩}
    {d3 : DotDims ⟨2, ![A, H']⟩ ⟨2, ![H', M]⟩ ⟨2, ![A, M]⟩}
    (hd1 : d1 = DotDims.plain A K H) (hd2 : d2 = DotDims.plain A H H') (hd3 : d3 = DotDims.plain A H' M)
    (ht : FTy.bf16.bits < FTy.f32.bits)
    (hc0 : (⟨2, ![A, K]⟩ : Shape).ShapeCasts ⟨2, ![A, K]⟩)
    (hc1 : (⟨2, ![1, H]⟩ : Shape).ShapeCasts ⟨2, ![1, H]⟩) (hb1 : (⟨2, ![1, H]⟩ : Shape).Broadcasts ⟨2, ![A, H]⟩)
    (hc2 : (⟨2, ![1, H']⟩ : Shape).ShapeCasts ⟨2, ![1, H']⟩) (hb2 : (⟨2, ![1, H']⟩ : Shape).Broadcasts ⟨2, ![A, H']⟩)
    (hc3 : (⟨2, ![1, M]⟩ : Shape).ShapeCasts ⟨2, ![1, M]⟩) (hb3 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, H']⟩ .f32) (x4 : FVec Ideal ⟨2, ![1, H']⟩ .f32)
    (x5 : FVec Ideal ⟨2, ![H', M]⟩ .f32) (x6 : FVec Ideal ⟨2, ![1, M]⟩ .f32) :
    rho3K d1 d2 d3 ht hc0 hc1 hb1 hc2 hb2 hc3 hb3 x0 x1 x2 x3 x4 x5 x6
      = rho3 x0 (truncf .bf16 x1 ht) x2 (truncf .bf16 x3 ht) x4 (truncf .bf16 x5 ht) x6 := by
  unfold rho3K rho3 phi2 layer
  rw [shapeCast_self, denseK_eq hd1, reluK_eq, denseK_eq hd2, reluK_eq, denseK_eq hd3, sigK_eq]

/-! ## The stacks as the host spells them on all the rows -/

def phi2H (d1 : DotDims ⟨2, ![A, K]⟩ ⟨2, ![K, H]⟩ ⟨2, ![A, H]⟩) (d2 : DotDims ⟨2, ![A, H]⟩ ⟨2, ![H, M]⟩ ⟨2, ![A, M]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1])
    (z2 : (⟨0, ![]⟩ : Shape).BroadcastsInDim ⟨2, ![A, M]⟩ ![])
    (X : FVec Ideal ⟨2, ![A, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32) : FVec Ideal ⟨2, ![A, M]⟩ .f32 :=
  reluH z2 (denseH d2 g3 g4 (reluH z1 (denseH d1 g1 g2 X W1 b1)) W2 b2)

theorem phi2H_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1])
    (z2 : (⟨0, ![]⟩ : Shape).BroadcastsInDim ⟨2, ![A, M]⟩ ![])
    (ht : FTy.bf16.bits < FTy.f32.bits)
    (hc1 : (⟨1, ![H]⟩ : Shape).ShapeCasts ⟨2, ![1, H]⟩) (hc2 : (⟨1, ![M]⟩ : Shape).ShapeCasts ⟨2, ![1, M]⟩)
    (X : FVec Ideal ⟨2, ![A, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32) :
    phi2H d1 d2 g1 g2 z1 g3 g4 z2 X W1 b1 W2 b2
      = phi2 X (truncf .bf16 W1 ht) (shapeCast ⟨2, ![1, H]⟩ b1 hc1) (truncf .bf16 W2 ht) (shapeCast ⟨2, ![1, M]⟩ b2 hc2) := by
  unfold phi2H phi2 layer
  rw [denseH_eq hd1 g1 g2 ht hc1, reluH_eq, denseH_eq hd2 g3 g4 ht hc2, reluH_eq]

def rho3H (d1 : DotDims ⟨2, ![A, K]⟩ ⟨2, ![K, H]⟩ ⟨2, ![A, H]⟩) (d2 : DotDims ⟨2, ![A, H]⟩ ⟨2, ![H, H']⟩ ⟨2, ![A, H']⟩)
    (d3 : DotDims ⟨2, ![A, H']⟩ ⟨2, ![H', M]⟩ ⟨2, ![A, M]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![H']⟩ : Shape).BroadcastsInDim ⟨2, ![1, H']⟩ ![1]) (g4 : (⟨2, ![1, H']⟩ : Shape).BroadcastsInDim ⟨2, ![A, H']⟩ ![0, 1])
    (z2 : (⟨0, ![]⟩ : Shape).BroadcastsInDim ⟨2, ![A, H']⟩ ![])
    (g5 : (⟨1, ![M]⟩ : Shape).BroadcastsInDim ⟨2, ![1, M]⟩ ![1]) (g6 : (⟨2, ![1, M]⟩ : Shape).BroadcastsInDim ⟨2, ![A, M]⟩ ![0, 1])
    (z3 : (⟨0, ![]⟩ : Shape).BroadcastsInDim ⟨2, ![A, M]⟩ ![])
    (X : FVec Ideal ⟨2, ![A, K]⟩ .f32) (W1 : FVec Ideal ⟨2, ![K, H]⟩ .f32) (b1 : FVec Ideal ⟨1, ![H]⟩ .f32)
    (W2 : FVec Ideal ⟨2, ![H, H']⟩ .f32) (b2 : FVec Ideal ⟨1, ![H']⟩ .f32)
    (W3 : FVec Ideal ⟨2, ![H', M]⟩ .f32) (b3 : FVec Ideal ⟨1, ![M]⟩ .f32) : FVec Ideal ⟨2, ![A, M]⟩ .f32 :=
  sigH z3 (denseH d3 g5 g6 (reluH z2 (denseH d2 g3 g4 (reluH z1 (denseH d1 g1 g2 X W1 b1)) W2 b2)) W3 b3)

theorem rho3H_eq {d1 : DotDims ⟨2, ![A, K]⟩ ⟨2, ![K, H]⟩ ⟨2, ![A, H]⟩} {d2 : DotDims ⟨2, ![A, H]⟩ ⟨2, ![H, H']⟩ ⟨2, ![A, H']⟩}
    {d3 : DotDims ⟨2, ![A, H']⟩ ⟨2, ![H', M]⟩ ⟨2, ![A, M]⟩}
    (hd1 : d1 = DotDims.plain A K H) (hd2 : d2 = DotDims.plain A H H') (hd3 : d3 = DotDims.plain A H' M)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![H']⟩ : Shape).BroadcastsInDim ⟨2, ![1, H']⟩ ![1]) (g4 : (⟨2, ![1, H']⟩ : Shape).BroadcastsInDim ⟨2, ![A, H']⟩ ![0, 1])
    (z2 : (⟨0, ![]⟩ : Shape).BroadcastsInDim ⟨2, ![A, H']⟩ ![])
    (g5 : (⟨1, ![M]⟩ : Shape).BroadcastsInDim ⟨2, ![1, M]⟩ ![1]) (g6 : (⟨2, ![1, M]⟩ : Shape).BroadcastsInDim ⟨2, ![A, M]⟩ ![0, 1])
    (z3 : (⟨0, ![]⟩ : Shape).BroadcastsInDim ⟨2, ![A, M]⟩ ![])
    (ht : FTy.bf16.bits < FTy.f32.bits)
    (hc1 : (⟨1, ![H]⟩ : Shape).ShapeCasts ⟨2, ![1, H]⟩) (hc2 : (⟨1, ![H']⟩ : Shape).ShapeCasts ⟨2, ![1, H']⟩)
    (hc3 : (⟨1, ![M]⟩ : Shape).ShapeCasts ⟨2, ![1, M]⟩)
    (X : FVec Ideal ⟨2, ![A, K]⟩ .f32) (W1 : FVec Ideal ⟨2, ![K, H]⟩ .f32) (b1 : FVec Ideal ⟨1, ![H]⟩ .f32)
    (W2 : FVec Ideal ⟨2, ![H, H']⟩ .f32) (b2 : FVec Ideal ⟨1, ![H']⟩ .f32)
    (W3 : FVec Ideal ⟨2, ![H', M]⟩ .f32) (b3 : FVec Ideal ⟨1, ![M]⟩ .f32) :
    rho3H d1 d2 d3 g1 g2 z1 g3 g4 z2 g5 g6 z3 X W1 b1 W2 b2 W3 b3
      = rho3 X (truncf .bf16 W1 ht) (shapeCast ⟨2, ![1, H]⟩ b1 hc1) (truncf .bf16 W2 ht) (shapeCast ⟨2, ![1, H']⟩ b2 hc2)
          (truncf .bf16 W3 ht) (shapeCast ⟨2, ![1, M]⟩ b3 hc3) := by
  unfold rho3H rho3 phi2 layer
  rw [denseH_eq hd1 g1 g2 ht hc1, reluH_eq, denseH_eq hd2 g3 g4 ht hc2, reluH_eq, denseH_eq hd3 g5 g6 ht hc3, sigH_eq]

end Idealize.ShloMosaic.ReluMlp

end
-- ==== Proof.DenseStack.lean ====
/-
  The dense network on the `[512, 13]` rows as one function of the extended reals: three rectified layers
  `max(X·W + b, 0)` of widths 512, 256 and 64 and a last layer `X·W + b` of width 16. Every weight matrix is rounded to bf16
  (the identity here) and every bias, a vector `[M]`, is read as the row `[1, M]` it is cast to.

  Two spellings denote it. A kernel body rounds rows and weights to bf16, multiplies on the matrix unit into a zero
  accumulator, casts the bias vector to a row and repeats the row down the rows, and takes the maximum with a splat zero.
  The host multiplies with `dot_general`, lifts the bias to a row and then to the rows, and takes the maximum with a rank-0
  zero broadcast to the shape.
-/
import proofs.«182230_j49744311222349_2_alg».proof.Proof.Gen.KernelIdeal.Skeleton
import proofs.«182230_j49744311222349_2_alg».proof.Proof.LibPlainDot
import proofs.«182230_j49744311222349_2_alg».proof.Proof.LibAffine
import proofs.«182230_j49744311222349_2_alg».proof.Proof.LibSoftplusLayers
import proofs.«182230_j49744311222349_2_alg».proof.Proof.LibReluMlp

noncomputable section

namespace Cert.KernelIdeal.DenseStack

open Idealize.ShloMosaic Idealize.ShloMosaic.ValueIdx Cert.KernelIdeal Cert.KernelIdeal.Gen

/-! ## One layer as a kernel body spells it, the bias a vector cast to a row -/

section Layer
variable {A K M : ℕ}

/-- Rows and weights rounded to bf16, the matrix unit's product into a zero accumulator, the bias vector cast to a row and
    repeated down the rows: `rows · weights + bias row`. -/
theorem denseVec_eq {d : DotDims ⟨2, ![A, K]⟩ ⟨2, ![K, M]⟩ ⟨2, ![A, M]⟩} (hd : d = DotDims.plain A K M)
    (ht : FTy.bf16.bits < FTy.f32.bits) (hc : (⟨1, ![M]⟩ : Shape).ShapeCasts ⟨2, ![1, M]⟩)
    (hb : (⟨2, ![1, M]⟩ : Shape).Broadcasts ⟨2, ![A, M]⟩)
    (x : FVec Ideal ⟨2, ![A, K]⟩ .f32) (w : FVec Ideal ⟨2, ![K, M]⟩ .f32) (b : FVec Ideal ⟨1, ![M]⟩ .f32) :
    addf (matmul d none (truncf .bf16 x ht) (truncf .bf16 w ht) (constant ⟨2, ![A, M]⟩ .f32 0x00000000#32))
        (broadcastTo ⟨2, ![A, M]⟩ (shapeCast ⟨2, ![1, M]⟩ b hc) hb)
      = Affine.affine x (truncf .bf16 w ht) (shapeCast ⟨2, ![1, M]⟩ b hc) := by
  subst hd
  funext i
  obtain ⟨p, q, rfl⟩ : ∃ (p : Fin A) (q : Fin M), i = ix2 p q := ⟨i 0, i 1, eq_ix2 i⟩
  exact Affine.body_apply none x (truncf .bf16 w ht) (shapeCast ⟨2, ![1, M]⟩ b hc) ht hb p q

/-- The same followed by the maximum with a splat zero: a rectified layer. -/
theorem layerVec_eq {d : DotDims ⟨2, ![A, K]⟩ ⟨2, ![K, M]⟩ ⟨2, ![A, M]⟩} (hd : d = DotDims.plain A K M)
    (ht : FTy.bf16.bits < FTy.f32.bits) (hc : (⟨1, ![M]⟩ : Shape).ShapeCasts ⟨2, ![1, M]⟩)
    (hb : (⟨2, ![1, M]⟩ : Shape).Broadcasts ⟨2, ![A, M]⟩)
    (x : FVec Ideal ⟨2, ![A, K]⟩ .f32) (w : FVec Ideal ⟨2, ![K, M]⟩ .f32) (b : FVec Ideal ⟨1, ![M]⟩ .f32) :
    maximumf
        (addf (matmul d none (truncf .bf16 x ht) (truncf .bf16 w ht) (constant ⟨2, ![A, M]⟩ .f32 0x00000000#32))
          (broadcastTo ⟨2, ![A, M]⟩ (shapeCast ⟨2, ![1, M]⟩ b hc) hb))
        (broadcast ⟨2, ![A, M]⟩ (Scalar.ofBits (F := Ideal) .f32 0x00000000#32))
      = ReluMlp.layer x (truncf .bf16 w ht) (shapeCast ⟨2, ![1, M]⟩ b hc) := by
  rw [denseVec_eq hd]
  rfl

end Layer

/-! ## The network -/

/-- Three rectified layers and a last layer, the weights rounded to bf16 and each bias vector read as a row. -/
def denseOut (X : FVec Ideal S512x13 .f32) (W0 : FVec Ideal S13x512 .f32) (b0 : FVec Ideal S512 .f32)
    (W1 : FVec Ideal S512x256 .f32) (b1 : FVec Ideal S256 .f32) (W2 : FVec Ideal S256x64 .f32) (b2 : FVec Ideal S64 .f32)
    (W3 : FVec Ideal S64x16 .f32) (b3 : FVec Ideal S16 .f32) : FVec Ideal S512x16 .f32 :=
  Affine.affine
    (ReluMlp.layer
      (ReluMlp.layer
        (ReluMlp.layer X (truncf .bf16 W0 bitsLt_bf16_f32) (shapeCast S1x512 b0 shapeCasts_S512_S1x512))
        (truncf .bf16 W1 bitsLt_bf16_f32) (shapeCast S1x256 b1 shapeCasts_S256_S1x256))
      (truncf .bf16 W2 bitsLt_bf16_f32) (shapeCast S1x64 b2 shapeCasts_S64_S1x64))
    (truncf .bf16 W3 bitsLt_bf16_f32) (shapeCast S1x16 b3 shapeCasts_S16_S1x16)

/-- The kernel body's dense network is that function. -/
theorem pay7_eq (v27 : FVec Ideal S512x13 .f32) (v29 : FVec Ideal S13x512 .f32) (v32 : FVec Ideal S512 .f32)
    (v39 : FVec Ideal S512x256 .f32) (v42 : FVec Ideal S256 .f32) (v49 : FVec Ideal S256x64 .f32) (v52 : FVec Ideal S64 .f32)
    (v59 : FVec Ideal S64x16 .f32) (v62 : FVec Ideal S16 .f32) :
    k0_pay7 (F := Ideal) v27 v29 v32 v39 v42 v49 v52 v59 v62 = denseOut v27 v29 v32 v39 v42 v49 v52 v59 v62 := by
  funext i
  unfold k0_pay7 denseOut
  rw [show dot_S512x13_S13x512_S512x512_1_0_0_1_n_n = DotDims.plain 512 13 512 from rfl,
    show dot_S512x512_S512x256_S512x256_1_0_0_1_n_n = DotDims.plain 512 512 256 from rfl,
    show dot_S512x256_S256x64_S512x64_1_0_0_1_n_n = DotDims.plain 512 256 64 from rfl,
    show dot_S512x64_S64x16_S512x16_1_0_0_1_n_n = DotDims.plain 512 64 16 from rfl]
  rw [layerVec_eq rfl, layerVec_eq rfl, layerVec_eq rfl, denseVec_eq rfl]

/-- The host's spelling of the same network: `dot_general`, each bias lifted to a row and then to the rows, each zero a
    rank-0 array broadcast to the shape. -/
theorem host_eq {d0 : DotDims ⟨2, ![512, 13]⟩ ⟨2, ![13, 512]⟩ ⟨2, ![512, 512]⟩}
    {d1 : DotDims ⟨2, ![512, 512]⟩ ⟨2, ![512, 256]⟩ ⟨2, ![512, 256]⟩}
    {d2 : DotDims ⟨2, ![512, 256]⟩ ⟨2, ![256, 64]⟩ ⟨2, ![512, 64]⟩}
    {d3 : DotDims ⟨2, ![512, 64]⟩ ⟨2, ![64, 16]⟩ ⟨2, ![512, 16]⟩}
    (hd0 : d0 = DotDims.plain 512 13 512) (hd1 : d1 = DotDims.plain 512 512 256)
    (hd2 : d2 = DotDims.plain 512 256 64) (hd3 : d3 = DotDims.plain 512 64 16)
    (g01 : (⟨1, ![512]⟩ : Shape).BroadcastsInDim ⟨2, ![1, 512]⟩ ![1])
    (g02 : (⟨2, ![1, 512]⟩ : Shape).BroadcastsInDim ⟨2, ![512, 512]⟩ ![0, 1])
    (z0 : (⟨0, ![]⟩ : Shape).BroadcastsInDim ⟨2, ![512, 512]⟩ ![])
    (g11 : (⟨1, ![256]⟩ : Shape).BroadcastsInDim ⟨2, ![1, 256]⟩ ![1])
    (g12 : (⟨2, ![1, 256]⟩ : Shape).BroadcastsInDim ⟨2, ![512, 256]⟩ ![0, 1])
    (z1 : (⟨0, ![]⟩ : Shape).BroadcastsInDim ⟨2, ![512, 256]⟩ ![])
    (g21 : (⟨1, ![64]⟩ : Shape).BroadcastsInDim ⟨2, ![1, 64]⟩ ![1])
    (g22 : (⟨2, ![1, 64]⟩ : Shape).BroadcastsInDim ⟨2, ![512, 64]⟩ ![0, 1])
    (z2 : (⟨0, ![]⟩ : Shape).BroadcastsInDim ⟨2, ![512, 64]⟩ ![])
    (g31 : (⟨1, ![16]⟩ : Shape).BroadcastsInDim ⟨2, ![1, 16]⟩ ![1])
    (g32 : (⟨2, ![1, 16]⟩ : Shape).BroadcastsInDim ⟨2, ![512, 16]⟩ ![0, 1])
    (X : FVec Ideal ⟨2, ![512, 13]⟩ .f32) (W0 : FVec Ideal ⟨2, ![13, 512]⟩ .f32) (b0 : FVec Ideal ⟨1, ![512]⟩ .f32)
    (W1 : FVec Ideal ⟨2, ![512, 256]⟩ .f32) (b1 : FVec Ideal ⟨1, ![256]⟩ .f32)
    (W2 : FVec Ideal ⟨2, ![256, 64]⟩ .f32) (b2 : FVec Ideal ⟨1, ![64]⟩ .f32)
    (W3 : FVec Ideal ⟨2, ![64, 16]⟩ .f32) (b3 : FVec Ideal ⟨1, ![16]⟩ .f32) :
    addf (Host.dotGeneral d3 none
          (maximumf
            (addf (Host.dotGeneral d2 none
                (maximumf
                  (addf (Host.dotGeneral d1 none
                      (maximumf
                        (addf (Host.dotGeneral d0 none X W0)
                          (broadcastInDim ⟨2, ![512, 512]⟩ ![0, 1] g02 (broadcastInDim ⟨2, ![1, 512]⟩ ![1] g01 b0)))
                        (broadcastInDim ⟨2, ![512, 512]⟩ ![] z0 (constant (F := Ideal) ⟨0, ![]⟩ .f32 0x00000000#32)))
                      W1)
                    (broadcastInDim ⟨2, ![512, 256]⟩ ![0, 1] g12 (broadcastInDim ⟨2, ![1, 256]⟩ ![1] g11 b1)))
                  (broadcastInDim ⟨2, ![512, 256]⟩ ![] z1 (constant (F := Ideal) ⟨0, ![]⟩ .f32 0x00000000#32)))
                W2)
              (broadcastInDim ⟨2, ![512, 64]⟩ ![0, 1] g22 (broadcastInDim ⟨2, ![1, 64]⟩ ![1] g21 b2)))
            (broadcastInDim ⟨2, ![512, 64]⟩ ![] z2 (constant (F := Ideal) ⟨0, ![]⟩ .f32 0x00000000#32)))
          W3)
        (broadcastInDim ⟨2, ![512, 16]⟩ ![0, 1] g32 (broadcastInDim ⟨2, ![1, 16]⟩ ![1] g31 b3))
      = denseOut X W0 b0 W1 b1 W2 b2 W3 b3 := by
  show SoftplusLayers.denseH d3 g31 g32
      (ReluMlp.reluH z2 (SoftplusLayers.denseH d2 g21 g22
        (ReluMlp.reluH z1 (SoftplusLayers.denseH d1 g11 g12
          (ReluMlp.reluH z0 (SoftplusLayers.denseH d0 g01 g02 X W0 b0)) W1 b1)) W2 b2)) W3 b3 = _
  unfold denseOut ReluMlp.layer
  rw [SoftplusLayers.denseH_eq hd0 g01 g02 bitsLt_bf16_f32 shapeCasts_S512_S1x512, ReluMlp.reluH_eq,
    SoftplusLayers.denseH_eq hd1 g11 g12 bitsLt_bf16_f32 shapeCasts_S256_S1x256, ReluMlp.reluH_eq,
    SoftplusLayers.denseH_eq hd2 g21 g22 bitsLt_bf16_f32 shapeCasts_S64_S1x64, ReluMlp.reluH_eq,
    SoftplusLayers.denseH_eq hd3 g31 g32 bitsLt_bf16_f32 shapeCasts_S16_S1x16]

end Cert.KernelIdeal.DenseStack

end
-- ==== Proof.LibLifts.lean ====
/-
  Lifting a vector to a matrix with one unit axis, and back, read at coordinates (any extents):
  * a vector [a] lifted by broadcast_in_dim along axis 0 to the column [a, 1] reads, at (n, u), the vector at n;
  * a column [a, 1] reshaped to the vector [a] reads, at n, the column at (n, 0);
  * a vector [b] lifted by broadcast_in_dim along axis 1 to the row [1, b] reads, at (u, f), the vector at f.
-/
import Idealize.ShloMosaic.Lib.Pipeline.Value
import Idealize.ShloMosaic.Lib.ValueIdx

namespace Idealize.ShloMosaic.Lifts

open Idealize.ShloMosaic Idealize.ShloMosaic.ValueIdx

variable {α : Type}

/-- A vector lifted to a column. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (n : Fin a) (u : Fin 1) :
    broadcastInDim ⟨2, ![a, 1]⟩ ![0] h x (ix2 n u) = x (ix1 n) := by
  refine broadcastInDim_apply _ h x (ix2 n u) (ix1 n) fun ax => ?_
  match ax with
  | ⟨0, _⟩ =>
    show n.val = if a = 1 then 0 else n.val
    split
    · have := n.isLt; omega
    · rfl

/-- A column reshaped to a vector. -/
theorem shapeCast_a1_a_apply {a : ℕ} (x : (⟨2, ![a, 1]⟩ : Shape).Idx → α)
    (h : (⟨2, ![a, 1]⟩ : Shape).ShapeCasts ⟨1, ![a]⟩) (n : Fin a) :
    shapeCast ⟨1, ![a]⟩ x h (ix1 n) = x (ix2 n (0 : Fin 1)) :=
  shapeCast_apply x h _ _ (by
    rw [Shape.rowMajor_val_two, Shape.rowMajor_val_one]
    show n.val * 1 + 0 = n.val
    omega)

/-- A vector lifted to a row. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (f : Fin b) :
    broadcastInDim ⟨2, ![1, b]⟩ ![1] h x (ix2 u f) = x (ix1 f) := by
  refine broadcastInDim_apply _ h x (ix2 u f) (ix1 f) fun ax => ?_
  match ax with
  | ⟨0, _⟩ =>
    show f.val = if b = 1 then 0 else f.val
    split
    · have := f.isLt; omega
    · rfl

end Idealize.ShloMosaic.Lifts
-- ==== Proof.Tail.lean ====
/-
  The end of the computation as one function of the extended reals. The accumulated interaction sum plus a bias vector,
  rectified, is the hidden array `H0 : [512, 512]`; then a rectified layer `max(H0·W1 + b1, 0)` of width 256, a last layer
  `·W2 + b2` of width 1, the logistic function `1 / (1 + e⁻ˣ)`, and the column `[512, 1]` read as the vector `[512]`:

      predict H0 W1 b1 W2 b2 (n) = logistic ((max(H0·W1 + b1, 0)·W2 + b2)(n, 0)).

  Two spellings denote it: a kernel body's (bf16 roundings, the matrix unit into a zero accumulator, each bias vector cast to a
  row and repeated down the rows, splat zeros, the logistic function one operation, a shape cast of the column) and the host's
  (the logistic function spelled `1 / (1 + exp(−x))` with rank-0 ones broadcast to the shape, a reshape of the column).
-/
import proofs.«182230_j49744311222349_2_alg».proof.Proof.Gen.KernelIdeal.Skeleton
import proofs.«182230_j49744311222349_2_alg».proof.Proof.LibPlainDot
import proofs.«182230_j49744311222349_2_alg».proof.Proof.LibAffine
import proofs.«182230_j49744311222349_2_alg».proof.Proof.LibSoftplusLayers
import proofs.«182230_j49744311222349_2_alg».proof.Proof.LibReluMlp
import proofs.«182230_j49744311222349_2_alg».proof.Proof.LibLifts

noncomputable section

namespace Cert.KernelIdeal.Tail

open Idealize.ShloMosaic Idealize.ShloMosaic.ValueIdx Cert.KernelIdeal Cert.KernelIdeal.Gen

/-! ## One layer as a kernel body spells it, the bias a vector cast to a row -/

section Layer
variable {A K M : ℕ}

/-- Rows and weights rounded to bf16, the matrix unit's product into a zero accumulator, the bias vector cast to a row and
    repeated down the rows: `rows · weights + bias row`. -/
theorem denseVec_eq {d : DotDims ⟨2, ![A, K]⟩ ⟨2, ![K, M]⟩ ⟨2, ![A, M]⟩} (hd : d = DotDims.plain A K M)
    (ht : FTy.bf16.bits < FTy.f32.bits) (hc : (⟨1, ![M]⟩ : Shape).ShapeCasts ⟨2, ![1, M]⟩)
    (hb : (⟨2, ![1, M]⟩ : Shape).Broadcasts ⟨2, ![A, M]⟩)
    (x : FVec Ideal ⟨2, ![A, K]⟩ .f32) (w : FVec Ideal ⟨2, ![K, M]⟩ .f32) (b : FVec Ideal ⟨1, ![M]⟩ .f32) :
    addf (matmul d none (truncf .bf16 x ht) (truncf .bf16 w ht) (constant ⟨2, ![A, M]⟩ .f32 0x00000000#32))
        (broadcastTo ⟨2, ![A, M]⟩ (shapeCast ⟨2, ![1, M]⟩ b hc) hb)
      = Affine.affine x (truncf .bf16 w ht) (shapeCast ⟨2, ![1, M]⟩ b hc) := by
  subst hd
  funext i
  obtain ⟨p, q, rfl⟩ : ∃ (p : Fin A) (q : Fin M), i = ix2 p q := ⟨i 0, i 1, eq_ix2 i⟩
  exact Affine.body_apply none x (truncf .bf16 w ht) (shapeCast ⟨2, ![1, M]⟩ b hc) ht hb p q

/-- The same followed by the maximum with a splat zero: a rectified layer. -/
theorem layerVec_eq {d : DotDims ⟨2, ![A, K]⟩ ⟨2, ![K, M]⟩ ⟨2, ![A, M]⟩} (hd : d = DotDims.plain A K M)
    (ht : FTy.bf16.bits < FTy.f32.bits) (hc : (⟨1, ![M]⟩ : Shape).ShapeCasts ⟨2, ![1, M]⟩)
    (hb : (⟨2, ![1, M]⟩ : Shape).Broadcasts ⟨2, ![A, M]⟩)
    (x : FVec Ideal ⟨2, ![A, K]⟩ .f32) (w : FVec Ideal ⟨2, ![K, M]⟩ .f32) (b : FVec Ideal ⟨1, ![M]⟩ .f32) :
    maximumf
        (addf (matmul d none (truncf .bf16 x ht) (truncf .bf16 w ht) (constant ⟨2, ![A, M]⟩ .f32 0x00000000#32))
          (broadcastTo ⟨2, ![A, M]⟩ (shapeCast ⟨2, ![1, M]⟩ b hc) hb))
        (broadcast ⟨2, ![A, M]⟩ (Scalar.ofBits (F := Ideal) .f32 0x00000000#32))
      = ReluMlp.layer x (truncf .bf16 w ht) (shapeCast ⟨2, ![1, M]⟩ b hc) := by
  rw [denseVec_eq hd]
  rfl

/-- A matrix plus a bias vector cast to a row and repeated down the rows, rectified: entry `(p, q)` is
    `max(x(p, q) + b(q), 0)`. -/
theorem biasRelu_eq (hc : (⟨1, ![M]⟩ : Shape).ShapeCasts ⟨2, ![1, M]⟩) (hb : (⟨2, ![1, M]⟩ : Shape).Broadcasts ⟨2, ![A, M]⟩)
    (x : FVec Ideal ⟨2, ![A, M]⟩ .f32) (b : FVec Ideal ⟨1, ![M]⟩ .f32) :
    maximumf (addf x (broadcastTo ⟨2, ![A, M]⟩ (shapeCast ⟨2, ![1, M]⟩ b hc) hb))
        (broadcast ⟨2, ![A, M]⟩ (Scalar.ofBits (F := Ideal) .f32 0x00000000#32))
      = fun i => ReluMlp.relu (x i + b (ix1 ⟨(i 1).val, idx2_lt1 i⟩)) := by
  funext i
  obtain ⟨p, q, rfl⟩ : ∃ (p : Fin A) (q : Fin M), i = ix2 p q := ⟨i 0, i 1, eq_ix2 i⟩
  show ReluMlp.relu (x (ix2 p q) + broadcastTo ⟨2, ![A, M]⟩ (shapeCast ⟨2, ![1, M]⟩ b hc) hb (ix2 p q))
    = ReluMlp.relu (x (ix2 p q) + b (ix1 q))
  rw [broadcastTo_1b_ab_apply, shapeCast_a_1a_apply]

end Layer

/-! ## The tail -/

/-- The one coordinate of an index of a vector `[n]` is below `n`. -/
theorem vecIdx_lt {n : ℕ} (i : (⟨1, ![n]⟩ : Shape).Idx) : (i 0).val < n := (i 0).isLt

/-- A rectified layer of width 256 on the hidden array, a last layer of width 1, the logistic function, the column read as a
    vector. -/
def predict (H0 : FVec Ideal S512x512 .f32) (W1 : FVec Ideal S512x256 .f32) (b1 : FVec Ideal S256 .f32)
    (W2 : FVec Ideal S256x1 .f32) (b2 : FVec Ideal S1 .f32) : FVec Ideal S512 .f32 :=
  fun i => Ideal.logistic
    (Affine.affine
      (ReluMlp.layer H0 (truncf .bf16 W1 bitsLt_bf16_f32) (shapeCast S1x256 b1 shapeCasts_S256_S1x256))
      (truncf .bf16 W2 bitsLt_bf16_f32) (shapeCast S1x1 b2 shapeCasts_S1_S1x1)
      (ix2 (⟨(i 0).val, vecIdx_lt i⟩ : Fin 512) (0 : Fin 1)))

/-- The kernel body's last payload is `predict` of the rectified sum of the accumulator and the bias vector. -/
theorem pay6_eq (v27 : FVec Ideal S512x512 .f32) (v28 : FVec Ideal S512 .f32) (v35 : FVec Ideal S512x256 .f32)
    (v38 : FVec Ideal S256 .f32) (v45 : FVec Ideal S256x1 .f32) (v48 : FVec Ideal S1 .f32) :
    k0_pay6 (F := Ideal) v27 v28 v35 v38 v45 v48
      = predict (fun i => ReluMlp.relu (v27 i + v28 (ix1 ⟨(i 1).val, idx2_lt1 i⟩))) v35 v38 v45 v48 := by
  funext i
  obtain ⟨n, rfl⟩ : ∃ n : Fin 512, i = ix1 n := ⟨i 0, eq_ix1 i⟩
  unfold k0_pay6 predict
  rw [show dot_S512x512_S512x256_S512x256_1_0_0_1_n_n = DotDims.plain 512 512 256 from rfl,
    show dot_S512x256_S256x1_S512x1_1_0_0_1_n_n = DotDims.plain 512 256 1 from rfl]
  rw [layerVec_eq rfl, biasRelu_eq, denseVec_eq rfl]
  exact Lifts.shapeCast_a1_a_apply _ _ n

/-- The host's spelling of the last two steps: `1 / (1 + exp(−L))` on a column `L : [512, 1]`, the ones rank-0 arrays broadcast
    to the shape, reshaped to a vector, is the logistic function of the column's entries. -/
theorem host_logistic_eq (z : (⟨0, ![]⟩ : Shape).BroadcastsInDim ⟨2, ![512, 1]⟩ ![])
    (h : (⟨2, ![512, 1]⟩ : Shape).ShapeCasts ⟨1, ![512]⟩) (L : FVec Ideal ⟨2, ![512, 1]⟩ .f32) :
    shapeCast ⟨1, ![512]⟩
        (Host.divf (broadcastInDim ⟨2, ![512, 1]⟩ ![] z (constant (F := Ideal) ⟨0, ![]⟩ .f32 0x3F800000#32))
          (addf (broadcastInDim ⟨2, ![512, 1]⟩ ![] z (constant (F := Ideal) ⟨0, ![]⟩ .f32 0x3F800000#32))
            (Host.exp (Host.negf L)))) h
      = fun i => Ideal.logistic (L (ix2 (⟨(i 0).val, vecIdx_lt i⟩ : Fin 512) (0 : Fin 1))) := by
  funext i
  obtain ⟨n, rfl⟩ : ∃ n : Fin 512, i = ix1 n := ⟨i 0, eq_ix1 i⟩
  refine (Lifts.shapeCast_a1_a_apply _ h n).trans ?_
  exact congrFun (ReluMlp.sigH_eq z L) (ix2 n (0 : Fin 1))

end Cert.KernelIdeal.Tail

end
-- ==== Proof.LibBlockedSum.lean ====
/-
  A finite sum over `n · B` consecutive positions, cut into `n` runs of `B` positions each: in any commutative additive
  monoid (the extended reals among them: no subtraction, no finiteness)

      Σ_{k < n·B} g k  =  Σ_{s < n} Σ_{j < B} g (B·s + j).

  This is the law by which a contraction accumulated run by run — a matrix product whose contracted axis is walked in
  blocks, each block's partial product added to a running total — is the one whole contraction.
-/
import Mathlib.Algebra.BigOperators.Fin
import Mathlib.Algebra.BigOperators.Intervals

namespace Idealize.ShloMosaic.BlockedSum

variable {M : Type*} [AddCommMonoid M]

/-- Over `Finset.range`: the first `n · B` positions are `n` runs of `B`. -/
theorem sum_range_blocks (B : ℕ) (g : ℕ → M) : ∀ n : ℕ,
    ∑ k ∈ Finset.range (n * B), g k = ∑ s ∈ Finset.range n, ∑ j ∈ Finset.range B, g (B * s + j)
  | 0 => by simp
  | n + 1 => by
    rw [Nat.succ_mul, Finset.sum_range_add, sum_range_blocks B g n, Finset.sum_range_succ, Nat.mul_comm n B]

/-- The same with the positions and the positions inside a run as `Fin` indices: the form a contraction over a
    coordinate of a shape takes. -/
theorem sum_fin_blocks (n B : ℕ) (g : ℕ → M) :
    ∑ k : Fin (n * B), g k.val = ∑ s ∈ Finset.range n, ∑ j : Fin B, g (B * s + j.val) := by
  rw [Fin.sum_univ_eq_sum_range (fun k => g k) (n * B), sum_range_blocks B g n]
  refine Finset.sum_congr rfl fun s _ => ?_
  exact (Fin.sum_univ_eq_sum_range (fun j => g (B * s + j)) B).symm

end Idealize.ShloMosaic.BlockedSum
-- ==== Proof.InteractionSum.lean ====
/-
  The one law that joins the blocked accumulation to the whole contraction, over the extended reals (a commutative additive
  monoid: only commutativity and associativity of `+` are used, no subtraction and no finiteness).

  For a row `b` of `z : [512, 432]` the pairwise products `z(b, i) · z(b, j)`, flattened row-major to `186624 = 432 · 432`
  positions (position `k` is the pair `(k / 432, k % 432)`), are contracted with the weights `PW : [186624, 512]`:

      Σ_{k < 186624} (z(b, k / 432) · z(b, k % 432)) · PW(k, h).

  Cut into `54` runs of `3456 = 8 · 432` positions: position `3456·s + j` is the pair `(8·s + j / 432, j % 432)`, so run `s` is
  the contraction of the outer product of the eight entries `z(b, 8·s), …, z(b, 8·s + 7)` with the whole row, against the
  `s`-th block of `3456` rows of the weights. A running total that starts at `0 + (run 0)` and adds run `s` at step `s` is,
  after step `n`, the sum of the runs `0, …, n`; after step `53` it is the whole contraction.

  The runs are indexed by a natural number, so the reads inside them are made total: outside the array they read `0`
  (never reached for `s < 54`).
-/
import Idealize.ShloMosaic.PureOps.Ideal.Laws
import Idealize.ShloMosaic.Lib.ValueIdx
import proofs.«182230_j49744311222349_2_alg».proof.Proof.LibBlockedSum

noncomputable section

namespace Cert.KernelIdeal.InteractionSum

open Idealize.ShloMosaic Idealize.ShloMosaic.ValueIdx

/-- Row `b` of `z` read at a natural column: the entry, `0` outside the array. -/
def zN (z : FVec Ideal ⟨2, ![512, 432]⟩ .f32) (b : Fin 512) (c : ℕ) : EReal :=
  if hc : c < 432 then z (ix2 b ⟨c, hc⟩) else 0

/-- Column `h` of the weights read at a natural row: the entry, `0` outside the array. -/
def pwN (PW : FVec Ideal ⟨2, ![186624, 512]⟩ .f32) (h : Fin 512) (k : ℕ) : EReal :=
  if hk : k < 186624 then PW (ix2 ⟨k, hk⟩ h) else 0

theorem zN_of_lt (z : FVec Ideal ⟨2, ![512, 432]⟩ .f32) (b : Fin 512) {c : ℕ} (hc : c < 432) :
    zN z b c = z (ix2 b ⟨c, hc⟩) := dif_pos hc

theorem pwN_of_lt (PW : FVec Ideal ⟨2, ![186624, 512]⟩ .f32) (h : Fin 512) {k : ℕ} (hk : k < 186624) :
    pwN PW h k = PW (ix2 ⟨k, hk⟩ h) := dif_pos hk

/-- The summand at flattened position `k`: the pair's product times the weight. -/
def term (z : FVec Ideal ⟨2, ![512, 432]⟩ .f32) (PW : FVec Ideal ⟨2, ![186624, 512]⟩ .f32) (b h : Fin 512) (k : ℕ) : EReal :=
  (zN z b (k / 432) * zN z b (k % 432)) * pwN PW h k

/-- Run `s`: the `3456` positions `3456·s + j`, whose pairs are `(8·s + j / 432, j % 432)`. -/
def stepSum (z : FVec Ideal ⟨2, ![512, 432]⟩ .f32) (PW : FVec Ideal ⟨2, ![186624, 512]⟩ .f32) (b h : Fin 512) (s : ℕ) : EReal :=
  ∑ j : Fin 3456, (zN z b (8 * s + j.val / 432) * zN z b (j.val % 432)) * pwN PW h (3456 * s + j.val)

/-- A flattened position `k < 432 · 432` is a pair with first member `k / 432 < 432` … -/
theorem pairFst_lt (k : Fin 186624) : k.val / 432 < 432 := by have := k.isLt; omega

/-- … and second member `k % 432 < 432`. -/
theorem pairSnd_lt (k : Fin 186624) : k.val % 432 < 432 := Nat.mod_lt _ (by norm_num)

/-- Inside run `s < 54`, position `j < 3456`: the first member `8·s + j / 432 < 432` … -/
theorem runFst_lt {s : ℕ} (hs : s < 54) (j : Fin 3456) : 8 * s + j.val / 432 < 432 := by have := j.isLt; omega

/-- … the second member `j % 432 < 432` … -/
theorem runSnd_lt (j : Fin 3456) : j.val % 432 < 432 := Nat.mod_lt _ (by norm_num)

/-- … and the weights' row `3456·s + j < 186624`. -/
theorem runRow_lt {s : ℕ} (hs : s < 54) (j : Fin 3456) : 3456 * s + j.val < 186624 := by have := j.isLt; omega

/-- The whole contraction is the sum of the `54` runs. -/
theorem interaction_blocks (z : FVec Ideal ⟨2, ![512, 432]⟩ .f32) (PW : FVec Ideal ⟨2, ![186624, 512]⟩ .f32) (b h : Fin 512) :
    ∑ k : Fin 186624, (z (ix2 b ⟨k.val / 432, pairFst_lt k⟩) * z (ix2 b ⟨k.val % 432, pairSnd_lt k⟩)) * PW (ix2 k h)
      = ∑ s ∈ Finset.range 54, stepSum z PW b h s := by
  have hterm : ∀ k : Fin 186624,
      (z (ix2 b ⟨k.val / 432, pairFst_lt k⟩) * z (ix2 b ⟨k.val % 432, pairSnd_lt k⟩)) * PW (ix2 k h) = term z PW b h k.val := by
    intro k
    unfold term
    rw [zN_of_lt z b (pairFst_lt k), zN_of_lt z b (pairSnd_lt k), pwN_of_lt PW h k.isLt]
  refine (Finset.sum_congr rfl fun k _ => hterm k).trans ?_
  refine (BlockedSum.sum_fin_blocks 54 3456 (term z PW b h)).trans ?_
  refine Finset.sum_congr rfl fun s _ => Finset.sum_congr rfl fun j _ => ?_
  unfold term
  rw [show (3456 * s + j.val) / 432 = 8 * s + j.val / 432 by omega,
    show (3456 * s + j.val) % 432 = j.val % 432 by omega]

/-- Run `s < 54` with its reads inside the arrays. -/
theorem stepSum_eq (z : FVec Ideal ⟨2, ![512, 432]⟩ .f32) (PW : FVec Ideal ⟨2, ![186624, 512]⟩ .f32) (b h : Fin 512)
    {s : ℕ} (hs : s < 54) :
    stepSum z PW b h s
      = ∑ j : Fin 3456, (z (ix2 b ⟨8 * s + j.val / 432, runFst_lt hs j⟩) * z (ix2 b ⟨j.val % 432, runSnd_lt j⟩))
          * PW (ix2 ⟨3456 * s + j.val, runRow_lt hs j⟩ h) := by
  unfold stepSum
  refine Finset.sum_congr rfl fun j _ => ?_
  rw [zN_of_lt z b (runFst_lt hs j), zN_of_lt z b (runSnd_lt j), pwN_of_lt PW h (runRow_lt hs j)]

/-- The same law with the runs indexed by `s : Fin 54` and every read inside the arrays. -/
theorem interaction_blocks_fin (z : FVec Ideal ⟨2, ![512, 432]⟩ .f32) (PW : FVec Ideal ⟨2, ![186624, 512]⟩ .f32) (b h : Fin 512) :
    ∑ k : Fin 186624, (z (ix2 b ⟨k.val / 432, pairFst_lt k⟩) * z (ix2 b ⟨k.val % 432, pairSnd_lt k⟩)) * PW (ix2 k h)
      = ∑ s : Fin 54, ∑ j : Fin 3456,
          (z (ix2 b ⟨8 * s.val + j.val / 432, runFst_lt s.isLt j⟩) * z (ix2 b ⟨j.val % 432, runSnd_lt j⟩))
            * PW (ix2 ⟨3456 * s.val + j.val, runRow_lt s.isLt j⟩ h) := by
  rw [interaction_blocks, Finset.sum_range]
  exact Finset.sum_congr rfl fun s _ => stepSum_eq z PW b h s.isLt

/-- A running total that starts at `0 + P 0` and adds `P (n + 1)` at step `n + 1` is, after step `n`, the sum of
    `P 0, …, P n`. -/
theorem fold_eq_sum {M : Type*} [AddCommMonoid M] (P accN : ℕ → M) (h0 : accN 0 = 0 + P 0)
    (hstep : ∀ n, accN (n + 1) = accN n + P (n + 1)) : ∀ n, accN n = ∑ s ∈ Finset.range (n + 1), P s
  | 0 => by rw [h0, zero_add, Finset.sum_range_one]
  | n + 1 => by rw [hstep, fold_eq_sum P accN h0 hstep n, ← Finset.sum_range_succ P (n + 1)]

end Cert.KernelIdeal.InteractionSum

end
-- ==== Proof.Accumulate.lean ====
/-
  The blocked accumulation is the whole contraction.

  A running total `acc s : [512, 512]` starts, at step `0`, from the zero array and at every step `s < 54` is updated by the
  accumulation step with the eight rows `8·s, …, 8·s + 7` of the transposed array and the `s`-th block of `3456` rows of the
  weights. At entry `(b, h)` each step adds run `s` of the contraction
  `Σ_k (z(b, k / 432) · z(b, k % 432)) · PW(k, h)`; the total after step `n` is `0 +` the sum of the runs `0, …, n`, and after
  step `53` it is the whole contraction (the sum of the `54` runs). Only commutativity and associativity of `+` on the
  extended reals are used.
-/
import proofs.«182230_j49744311222349_2_alg».proof.Proof.AccStep
import proofs.«182230_j49744311222349_2_alg».proof.Proof.InteractionSum

namespace Cert.KernelIdeal.Accumulate

open Idealize.ShloMosaic Idealize.ShloMosaic.ValueIdx Cert.KernelIdeal Cert.KernelIdeal.Gen
open Cert.KernelIdeal.AccStep Cert.KernelIdeal.InteractionSum

/-- Row `r < 8` of the `s`-th group of eight rows, `s < 54`, is row `8·s + r < 432`. -/
theorem groupRow_lt {s : ℕ} (hs : s < 54) (r : Fin 8) : 8 * s + r.val < 432 := by have := r.isLt; omega

/-- One step at entry `(b, h)`: with the eight rows `8·s + r` of the transposed array and the `s`-th block of the weights,
    the step adds run `s` of the contraction to the running total. -/
theorem step_apply (z : FVec Ideal S512x432 .f32) (PW : FVec Ideal ⟨2, ![186624, 512]⟩ .f32)
    (u : FVec Ideal S8x512 .f32) (w : FVec Ideal S3456x512 .f32) (a : FVec Ideal S512x512 .f32) {s : ℕ} (hs : s < 54)
    (hu : ∀ (r : Fin 8) (b : Fin 512), u (ix2 r b) = z (ix2 b ⟨8 * s + r.val, groupRow_lt hs r⟩))
    (hw : ∀ (j : Fin 3456) (h : Fin 512), w (ix2 j h) = PW (ix2 ⟨3456 * s + j.val, runRow_lt hs j⟩ h))
    (b h : Fin 512) :
    k0_pay5 (F := Ideal) u z w a (ix2 b h) = a (ix2 b h) + stepSum z PW b h s := by
  rw [pay5_apply, stepSum_eq z PW b h hs]
  refine congrArg (a (ix2 b h) + ·) (Finset.sum_congr rfl fun j _ => ?_)
  rw [hu, hw]

/-- After step `53` the running total at `(b, h)` is the whole contraction. -/
theorem acc_final (z : FVec Ideal S512x432 .f32) (PW : FVec Ideal ⟨2, ![186624, 512]⟩ .f32)
    (sl : ℕ → FVec Ideal S8x512 .f32) (bl : ℕ → FVec Ideal S3456x512 .f32) (acc : ℕ → FVec Ideal S512x512 .f32)
    (hsl : ∀ (s : ℕ) (hs : s < 54) (r : Fin 8) (b : Fin 512), sl s (ix2 r b) = z (ix2 b ⟨8 * s + r.val, groupRow_lt hs r⟩))
    (hbl : ∀ (s : ℕ) (hs : s < 54) (j : Fin 3456) (h : Fin 512),
      bl s (ix2 j h) = PW (ix2 ⟨3456 * s + j.val, runRow_lt hs j⟩ h))
    (h0 : acc 0 = k0_pay5 (F := Ideal) (sl 0) z (bl 0) (k0_pay4 (F := Ideal)))
    (hstep : ∀ n, n + 1 < 54 → acc (n + 1) = k0_pay5 (F := Ideal) (sl (n + 1)) z (bl (n + 1)) (acc n))
    (b h : Fin 512) :
    acc 53 (ix2 b h)
      = ∑ k : Fin 186624, (z (ix2 b ⟨k.val / 432, pairFst_lt k⟩) * z (ix2 b ⟨k.val % 432, pairSnd_lt k⟩)) * PW (ix2 k h) := by
  -- after step `n < 54`: the sum of the runs `0, …, n`
  have hsum : ∀ n, n < 54 → acc n (ix2 b h) = ∑ s ∈ Finset.range (n + 1), stepSum z PW b h s := by
    intro n
    induction n with
    | zero =>
      intro hn
      rw [h0, step_apply z PW (sl 0) (bl 0) _ hn (hsl 0 hn) (hbl 0 hn) b h, pay4_apply, zero_add, Finset.sum_range_one]
    | succ n ih =>
      intro hn
      rw [hstep n hn, step_apply z PW (sl (n + 1)) (bl (n + 1)) _ hn (hsl (n + 1) hn) (hbl (n + 1) hn) b h,
        ih (by omega), ← Finset.sum_range_succ (fun s => stepSum z PW b h s) (n + 1)]
  rw [hsum 53 (by norm_num), interaction_blocks]

end Cert.KernelIdeal.Accumulate
-- ==== Proof.Closed.lean ====
/-
  The one function both programs compute, at the exact-arithmetic instance. With z the [512, 432] array of the dense
  network's sixteen columns beside the 416 embedding columns, the first hidden layer of the prediction network is
  `relu (Σ_k z(b, k / 432) · z(b, k % 432) · W(k, h) + bias(h))` over the 186624 pairs of columns of z; two more layers
  and the logistic function follow.
-/
import proofs.«182230_j49744311222349_2_alg».proof.Proof.Tail
import proofs.«182230_j49744311222349_2_alg».proof.Proof.InteractionSum

noncomputable section

open Idealize.ShloMosaic Idealize.ShloMosaic.ValueIdx

namespace Cert.Closed

open Cert.KernelIdeal.InteractionSum

/-- The contraction of the flattened outer product of z with itself against the weights, entry `(b, h)`. -/
def pairSum (Z : FVec Ideal ⟨2, ![512, 432]⟩ .f32) (PW : FVec Ideal ⟨2, ![186624, 512]⟩ .f32) :
    FVec Ideal ⟨2, ![512, 512]⟩ .f32 :=
  fun i => ∑ k : Fin 186624,
    (Z (ix2 ⟨(i 0).val, idx2_lt0 i⟩ ⟨k.val / 432, pairFst_lt k⟩) * Z (ix2 ⟨(i 0).val, idx2_lt0 i⟩ ⟨k.val % 432, pairSnd_lt k⟩))
      * PW (ix2 k ⟨(i 1).val, idx2_lt1 i⟩)

/-- The prediction from z: bias and rectifier on the contraction, then the two last layers and the logistic function. -/
def predictFrom (Z : FVec Ideal ⟨2, ![512, 432]⟩ .f32) (PW : FVec Ideal ⟨2, ![186624, 512]⟩ .f32)
    (pb0 : FVec Ideal ⟨1, ![512]⟩ .f32) (W1 : FVec Ideal ⟨2, ![512, 256]⟩ .f32) (b1 : FVec Ideal ⟨1, ![256]⟩ .f32)
    (W2 : FVec Ideal ⟨2, ![256, 1]⟩ .f32) (b2 : FVec Ideal ⟨1, ![1]⟩ .f32) : FVec Ideal ⟨1, ![512]⟩ .f32 :=
  Cert.KernelIdeal.Tail.predict
    (fun i => ReluMlp.relu (pairSum Z PW i + pb0 (ix1 ⟨(i 1).val, idx2_lt1 i⟩))) W1 b1 W2 b2

end Cert.Closed

end
-- ==== Proof.KernelValue.lean ====
/-
  The kernel's result at the exact-arithmetic instance, in closed form. Every block the body reads is its array (the weight
  matrix's block at step `s` its rows `3456·s …`); the dense network's payload is the dense stack; the first step lays z out
  as the two arrays side by side; the 54 accumulated products are the one contraction over all 186624 column pairs; the last
  step's payload is the prediction from it.
-/
import proofs.«182230_j49744311222349_2_alg».proof.Proof.KernelFinal
import proofs.«182230_j49744311222349_2_alg».proof.Proof.BlockReads
import proofs.«182230_j49744311222349_2_alg».proof.Proof.ZLayout
import proofs.«182230_j49744311222349_2_alg».proof.Proof.AccStep
import proofs.«182230_j49744311222349_2_alg».proof.Proof.DenseStack
import proofs.«182230_j49744311222349_2_alg».proof.Proof.Tail
import proofs.«182230_j49744311222349_2_alg».proof.Proof.Accumulate
import proofs.«182230_j49744311222349_2_alg».proof.Proof.Closed

set_option maxRecDepth 16384

noncomputable section

open Idealize.ShloMosaic Idealize.ShloMosaic.TcCoe Idealize.SL.Sem

namespace Cert.KernelIdeal.KValue

open Cert.KernelIdeal Cert.KernelIdeal.Gen Cert.KernelIdeal.Pieces Cert.KernelIdeal.Sweep Cert.KernelIdeal.BlockReads
open Idealize.ShloMosaic.ValueIdx

variable (m : (ℓ : Loc nD τ sig) → Buf (Elt Ideal) ℓ) (ρ : Dev nD → PrngReg)

/-- z in closed form: the dense stack of the feature array beside the embedding array the region finds. -/
def zArr (c : Dev nD) : FVec Ideal S512x432 .f32 :=
  zlay (F := Ideal) (DenseStack.denseOut (V m c main_arg0) (V m c main_arg3) (V m c main_arg4) (V m c main_arg5) (V m c main_arg6) (V m c main_arg7) (V m c main_arg8) (V m c main_arg9) (V m c main_arg10)) (V m c main_v12)

theorem zK_eq (c : Dev nD) : zK m c = zArr m c := by
  unfold zK zAt zArr
  rw [blk0 m c pFirst, blk1 m c pFirst, blk2 m c pFirst, blk3 m c pFirst, blk4 m c pFirst, blk5 m c pFirst,
    blk6 m c pFirst, blk7 m c pFirst, blk8 m c pFirst, blk9 m c pFirst, DenseStack.pay7_eq]

/-- The step's own coordinate is its position. -/
theorem coord0 : ∀ t : Fin cfg0.N, (grid0.coords t 0).val = t.val :=
  (by decide +kernel : ∀ t : Fin grid0.N, (grid0.coords t 0).val = t.val)

/-- The families the accumulation law is stated over, total in the step number. -/
def slN (c : Dev nD) (s : ℕ) : FVec Ideal S8x512 .f32 :=
  if hs : s < cfg0.N then slab (F := Ideal) (grid0.coords ⟨s, hs⟩) (k0_pay3 (zK m c)) else fun _ => 0
def blN (c : Dev nD) (s : ℕ) : FVec Ideal S3456x512 .f32 :=
  if hs : s < cfg0.N then iblk m c 10 ⟨s, hs⟩ else fun _ => 0
def accN (c : Dev nD) (s : ℕ) : FVec Ideal S512x512 .f32 :=
  if hs : s < cfg0.N then accK m c s hs else fun _ => 0

/-- The full accumulator is the contraction over all the pairs of columns of z. -/
theorem acc_eq (c : Dev nD) (b h : Fin 512) :
    accK m c 53 pLast.isLt (ix2 b h) = Cert.Closed.pairSum (zK m c) (V m c main_arg11) (ix2 b h) := by
  have hlt : ∀ s, s < 54 → s < cfg0.N := fun s hs => lt_of_lt_of_eq hs hN.symm
  have key := Accumulate.acc_final (zK m c) (V m c main_arg11) (slN m c) (blN m c) (accN m c)
    (fun s hs r b => by
      unfold slN
      rw [dif_pos (hlt s hs), ZLayout.slab_apply, AccStep.pay3_apply]
      exact congrArg (fun f => zK m c (ix2 b f)) (Fin.ext (by
        show 8 * (grid0.coords ⟨s, hlt s hs⟩ 0).val + r.val = 8 * s + r.val
        rw [coord0])))
    (fun s hs j h => by
      unfold blN
      rw [dif_pos (hlt s hs)]
      exact blk10_apply m c ⟨s, hlt s hs⟩ j h)
    (by
      unfold accN slN blN
      rw [dif_pos (hlt 0 (by decide)), dif_pos (hlt 0 (by decide)), dif_pos (hlt 0 (by decide))]
      rfl)
    (fun n hn => by
      unfold accN slN blN
      rw [dif_pos (hlt (n + 1) hn), dif_pos (hlt (n + 1) hn), dif_pos (hlt (n + 1) hn), dif_pos (hlt n (by omega))]
      rfl)
    b h
  have e : accN m c 53 = accK m c 53 pLast.isLt := by
    unfold accN
    rw [dif_pos pLast.isLt]
  rw [← e, key]
  rfl

/-- The kernel's result array in closed form. -/
theorem result_eq (c : Dev nD) :
    resultK m c = Cert.Closed.predictFrom (zArr m c) (V m c main_arg11) (V m c main_arg12) (V m c main_arg13) (V m c main_arg14) (V m c main_arg15) (V m c main_arg16) := by
  unfold resultK
  rw [blk11 m c pLast, blk12 m c pLast, blk13 m c pLast, blk14 m c pLast, blk15 m c pLast, Tail.pay6_eq]
  unfold Cert.Closed.predictFrom
  refine congrArg (fun H => Tail.predict H _ _ _ _) ?_
  funext i
  obtain ⟨b, h, rfl⟩ : ∃ (b : Fin 512) (h : Fin 512), i = ix2 b h := ⟨i 0, i 1, eq_ix2 i⟩
  rw [acc_eq m c b h, zK_eq]

end Cert.KernelIdeal.KValue

end
-- ==== Proof.RefRun.lean ====
/- The reference program's @main as ONE list of its host operations (each call's body listed inline at the call
   site over that call's buffer record), and its run read back as a pure term of the seventeen argument arrays,
   built from named stages: the dense tower, the embedding lookup, their concatenation, the pairwise products,
   two hidden layers, the logit and the logistic function. -/
import proofs.«182230_j49744311222349_2_alg».proof.ReferenceIdeal
import proofs.«182230_j49744311222349_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- @main's 96 operations, in order: the body of each call listed at its call site over that call's record. -/
abbrev ops : List (HloOp τ sig (Elt F)) :=
  [ StableHlo.binary main_arg0 main_arg3 main_v0 ((fun l r => Host.dotGeneral dot_S512x13_S13x512_S512x512_1_0_0_1_n_n none l r) : (⟨S512x13, .f32⟩ : BufTy).Contents (Elt F) → (⟨S13x512, .f32⟩ : BufTy).Contents (Elt F) → (⟨S512x512, .f32⟩ : BufTy).Contents (Elt F)),
    StableHlo.unary main_arg4 main_v1 (broadcastInDim S1x512 ![1] bcast_S512_S1x512_1 : (⟨S512, .f32⟩ : BufTy).Contents (Elt F) → (⟨S1x512, .f32⟩ : BufTy).Contents (Elt F)),
    StableHlo.unary main_v1 main_v2 (broadcastInDim S512x512 ![0, 1] bcast_S1x512_S512x512_0_1 : (⟨S1x512, .f32⟩ : BufTy).Contents (Elt F) → (⟨S512x512, .f32⟩ : BufTy).Contents (Elt F)),
    StableHlo.binary main_v0 main_v2 main_v3 (addf : (⟨S512x512, .f32⟩ : BufTy).Contents (Elt F) → (⟨S512x512, .f32⟩ : BufTy).Contents (Elt F) → (⟨S512x512, .f32⟩ : BufTy).Contents (Elt F)),
    StableHlo.TRef.nullary main_call0.cst (constant S_ .f32 0x00000000#32),
    StableHlo.TRef.unary main_call0.cst main_call0.v0 (broadcastInDim S512x512 ![] bcast_S_S512x512),
    StableHlo.TRef.binary (.of main_v3) main_call0.v0 main_call0.v1 maximumf,
    StableHlo.binary main_v4 main_arg5 main_v5 ((fun l r => Host.dotGeneral dot_S512x512_S512x256_S512x256_1_0_0_1_n_n none l r) : (⟨S512x512, .f32⟩ : BufTy).Contents (Elt F) → (⟨S512x256, .f32⟩ : BufTy).Contents (Elt F) → (⟨S512x256, .f32⟩ : BufTy).Contents (Elt F)),
    StableHlo.unary main_arg6 main_v6 (broadcastInDim S1x256 ![1] bcast_S256_S1x256_1 : (⟨S256, .f32⟩ : BufTy).Contents (Elt F) → (⟨S1x256, .f32⟩ : BufTy).Contents (Elt F)),
    StableHlo.unary main_v6 main_v7 (broadcastInDim S512x256 ![0, 1] bcast_S1x256_S512x256_0_1 : (⟨S1x256, .f32⟩ : BufTy).Contents (Elt F) → (⟨S512x256, .f32⟩ : BufTy).Contents (Elt F)),
    StableHlo.binary main_v5 main_v7 main_v8 (addf : (⟨S512x256, .f32⟩ : BufTy).Contents (Elt F) → (⟨S512x256, .f32⟩ : BufTy).Contents (Elt F) → (⟨S512x256, .f32⟩ : BufTy).Contents (Elt F)),
    StableHlo.TRef.nullary main_call1.cst (constant S_ .f32 0x00000000#32),
    StableHlo.TRef.unary main_call1.cst main_call1.v0 (broadcastInDim S512x256 ![] bcast_S_S512x256),
    StableHlo.TRef.binary (.of main_v8) main_call1.v0 main_call1.v1 maximumf,
    StableHlo.binary main_v9 main_arg7 main_v10 ((fun l r => Host.dotGeneral dot_S512x256_S256x64_S512x64_1_0_0_1_n_n none l r) : (⟨S512x256, .f32⟩ : BufTy).Contents (Elt F) → (⟨S256x64, .f32⟩ : BufTy).Contents (Elt F) → (⟨S512x64, .f32⟩ : BufTy).Contents (Elt F)),
    StableHlo.unary main_arg8 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S512x64 ![0, 1] bcast_S1x64_S512x64_0_1 : (⟨S1x64, .f32⟩ : BufTy).Contents (Elt F) → (⟨S512x64, .f32⟩ : BufTy).Contents (Elt F)),
    StableHlo.binary main_v10 main_v12 main_v13 (addf : (⟨S512x64, .f32⟩ : BufTy).Contents (Elt F) → (⟨S512x64, .f32⟩ : BufTy).Contents (Elt F) → (⟨S512x64, .f32⟩ : BufTy).Contents (Elt F)),
    StableHlo.TRef.nullary main_call2.cst (constant S_ .f32 0x00000000#32),
    StableHlo.TRef.unary main_call2.cst main_call2.v0 (broadcastInDim S512x64 ![] bcast_S_S512x64),
    StableHlo.TRef.binary (.of main_v13) main_call2.v0 main_call2.v1 maximumf,
    StableHlo.binary main_v14 main_arg9 main_v15 ((fun l r => Host.dotGeneral dot_S512x64_S64x16_S512x16_1_0_0_1_n_n none l r) : (⟨S512x64, .f32⟩ : BufTy).Contents (Elt F) → (⟨S64x16, .f32⟩ : BufTy).Contents (Elt F) → (⟨S512x16, .f32⟩ : BufTy).Contents (Elt F)),
    StableHlo.unary main_arg10 main_v16 (broadcastInDim S1x16 ![1] bcast_S16_S1x16_1 : (⟨S16, .f32⟩ : BufTy).Contents (Elt F) → (⟨S1x16, .f32⟩ : BufTy).Contents (Elt F)),
    StableHlo.unary main_v16 main_v17 (broadcastInDim S512x16 ![0, 1] bcast_S1x16_S512x16_0_1 : (⟨S1x16, .f32⟩ : BufTy).Contents (Elt F) → (⟨S512x16, .f32⟩ : BufTy).Contents (Elt F)),
    StableHlo.binary main_v15 main_v17 main_v18 (addf : (⟨S512x16, .f32⟩ : BufTy).Contents (Elt F) → (⟨S512x16, .f32⟩ : BufTy).Contents (Elt F) → (⟨S512x16, .f32⟩ : BufTy).Contents (Elt F)),
    StableHlo.nullary main_c (constantI S_ 32 1#32),
    StableHlo.unary main_c main_v19 (broadcastInDim S512x26 ![] bcast_S_S512x26 : (⟨S_, .i32⟩ : BufTy).Contents (Elt F) → (⟨S512x26, .i32⟩ : BufTy).Contents (Elt F)),
    StableHlo.binary main_arg1 main_v19 main_v20 (addi : (⟨S512x26, .i32⟩ : BufTy).Contents (Elt F) → (⟨S512x26, .i32⟩ : BufTy).Contents (Elt F) → (⟨S512x26, .i32⟩ : BufTy).Contents (Elt F)),
    StableHlo.nullary main_c_0 (constantI S_ 32 100000#32),
    StableHlo.TRef.unary (.of main_c_0) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S512x26 ![] bcast_S_S512x26),
    StableHlo.TRef.binary (.of main_v20) main_call3.v3 main_call3.v4 Host.remsi,
    StableHlo.TRef.nullary main_call3.c_1 (constantI S_ 32 0#32),
    StableHlo.TRef.unary main_call3.c_1 main_call3.v5 (broadcastInDim S512x26 ![] bcast_S_S512x26),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S512x26 ![] bcast_S_S512x26),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S512x26 ![] bcast_S_S512x26),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S512x26 ![] bcast_S_S512x26),
    StableHlo.TRef.binary main_call3.v4 main_call3.v13 main_call3.v14 addi,
    StableHlo.TRef.ternary main_call3.v12 main_call3.v14 main_call3.v4 main_call3.v15 select,
    StableHlo.nullary main_c_1 (constantI S_ 32 0#32),
    StableHlo.unary main_c_1 main_v22 (broadcastInDim S512x26 ![] bcast_S_S512x26 : (⟨S_, .i32⟩ : BufTy).Contents (Elt F) → (⟨S512x26, .i32⟩ : BufTy).Contents (Elt F)),
    StableHlo.binary main_v21 main_v22 main_v23 (cmpi .slt : (⟨S512x26, .i32⟩ : BufTy).Contents (Elt F) → (⟨S512x26, .i32⟩ : BufTy).Contents (Elt F) → (⟨S512x26, .i1⟩ : BufTy).Contents (Elt F)),
    StableHlo.nullary main_c_2 (constantI S_ 32 100000#32),
    StableHlo.unary main_c_2 main_v24 (broadcastInDim S512x26 ![] bcast_S_S512x26 : (⟨S_, .i32⟩ : BufTy).Contents (Elt F) → (⟨S512x26, .i32⟩ : BufTy).Contents (Elt F)),
    StableHlo.binary main_v21 main_v24 main_v25 (addi : (⟨S512x26, .i32⟩ : BufTy).Contents (Elt F) → (⟨S512x26, .i32⟩ : BufTy).Contents (Elt F) → (⟨S512x26, .i32⟩ : BufTy).Contents (Elt F)),
    StableHlo.ternary main_v23 main_v25 main_v21 main_v26 (select : (⟨S512x26, .i1⟩ : BufTy).Contents (Elt F) → (⟨S512x26, .i32⟩ : BufTy).Contents (Elt F) → (⟨S512x26, .i32⟩ : BufTy).Contents (Elt F) → (⟨S512x26, .i32⟩ : BufTy).Contents (Elt F)),
    StableHlo.unary main_v26 main_v27 ((transpose S26x512 [1, 0] · transposes_S512x26_S26x512_1_0) : (⟨S512x26, .i32⟩ : BufTy).Contents (Elt F) → (⟨S26x512, .i32⟩ : BufTy).Contents (Elt F)),
    StableHlo.unary main_v27 main_v28 (broadcastInDim S26x512x1 ![0, 1] bcast_S26x512_S26x512x1_0_1 : (⟨S26x512, .i32⟩ : BufTy).Contents (Elt F) → (⟨S26x512x1, .i32⟩ : BufTy).Contents (Elt F)),
    StableHlo.binary main_arg2 main_v28 main_v29 ((fun x i => Host.gather gather_S26x100000x16_S26x512x1_S26x512x16_2_1_0_0_1_2_1116 x i) : (⟨S26x100000x16, .f32⟩ : BufTy).Contents (Elt F) → (⟨S26x512x1, .i32⟩ : BufTy).Contents (Elt F) → (⟨S26x512x16, .f32⟩ : BufTy).Contents (Elt F)),
    StableHlo.unary main_v29 main_v30 ((transpose S512x26x16 [1, 0, 2] · transposes_S26x512x16_S512x26x16_1_0_2) : (⟨S26x512x16, .f32⟩ : BufTy).Contents (Elt F) → (⟨S512x26x16, .f32⟩ : BufTy).Contents (Elt F)),
    StableHlo.reshape main_v30 main_v31 rfl shapeCasts_S512x26x16_S512x416,
    StableHlo.binary main_v18 main_v31 main_v32 ((fun a b => concatenate S512x432 1 [⟨S512x16, a⟩, ⟨S512x416, b⟩] concatenates_S512x16_S512x416_S512x432_d1) : (⟨S512x16, .f32⟩ : BufTy).Contents (Elt F) → (⟨S512x416, .f32⟩ : BufTy).Contents (Elt F) → (⟨S512x432, .f32⟩ : BufTy).Contents (Elt F)),
    StableHlo.unary main_v32 main_v33 (broadcastInDim S512x432x1 ![0, 1] bcast_S512x432_S512x432x1_0_1 : (⟨S512x432, .f32⟩ : BufTy).Contents (Elt F) → (⟨S512x432x1, .f32⟩ : BufTy).Contents (Elt F)),
    StableHlo.unary main_v32 main_v34 (broadcastInDim S512x1x432 ![0, 2] bcast_S512x432_S512x1x432_0_2 : (⟨S512x432, .f32⟩ : BufTy).Contents (Elt F) → (⟨S512x1x432, .f32⟩ : BufTy).Contents (Elt F)),
    StableHlo.unary main_v33 main_v35 (broadcastInDim S512x432x432 ![0, 1, 2] bcast_S512x432x1_S512x432x432_0_1_2 : (⟨S512x432x1, .f32⟩ : BufTy).Contents (Elt F) → (⟨S512x432x432, .f32⟩ : BufTy).Contents (Elt F)),
    StableHlo.unary main_v34 main_v36 (broadcastInDim S512x432x432 ![0, 1, 2] bcast_S512x1x432_S512x432x432_0_1_2 : (⟨S512x1x432, .f32⟩ : BufTy).Contents (Elt F) → (⟨S512x432x432, .f32⟩ : BufTy).Contents (Elt F)),
    StableHlo.binary main_v35 main_v36 main_v37 (mulf : (⟨S512x432x432, .f32⟩ : BufTy).Contents (Elt F) → (⟨S512x432x432, .f32⟩ : BufTy).Contents (Elt F) → (⟨S512x432x432, .f32⟩ : BufTy).Contents (Elt F)),
    StableHlo.reshape main_v37 main_v38 rfl shapeCasts_S512x432x432_S512x186624,
    StableHlo.binary main_v38 main_arg11 main_v39 ((fun l r => Host.dotGeneral dot_S512x186624_S186624x512_S512x512_1_0_0_1_n_n none l r) : (⟨S512x186624, .f32⟩ : BufTy).Contents (Elt F) → (⟨S186624x512, .f32⟩ : BufTy).Contents (Elt F) → (⟨S512x512, .f32⟩ : BufTy).Contents (Elt F)),
    StableHlo.unary main_arg12 main_v40 (broadcastInDim S1x512 ![1] bcast_S512_S1x512_1 : (⟨S512, .f32⟩ : BufTy).Contents (Elt F) → (⟨S1x512, .f32⟩ : BufTy).Contents (Elt F)),
    StableHlo.unary main_v40 main_v41 (broadcastInDim S512x512 ![0, 1] bcast_S1x512_S512x512_0_1 : (⟨S1x512, .f32⟩ : BufTy).Contents (Elt F) → (⟨S512x512, .f32⟩ : BufTy).Contents (Elt F)),
    StableHlo.binary main_v39 main_v41 main_v42 (addf : (⟨S512x512, .f32⟩ : BufTy).Contents (Elt F) → (⟨S512x512, .f32⟩ : BufTy).Contents (Elt F) → (⟨S512x512, .f32⟩ : BufTy).Contents (Elt F)),
    StableHlo.TRef.nullary main_call4.cst (constant S_ .f32 0x00000000#32),
    StableHlo.TRef.unary main_call4.cst main_call4.v0 (broadcastInDim S512x512 ![] bcast_S_S512x512),
    StableHlo.TRef.binary (.of main_v42) main_call4.v0 main_call4.v1 maximumf,
    StableHlo.binary main_v43 main_arg13 main_v44 ((fun l r => Host.dotGeneral dot_S512x512_S512x256_S512x256_1_0_0_1_n_n none l r) : (⟨S512x512, .f32⟩ : BufTy).Contents (Elt F) → (⟨S512x256, .f32⟩ : BufTy).Contents (Elt F) → (⟨S512x256, .f32⟩ : BufTy).Contents (Elt F)),
    StableHlo.unary main_arg14 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S512x256 ![0, 1] bcast_S1x256_S512x256_0_1 : (⟨S1x256, .f32⟩ : BufTy).Contents (Elt F) → (⟨S512x256, .f32⟩ : BufTy).Contents (Elt F)),
    StableHlo.binary main_v44 main_v46 main_v47 (addf : (⟨S512x256, .f32⟩ : BufTy).Contents (Elt F) → (⟨S512x256, .f32⟩ : BufTy).Contents (Elt F) → (⟨S512x256, .f32⟩ : BufTy).Contents (Elt F)),
    StableHlo.TRef.nullary main_call5.cst (constant S_ .f32 0x00000000#32),
    StableHlo.TRef.unary main_call5.cst main_call5.v0 (broadcastInDim S512x256 ![] bcast_S_S512x256),
    StableHlo.TRef.binary (.of main_v47) main_call5.v0 main_call5.v1 maximumf,
    StableHlo.binary main_v48 main_arg15 main_v49 ((fun l r => Host.dotGeneral dot_S512x256_S256x1_S512x1_1_0_0_1_n_n none l r) : (⟨S512x256, .f32⟩ : BufTy).Contents (Elt F) → (⟨S256x1, .f32⟩ : BufTy).Contents (Elt F) → (⟨S512x1, .f32⟩ : BufTy).Contents (Elt F)),
    StableHlo.unary main_arg16 main_v50 (broadcastInDim S1x1 ![1] bcast_S1_S1x1_1 : (⟨S1, .f32⟩ : BufTy).Contents (Elt F) → (⟨S1x1, .f32⟩ : BufTy).Contents (Elt F)),
    StableHlo.unary main_v50 main_v51 (broadcastInDim S512x1 ![0, 1] bcast_S1x1_S512x1_0_1 : (⟨S1x1, .f32⟩ : BufTy).Contents (Elt F) → (⟨S512x1, .f32⟩ : BufTy).Contents (Elt F)),
    StableHlo.binary main_v49 main_v51 main_v52 (addf : (⟨S512x1, .f32⟩ : BufTy).Contents (Elt F) → (⟨S512x1, .f32⟩ : BufTy).Contents (Elt F) → (⟨S512x1, .f32⟩ : BufTy).Contents (Elt F)),
    StableHlo.unary main_v52 main_v53 (Host.negf : (⟨S512x1, .f32⟩ : BufTy).Contents (Elt F) → (⟨S512x1, .f32⟩ : BufTy).Contents (Elt F)),
    StableHlo.unary main_v53 main_v54 (Host.exp : (⟨S512x1, .f32⟩ : BufTy).Contents (Elt F) → (⟨S512x1, .f32⟩ : BufTy).Contents (Elt F)),
    StableHlo.nullary main_cst (constant S_ .f32 0x3F800000#32),
    StableHlo.unary main_cst main_v55 (broadcastInDim S512x1 ![] bcast_S_S512x1 : (⟨S_, .f32⟩ : BufTy).Contents (Elt F) → (⟨S512x1, .f32⟩ : BufTy).Contents (Elt F)),
    StableHlo.binary main_v55 main_v54 main_v56 (addf : (⟨S512x1, .f32⟩ : BufTy).Contents (Elt F) → (⟨S512x1, .f32⟩ : BufTy).Contents (Elt F) → (⟨S512x1, .f32⟩ : BufTy).Contents (Elt F)),
    StableHlo.nullary main_cst_3 (constant S_ .f32 0x3F800000#32),
    StableHlo.unary main_cst_3 main_v57 (broadcastInDim S512x1 ![] bcast_S_S512x1 : (⟨S_, .f32⟩ : BufTy).Contents (Elt F) → (⟨S512x1, .f32⟩ : BufTy).Contents (Elt F)),
    StableHlo.binary main_v57 main_v56 main_v58 (Host.divf : (⟨S512x1, .f32⟩ : BufTy).Contents (Elt F) → (⟨S512x1, .f32⟩ : BufTy).Contents (Elt F) → (⟨S512x1, .f32⟩ : BufTy).Contents (Elt F)),
    StableHlo.reshape main_v58 main_v59 rfl shapeCasts_S512x1_S512 ]

-- a chain of ninety-six binds, re-associated one statement at a time
set_option maxRecDepth 4096 in
set_option maxHeartbeats 4000000 in
/-- @main is that straight line: the functions' definitions unfolded at their calls, both sides are one chain of
    operation steps once sequencing is reassociated. -/
theorem main_eq (c : Dev nD) : main (F := F) c = seq ops := by
  simp only [main, main_part0, main_part1, fn_relu.body, fn_relu_0.body, fn_relu_1.body, fn_remainder.body, fn_where.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., unary_bufs_sub .., reshape_bufs_sub .., binary_bufs_sub .., unary_bufs_sub .., unary_bufs_sub .., unary_bufs_sub .., unary_bufs_sub .., binary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩

/-- The contents after two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option quotPrecheck false in
local notation "𝕋[" s ", " e "]" => (⟨s, e⟩ : BufTy).Contents (Elt F)
/-- The dense tower: statements of main_v0 … main_v18. -/
abbrev sDense : List (HloOp τ sig (Elt F)) :=
  [ StableHlo.binary main_arg0 main_arg3 main_v0 ((fun l r => Host.dotGeneral dot_S512x13_S13x512_S512x512_1_0_0_1_n_n none l r) : (⟨S512x13, .f32⟩ : BufTy).Contents (Elt F) → (⟨S13x512, .f32⟩ : BufTy).Contents (Elt F) → (⟨S512x512, .f32⟩ : BufTy).Contents (Elt F)),
    StableHlo.unary main_arg4 main_v1 (broadcastInDim S1x512 ![1] bcast_S512_S1x512_1 : (⟨S512, .f32⟩ : BufTy).Contents (Elt F) → (⟨S1x512, .f32⟩ : BufTy).Contents (Elt F)),
    StableHlo.unary main_v1 main_v2 (broadcastInDim S512x512 ![0, 1] bcast_S1x512_S512x512_0_1 : (⟨S1x512, .f32⟩ : BufTy).Contents (Elt F) → (⟨S512x512, .f32⟩ : BufTy).Contents (Elt F)),
    StableHlo.binary main_v0 main_v2 main_v3 (addf : (⟨S512x512, .f32⟩ : BufTy).Contents (Elt F) → (⟨S512x512, .f32⟩ : BufTy).Contents (Elt F) → (⟨S512x512, .f32⟩ : BufTy).Contents (Elt F)),
    StableHlo.TRef.nullary main_call0.cst (constant S_ .f32 0x00000000#32),
    StableHlo.TRef.unary main_call0.cst main_call0.v0 (broadcastInDim S512x512 ![] bcast_S_S512x512),
    StableHlo.TRef.binary (.of main_v3) main_call0.v0 main_call0.v1 maximumf,
    StableHlo.binary main_v4 main_arg5 main_v5 ((fun l r => Host.dotGeneral dot_S512x512_S512x256_S512x256_1_0_0_1_n_n none l r) : (⟨S512x512, .f32⟩ : BufTy).Contents (Elt F) → (⟨S512x256, .f32⟩ : BufTy).Contents (Elt F) → (⟨S512x256, .f32⟩ : BufTy).Contents (Elt F)),
    StableHlo.unary main_arg6 main_v6 (broadcastInDim S1x256 ![1] bcast_S256_S1x256_1 : (⟨S256, .f32⟩ : BufTy).Contents (Elt F) → (⟨S1x256, .f32⟩ : BufTy).Contents (Elt F)),
    StableHlo.unary main_v6 main_v7 (broadcastInDim S512x256 ![0, 1] bcast_S1x256_S512x256_0_1 : (⟨S1x256, .f32⟩ : BufTy).Contents (Elt F) → (⟨S512x256, .f32⟩ : BufTy).Contents (Elt F)),
    StableHlo.binary main_v5 main_v7 main_v8 (addf : (⟨S512x256, .f32⟩ : BufTy).Contents (Elt F) → (⟨S512x256, .f32⟩ : BufTy).Contents (Elt F) → (⟨S512x256, .f32⟩ : BufTy).Contents (Elt F)),
    StableHlo.TRef.nullary main_call1.cst (constant S_ .f32 0x00000000#32),
    StableHlo.TRef.unary main_call1.cst main_call1.v0 (broadcastInDim S512x256 ![] bcast_S_S512x256),
    StableHlo.TRef.binary (.of main_v8) main_call1.v0 main_call1.v1 maximumf,
    StableHlo.binary main_v9 main_arg7 main_v10 ((fun l r => Host.dotGeneral dot_S512x256_S256x64_S512x64_1_0_0_1_n_n none l r) : (⟨S512x256, .f32⟩ : BufTy).Contents (Elt F) → (⟨S256x64, .f32⟩ : BufTy).Contents (Elt F) → (⟨S512x64, .f32⟩ : BufTy).Contents (Elt F)),
    StableHlo.unary main_arg8 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S512x64 ![0, 1] bcast_S1x64_S512x64_0_1 : (⟨S1x64, .f32⟩ : BufTy).Contents (Elt F) → (⟨S512x64, .f32⟩ : BufTy).Contents (Elt F)),
    StableHlo.binary main_v10 main_v12 main_v13 (addf : (⟨S512x64, .f32⟩ : BufTy).Contents (Elt F) → (⟨S512x64, .f32⟩ : BufTy).Contents (Elt F) → (⟨S512x64, .f32⟩ : BufTy).Contents (Elt F)),
    StableHlo.TRef.nullary main_call2.cst (constant S_ .f32 0x00000000#32),
    StableHlo.TRef.unary main_call2.cst main_call2.v0 (broadcastInDim S512x64 ![] bcast_S_S512x64),
    StableHlo.TRef.binary (.of main_v13) main_call2.v0 main_call2.v1 maximumf,
    StableHlo.binary main_v14 main_arg9 main_v15 ((fun l r => Host.dotGeneral dot_S512x64_S64x16_S512x16_1_0_0_1_n_n none l r) : (⟨S512x64, .f32⟩ : BufTy).Contents (Elt F) → (⟨S64x16, .f32⟩ : BufTy).Contents (Elt F) → (⟨S512x16, .f32⟩ : BufTy).Contents (Elt F)),
    StableHlo.unary main_arg10 main_v16 (broadcastInDim S1x16 ![1] bcast_S16_S1x16_1 : (⟨S16, .f32⟩ : BufTy).Contents (Elt F) → (⟨S1x16, .f32⟩ : BufTy).Contents (Elt F)),
    StableHlo.unary main_v16 main_v17 (broadcastInDim S512x16 ![0, 1] bcast_S1x16_S512x16_0_1 : (⟨S1x16, .f32⟩ : BufTy).Contents (Elt F) → (⟨S512x16, .f32⟩ : BufTy).Contents (Elt F)),
    StableHlo.binary main_v15 main_v17 main_v18 (addf : (⟨S512x16, .f32⟩ : BufTy).Contents (Elt F) → (⟨S512x16, .f32⟩ : BufTy).Contents (Elt F) → (⟨S512x16, .f32⟩ : BufTy).Contents (Elt F)) ]

/-- The embedding lookup: the index chain (add, remainder, select), transposes, the gather, the reshape (main_c … main_v31). -/
abbrev sSparse : List (HloOp τ sig (Elt F)) :=
  [ StableHlo.nullary main_c (constantI S_ 32 1#32),
    StableHlo.unary main_c main_v19 (broadcastInDim S512x26 ![] bcast_S_S512x26 : (⟨S_, .i32⟩ : BufTy).Contents (Elt F) → (⟨S512x26, .i32⟩ : BufTy).Contents (Elt F)),
    StableHlo.binary main_arg1 main_v19 main_v20 (addi : (⟨S512x26, .i32⟩ : BufTy).Contents (Elt F) → (⟨S512x26, .i32⟩ : BufTy).Contents (Elt F) → (⟨S512x26, .i32⟩ : BufTy).Contents (Elt F)),
    StableHlo.nullary main_c_0 (constantI S_ 32 100000#32),
    StableHlo.TRef.unary (.of main_c_0) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S512x26 ![] bcast_S_S512x26),
    StableHlo.TRef.binary (.of main_v20) main_call3.v3 main_call3.v4 Host.remsi,
    StableHlo.TRef.nullary main_call3.c_1 (constantI S_ 32 0#32),
    StableHlo.TRef.unary main_call3.c_1 main_call3.v5 (broadcastInDim S512x26 ![] bcast_S_S512x26),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S512x26 ![] bcast_S_S512x26),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S512x26 ![] bcast_S_S512x26),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S512x26 ![] bcast_S_S512x26),
    StableHlo.TRef.binary main_call3.v4 main_call3.v13 main_call3.v14 addi,
    StableHlo.TRef.ternary main_call3.v12 main_call3.v14 main_call3.v4 main_call3.v15 select,
    StableHlo.nullary main_c_1 (constantI S_ 32 0#32),
    StableHlo.unary main_c_1 main_v22 (broadcastInDim S512x26 ![] bcast_S_S512x26 : (⟨S_, .i32⟩ : BufTy).Contents (Elt F) → (⟨S512x26, .i32⟩ : BufTy).Contents (Elt F)),
    StableHlo.binary main_v21 main_v22 main_v23 (cmpi .slt : (⟨S512x26, .i32⟩ : BufTy).Contents (Elt F) → (⟨S512x26, .i32⟩ : BufTy).Contents (Elt F) → (⟨S512x26, .i1⟩ : BufTy).Contents (Elt F)),
    StableHlo.nullary main_c_2 (constantI S_ 32 100000#32),
    StableHlo.unary main_c_2 main_v24 (broadcastInDim S512x26 ![] bcast_S_S512x26 : (⟨S_, .i32⟩ : BufTy).Contents (Elt F) → (⟨S512x26, .i32⟩ : BufTy).Contents (Elt F)),
    StableHlo.binary main_v21 main_v24 main_v25 (addi : (⟨S512x26, .i32⟩ : BufTy).Contents (Elt F) → (⟨S512x26, .i32⟩ : BufTy).Contents (Elt F) → (⟨S512x26, .i32⟩ : BufTy).Contents (Elt F)),
    StableHlo.ternary main_v23 main_v25 main_v21 main_v26 (select : (⟨S512x26, .i1⟩ : BufTy).Contents (Elt F) → (⟨S512x26, .i32⟩ : BufTy).Contents (Elt F) → (⟨S512x26, .i32⟩ : BufTy).Contents (Elt F) → (⟨S512x26, .i32⟩ : BufTy).Contents (Elt F)),
    StableHlo.unary main_v26 main_v27 ((transpose S26x512 [1, 0] · transposes_S512x26_S26x512_1_0) : (⟨S512x26, .i32⟩ : BufTy).Contents (Elt F) → (⟨S26x512, .i32⟩ : BufTy).Contents (Elt F)),
    StableHlo.unary main_v27 main_v28 (broadcastInDim S26x512x1 ![0, 1] bcast_S26x512_S26x512x1_0_1 : (⟨S26x512, .i32⟩ : BufTy).Contents (Elt F) → (⟨S26x512x1, .i32⟩ : BufTy).Contents (Elt F)),
    StableHlo.binary main_arg2 main_v28 main_v29 ((fun x i => Host.gather gather_S26x100000x16_S26x512x1_S26x512x16_2_1_0_0_1_2_1116 x i) : (⟨S26x100000x16, .f32⟩ : BufTy).Contents (Elt F) → (⟨S26x512x1, .i32⟩ : BufTy).Contents (Elt F) → (⟨S26x512x16, .f32⟩ : BufTy).Contents (Elt F)),
    StableHlo.unary main_v29 main_v30 ((transpose S512x26x16 [1, 0, 2] · transposes_S26x512x16_S512x26x16_1_0_2) : (⟨S26x512x16, .f32⟩ : BufTy).Contents (Elt F) → (⟨S512x26x16, .f32⟩ : BufTy).Contents (Elt F)),
    StableHlo.reshape main_v30 main_v31 rfl shapeCasts_S512x26x16_S512x416 ]

/-- The concatenation main_v32. -/
abbrev sCat : List (HloOp τ sig (Elt F)) :=
  [ StableHlo.binary main_v18 main_v31 main_v32 ((fun a b => concatenate S512x432 1 [⟨S512x16, a⟩, ⟨S512x416, b⟩] concatenates_S512x16_S512x416_S512x432_d1) : (⟨S512x16, .f32⟩ : BufTy).Contents (Elt F) → (⟨S512x416, .f32⟩ : BufTy).Contents (Elt F) → (⟨S512x432, .f32⟩ : BufTy).Contents (Elt F)) ]

/-- The pairwise products main_v33 … main_v38. -/
abbrev sInter : List (HloOp τ sig (Elt F)) :=
  [ StableHlo.unary main_v32 main_v33 (broadcastInDim S512x432x1 ![0, 1] bcast_S512x432_S512x432x1_0_1 : (⟨S512x432, .f32⟩ : BufTy).Contents (Elt F) → (⟨S512x432x1, .f32⟩ : BufTy).Contents (Elt F)),
    StableHlo.unary main_v32 main_v34 (broadcastInDim S512x1x432 ![0, 2] bcast_S512x432_S512x1x432_0_2 : (⟨S512x432, .f32⟩ : BufTy).Contents (Elt F) → (⟨S512x1x432, .f32⟩ : BufTy).Contents (Elt F)),
    StableHlo.unary main_v33 main_v35 (broadcastInDim S512x432x432 ![0, 1, 2] bcast_S512x432x1_S512x432x432_0_1_2 : (⟨S512x432x1, .f32⟩ : BufTy).Contents (Elt F) → (⟨S512x432x432, .f32⟩ : BufTy).Contents (Elt F)),
    StableHlo.unary main_v34 main_v36 (broadcastInDim S512x432x432 ![0, 1, 2] bcast_S512x1x432_S512x432x432_0_1_2 : (⟨S512x1x432, .f32⟩ : BufTy).Contents (Elt F) → (⟨S512x432x432, .f32⟩ : BufTy).Contents (Elt F)),
    StableHlo.binary main_v35 main_v36 main_v37 (mulf : (⟨S512x432x432, .f32⟩ : BufTy).Contents (Elt F) → (⟨S512x432x432, .f32⟩ : BufTy).Contents (Elt F) → (⟨S512x432x432, .f32⟩ : BufTy).Contents (Elt F)),
    StableHlo.reshape main_v37 main_v38 rfl shapeCasts_S512x432x432_S512x186624 ]

/-- The first hidden layer main_v39 … main_v43. -/
abbrev sHidden0 : List (HloOp τ sig (Elt F)) :=
  [ StableHlo.binary main_v38 main_arg11 main_v39 ((fun l r => Host.dotGeneral dot_S512x186624_S186624x512_S512x512_1_0_0_1_n_n none l r) : (⟨S512x186624, .f32⟩ : BufTy).Contents (Elt F) → (⟨S186624x512, .f32⟩ : BufTy).Contents (Elt F) → (⟨S512x512, .f32⟩ : BufTy).Contents (Elt F)),
    StableHlo.unary main_arg12 main_v40 (broadcastInDim S1x512 ![1] bcast_S512_S1x512_1 : (⟨S512, .f32⟩ : BufTy).Contents (Elt F) → (⟨S1x512, .f32⟩ : BufTy).Contents (Elt F)),
    StableHlo.unary main_v40 main_v41 (broadcastInDim S512x512 ![0, 1] bcast_S1x512_S512x512_0_1 : (⟨S1x512, .f32⟩ : BufTy).Contents (Elt F) → (⟨S512x512, .f32⟩ : BufTy).Contents (Elt F)),
    StableHlo.binary main_v39 main_v41 main_v42 (addf : (⟨S512x512, .f32⟩ : BufTy).Contents (Elt F) → (⟨S512x512, .f32⟩ : BufTy).Contents (Elt F) → (⟨S512x512, .f32⟩ : BufTy).Contents (Elt F)),
    StableHlo.TRef.nullary main_call4.cst (constant S_ .f32 0x00000000#32),
    StableHlo.TRef.unary main_call4.cst main_call4.v0 (broadcastInDim S512x512 ![] bcast_S_S512x512),
    StableHlo.TRef.binary (.of main_v42) main_call4.v0 main_call4.v1 maximumf ]

/-- The second hidden layer main_v44 … main_v48. -/
abbrev sHidden1 : List (HloOp τ sig (Elt F)) :=
  [ StableHlo.binary main_v43 main_arg13 main_v44 ((fun l r => Host.dotGeneral dot_S512x512_S512x256_S512x256_1_0_0_1_n_n none l r) : (⟨S512x512, .f32⟩ : BufTy).Contents (Elt F) → (⟨S512x256, .f32⟩ : BufTy).Contents (Elt F) → (⟨S512x256, .f32⟩ : BufTy).Contents (Elt F)),
    StableHlo.unary main_arg14 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S512x256 ![0, 1] bcast_S1x256_S512x256_0_1 : (⟨S1x256, .f32⟩ : BufTy).Contents (Elt F) → (⟨S512x256, .f32⟩ : BufTy).Contents (Elt F)),
    StableHlo.binary main_v44 main_v46 main_v47 (addf : (⟨S512x256, .f32⟩ : BufTy).Contents (Elt F) → (⟨S512x256, .f32⟩ : BufTy).Contents (Elt F) → (⟨S512x256, .f32⟩ : BufTy).Contents (Elt F)),
    StableHlo.TRef.nullary main_call5.cst (constant S_ .f32 0x00000000#32),
    StableHlo.TRef.unary main_call5.cst main_call5.v0 (broadcastInDim S512x256 ![] bcast_S_S512x256),
    StableHlo.TRef.binary (.of main_v47) main_call5.v0 main_call5.v1 maximumf ]

/-- The logit main_v49 … main_v52. -/
abbrev sLogit : List (HloOp τ sig (Elt F)) :=
  [ StableHlo.binary main_v48 main_arg15 main_v49 ((fun l r => Host.dotGeneral dot_S512x256_S256x1_S512x1_1_0_0_1_n_n none l r) : (⟨S512x256, .f32⟩ : BufTy).Contents (Elt F) → (⟨S256x1, .f32⟩ : BufTy).Contents (Elt F) → (⟨S512x1, .f32⟩ : BufTy).Contents (Elt F)),
    StableHlo.unary main_arg16 main_v50 (broadcastInDim S1x1 ![1] bcast_S1_S1x1_1 : (⟨S1, .f32⟩ : BufTy).Contents (Elt F) → (⟨S1x1, .f32⟩ : BufTy).Contents (Elt F)),
    StableHlo.unary main_v50 main_v51 (broadcastInDim S512x1 ![0, 1] bcast_S1x1_S512x1_0_1 : (⟨S1x1, .f32⟩ : BufTy).Contents (Elt F) → (⟨S512x1, .f32⟩ : BufTy).Contents (Elt F)),
    StableHlo.binary main_v49 main_v51 main_v52 (addf : (⟨S512x1, .f32⟩ : BufTy).Contents (Elt F) → (⟨S512x1, .f32⟩ : BufTy).Contents (Elt F) → (⟨S512x1, .f32⟩ : BufTy).Contents (Elt F)) ]

/-- The logistic function and the final reshape main_v53 … main_v59. -/
abbrev sOut : List (HloOp τ sig (Elt F)) :=
  [ StableHlo.unary main_v52 main_v53 (Host.negf : (⟨S512x1, .f32⟩ : BufTy).Contents (Elt F) → (⟨S512x1, .f32⟩ : BufTy).Contents (Elt F)),
    StableHlo.unary main_v53 main_v54 (Host.exp : (⟨S512x1, .f32⟩ : BufTy).Contents (Elt F) → (⟨S512x1, .f32⟩ : BufTy).Contents (Elt F)),
    StableHlo.nullary main_cst (constant S_ .f32 0x3F800000#32),
    StableHlo.unary main_cst main_v55 (broadcastInDim S512x1 ![] bcast_S_S512x1 : (⟨S_, .f32⟩ : BufTy).Contents (Elt F) → (⟨S512x1, .f32⟩ : BufTy).Contents (Elt F)),
    StableHlo.binary main_v55 main_v54 main_v56 (addf : (⟨S512x1, .f32⟩ : BufTy).Contents (Elt F) → (⟨S512x1, .f32⟩ : BufTy).Contents (Elt F) → (⟨S512x1, .f32⟩ : BufTy).Contents (Elt F)),
    StableHlo.nullary main_cst_3 (constant S_ .f32 0x3F800000#32),
    StableHlo.unary main_cst_3 main_v57 (broadcastInDim S512x1 ![] bcast_S_S512x1 : (⟨S_, .f32⟩ : BufTy).Contents (Elt F) → (⟨S512x1, .f32⟩ : BufTy).Contents (Elt F)),
    StableHlo.binary main_v57 main_v56 main_v58 (Host.divf : (⟨S512x1, .f32⟩ : BufTy).Contents (Elt F) → (⟨S512x1, .f32⟩ : BufTy).Contents (Elt F) → (⟨S512x1, .f32⟩ : BufTy).Contents (Elt F)),
    StableHlo.reshape main_v58 main_v59 rfl shapeCasts_S512x1_S512 ]

/-! ## The stages, as pure functions -/

/-- main_v4: the first dense layer, `max (arg0 · arg3 + arg4) 0`. -/
def dense0 (a0 : 𝕋[S512x13, .f32]) (a3 : 𝕋[S13x512, .f32]) (a4 : 𝕋[S512, .f32]) : 𝕋[S512x512, .f32] :=
  maximumf
    (addf (Host.dotGeneral dot_S512x13_S13x512_S512x512_1_0_0_1_n_n none a0 a3)
      (broadcastInDim S512x512 ![0, 1] bcast_S1x512_S512x512_0_1 (broadcastInDim S1x512 ![1] bcast_S512_S1x512_1 a4)))
    (broadcastInDim S512x512 ![] bcast_S_S512x512 (constant S_ .f32 0x00000000#32))

/-- main_v9: the second dense layer, `max (h · arg5 + arg6) 0`. -/
def dense1 (h : 𝕋[S512x512, .f32]) (a5 : 𝕋[S512x256, .f32]) (a6 : 𝕋[S256, .f32]) : 𝕋[S512x256, .f32] :=
  maximumf
    (addf (Host.dotGeneral dot_S512x512_S512x256_S512x256_1_0_0_1_n_n none h a5)
      (broadcastInDim S512x256 ![0, 1] bcast_S1x256_S512x256_0_1 (broadcastInDim S1x256 ![1] bcast_S256_S1x256_1 a6)))
    (broadcastInDim S512x256 ![] bcast_S_S512x256 (constant S_ .f32 0x00000000#32))

/-- main_v14: the third dense layer, `max (h · arg7 + arg8) 0`. -/
def dense2 (h : 𝕋[S512x256, .f32]) (a7 : 𝕋[S256x64, .f32]) (a8 : 𝕋[S64, .f32]) : 𝕋[S512x64, .f32] :=
  maximumf
    (addf (Host.dotGeneral dot_S512x256_S256x64_S512x64_1_0_0_1_n_n none h a7)
      (broadcastInDim S512x64 ![0, 1] bcast_S1x64_S512x64_0_1 (broadcastInDim S1x64 ![1] bcast_S64_S1x64_1 a8)))
    (broadcastInDim S512x64 ![] bcast_S_S512x64 (constant S_ .f32 0x00000000#32))

/-- main_v18: the last dense layer, `h · arg9 + arg10` (no rectifier). -/
def dense3 (h : 𝕋[S512x64, .f32]) (a9 : 𝕋[S64x16, .f32]) (a10 : 𝕋[S16, .f32]) : 𝕋[S512x16, .f32] :=
  addf (Host.dotGeneral dot_S512x64_S64x16_S512x16_1_0_0_1_n_n none h a9)
    (broadcastInDim S512x16 ![0, 1] bcast_S1x16_S512x16_0_1 (broadcastInDim S1x16 ![1] bcast_S16_S1x16_1 a10))

/-- main_v18 : [512,16], the dense tower's output, of arg0 and arg3 … arg10. -/
def denseOut (a0 : 𝕋[S512x13, .f32]) (a3 : 𝕋[S13x512, .f32]) (a4 : 𝕋[S512, .f32]) (a5 : 𝕋[S512x256, .f32]) (a6 : 𝕋[S256, .f32])
    (a7 : 𝕋[S256x64, .f32]) (a8 : 𝕋[S64, .f32]) (a9 : 𝕋[S64x16, .f32]) (a10 : 𝕋[S16, .f32]) : 𝕋[S512x16, .f32] :=
  dense3 (dense2 (dense1 (dense0 a0 a3 a4) a5 a6) a7 a8) a9 a10

/-- main_call3_v2: the divisor @remainder takes, `select (100000 == 0) 1 100000`. -/
def modulus : 𝕋[S_, .i32] :=
  select (cmpi .eq (id (constantI S_ 32 100000#32)) (constantI S_ 32 0#32)) (constantI S_ 32 1#32) (id (constantI S_ 32 100000#32))

/-- main_call3_v4: the truncated remainder `(arg1 + 1) rem modulus`. -/
def idxRem (a1 : 𝕋[S512x26, .i32]) : 𝕋[S512x26, .i32] :=
  Host.remsi (addi a1 (broadcastInDim S512x26 ![] bcast_S_S512x26 (constantI S_ 32 1#32))) (broadcastInDim S512x26 ![] bcast_S_S512x26 (modulus (F := F)))

/-- main_v21: @remainder's result, the remainder moved to the divisor's sign:
    `select ((rem < 0) ≠ (modulus < 0) ∧ rem ≠ 0) (rem + modulus) rem`. -/
def idxMod (a1 : 𝕋[S512x26, .i32]) : 𝕋[S512x26, .i32] :=
  select
    (andi
      (cmpi .ne (cmpi .slt (idxRem a1) (broadcastInDim S512x26 ![] bcast_S_S512x26 (constantI S_ 32 0#32)))
        (broadcastInDim S512x26 ![] bcast_S_S512x26 (cmpi .slt (modulus (F := F)) (constantI S_ 32 0#32))))
      (cmpi .ne (idxRem a1) (broadcastInDim S512x26 ![] bcast_S_S512x26 (constantI S_ 32 0#32))))
    (addi (idxRem a1) (broadcastInDim S512x26 ![] bcast_S_S512x26 (modulus (F := F))))
    (idxRem a1)

/-- main_v26: a negative index wrapped once, `select (i < 0) (i + 100000) i`. -/
def idxWrap (a1 : 𝕋[S512x26, .i32]) : 𝕋[S512x26, .i32] :=
  select (cmpi .slt (idxMod a1) (broadcastInDim S512x26 ![] bcast_S_S512x26 (constantI S_ 32 0#32)))
    (addi (idxMod a1) (broadcastInDim S512x26 ![] bcast_S_S512x26 (constantI S_ 32 100000#32)))
    (idxMod a1)

/-- main_v31 : [512,416], the looked-up embeddings of arg1 and arg2: the indices transposed and given a unit axis,
    the gather from the 26 tables, transposed back and flattened. -/
def sparseFlat (a1 : 𝕋[S512x26, .i32]) (a2 : 𝕋[S26x100000x16, .f32]) : 𝕋[S512x416, .f32] :=
  shapeCast S512x416
    (transpose S512x26x16 [1, 0, 2]
      (Host.gather gather_S26x100000x16_S26x512x1_S26x512x16_2_1_0_0_1_2_1116 a2
        (broadcastInDim S26x512x1 ![0, 1] bcast_S26x512_S26x512x1_0_1
          (transpose S26x512 [1, 0] (idxWrap a1) transposes_S512x26_S26x512_1_0)))
      transposes_S26x512x16_S512x26x16_1_0_2)
    shapeCasts_S512x26x16_S512x416

/-- main_v32 : [512,432], the two concatenated along axis 1. -/
def zcat (d : 𝕋[S512x16, .f32]) (s : 𝕋[S512x416, .f32]) : 𝕋[S512x432, .f32] :=
  concatenate S512x432 1 [⟨S512x16, d⟩, ⟨S512x416, s⟩] concatenates_S512x16_S512x416_S512x432_d1

/-- main_v38 : [512,186624], every pairwise product `z[b,i] * z[b,j]`, flattened. -/
def inter (z : 𝕋[S512x432, .f32]) : 𝕋[S512x186624, .f32] :=
  shapeCast S512x186624
    (mulf
      (broadcastInDim S512x432x432 ![0, 1, 2] bcast_S512x432x1_S512x432x432_0_1_2
        (broadcastInDim S512x432x1 ![0, 1] bcast_S512x432_S512x432x1_0_1 z))
      (broadcastInDim S512x432x432 ![0, 1, 2] bcast_S512x1x432_S512x432x432_0_1_2
        (broadcastInDim S512x1x432 ![0, 2] bcast_S512x432_S512x1x432_0_2 z)))
    shapeCasts_S512x432x432_S512x186624

/-- main_v43 : [512,512], the first hidden layer, `max (x · arg11 + arg12) 0`. -/
def hidden0 (x : 𝕋[S512x186624, .f32]) (a11 : 𝕋[S186624x512, .f32]) (a12 : 𝕋[S512, .f32]) : 𝕋[S512x512, .f32] :=
  maximumf
    (addf (Host.dotGeneral dot_S512x186624_S186624x512_S512x512_1_0_0_1_n_n none x a11)
      (broadcastInDim S512x512 ![0, 1] bcast_S1x512_S512x512_0_1 (broadcastInDim S1x512 ![1] bcast_S512_S1x512_1 a12)))
    (broadcastInDim S512x512 ![] bcast_S_S512x512 (constant S_ .f32 0x00000000#32))

/-- main_v48 : [512,256], the second hidden layer, `max (h · arg13 + arg14) 0`. -/
def hidden1 (h : 𝕋[S512x512, .f32]) (a13 : 𝕋[S512x256, .f32]) (a14 : 𝕋[S256, .f32]) : 𝕋[S512x256, .f32] :=
  maximumf
    (addf (Host.dotGeneral dot_S512x512_S512x256_S512x256_1_0_0_1_n_n none h a13)
      (broadcastInDim S512x256 ![0, 1] bcast_S1x256_S512x256_0_1 (broadcastInDim S1x256 ![1] bcast_S256_S1x256_1 a14)))
    (broadcastInDim S512x256 ![] bcast_S_S512x256 (constant S_ .f32 0x00000000#32))

/-- main_v52 : [512,1], the logit `h · arg15 + arg16`. -/
def logit (h : 𝕋[S512x256, .f32]) (a15 : 𝕋[S256x1, .f32]) (a16 : 𝕋[S1, .f32]) : 𝕋[S512x1, .f32] :=
  addf (Host.dotGeneral dot_S512x256_S256x1_S512x1_1_0_0_1_n_n none h a15)
    (broadcastInDim S512x1 ![0, 1] bcast_S1x1_S512x1_0_1 (broadcastInDim S1x1 ![1] bcast_S1_S1x1_1 a16))

/-- main_v59 : [512] from the logit: `1 / (1 + exp (-x))`, the unit axis dropped. -/
def sigmoidOut (lg : 𝕋[S512x1, .f32]) : 𝕋[S512, .f32] :=
  shapeCast S512
    (Host.divf (broadcastInDim S512x1 ![] bcast_S_S512x1 (constant S_ .f32 0x3F800000#32))
      (addf (broadcastInDim S512x1 ![] bcast_S_S512x1 (constant S_ .f32 0x3F800000#32)) (Host.exp (Host.negf lg))))
    shapeCasts_S512x1_S512

/-- main_v59 : [512], the program's result as a function of the seventeen argument arrays. -/
def result (a0 : 𝕋[S512x13, .f32]) (a1 : 𝕋[S512x26, .i32]) (a2 : 𝕋[S26x100000x16, .f32]) (a3 : 𝕋[S13x512, .f32]) (a4 : 𝕋[S512, .f32])
    (a5 : 𝕋[S512x256, .f32]) (a6 : 𝕋[S256, .f32]) (a7 : 𝕋[S256x64, .f32]) (a8 : 𝕋[S64, .f32]) (a9 : 𝕋[S64x16, .f32]) (a10 : 𝕋[S16, .f32])
    (a11 : 𝕋[S186624x512, .f32]) (a12 : 𝕋[S512, .f32]) (a13 : 𝕋[S512x256, .f32]) (a14 : 𝕋[S256, .f32]) (a15 : 𝕋[S256x1, .f32])
    (a16 : 𝕋[S1, .f32]) : 𝕋[S512, .f32] :=
  sigmoidOut (logit (hidden1 (hidden0 (inter (zcat (denseOut a0 a3 a4 a5 a6 a7 a8 a9 a10) (sparseFlat a1 a2))) a11 a12) a13 a14) a15 a16)

/-! ## Each stage's line of operations leaves its stage function at the stage's result buffer -/

theorem sDense_out (W : Valuation τ sig (Elt F)) :
    after sDense W (main_v18 : DevRef τ sig) = denseOut (W (main_arg0 : DevRef τ sig)) (W (main_arg3 : DevRef τ sig)) (W (main_arg4 : DevRef τ sig)) (W (main_arg5 : DevRef τ sig))
      (W (main_arg6 : DevRef τ sig)) (W (main_arg7 : DevRef τ sig)) (W (main_arg8 : DevRef τ sig)) (W (main_arg9 : DevRef τ sig)) (W (main_arg10 : DevRef τ sig)) := by
  after_results_simp
  rfl

theorem sSparse_out (W : Valuation τ sig (Elt F)) :
    after sSparse W (main_v31 : DevRef τ sig) = sparseFlat (W (main_arg1 : DevRef τ sig)) (W (main_arg2 : DevRef τ sig)) := by
  after_results_simp
  rfl

theorem sCat_out (W : Valuation τ sig (Elt F)) :
    after sCat W (main_v32 : DevRef τ sig) = zcat (W (main_v18 : DevRef τ sig)) (W (main_v31 : DevRef τ sig)) := by
  after_results_simp
  rfl

theorem sInter_out (W : Valuation τ sig (Elt F)) :
    after sInter W (main_v38 : DevRef τ sig) = inter (W (main_v32 : DevRef τ sig)) := by
  after_results_simp
  rfl

theorem sHidden0_out (W : Valuation τ sig (Elt F)) :
    after sHidden0 W (main_v43 : DevRef τ sig) = hidden0 (W (main_v38 : DevRef τ sig)) (W (main_arg11 : DevRef τ sig)) (W (main_arg12 : DevRef τ sig)) := by
  after_results_simp
  rfl

theorem sHidden1_out (W : Valuation τ sig (Elt F)) :
    after sHidden1 W (main_v48 : DevRef τ sig) = hidden1 (W (main_v43 : DevRef τ sig)) (W (main_arg13 : DevRef τ sig)) (W (main_arg14 : DevRef τ sig)) := by
  after_results_simp
  rfl

theorem sLogit_out (W : Valuation τ sig (Elt F)) :
    after sLogit W (main_v52 : DevRef τ sig) = logit (W (main_v48 : DevRef τ sig)) (W (main_arg15 : DevRef τ sig)) (W (main_arg16 : DevRef τ sig)) := by
  after_results_simp
  rfl

theorem sOut_out (W : Valuation τ sig (Elt F)) :
    after sOut W (main_v59 : DevRef τ sig) = sigmoidOut (W (main_v52 : DevRef τ sig)) := by
  after_results_simp
  rfl

/-! ## A stage leaves the buffers it does not write: those a later stage still reads -/
theorem sDense_arg1 (W : Valuation τ sig (Elt F)) : after sDense W (main_arg1 : DevRef τ sig) = W (main_arg1 : DevRef τ sig) := by after_results_simp
theorem sDense_arg2 (W : Valuation τ sig (Elt F)) : after sDense W (main_arg2 : DevRef τ sig) = W (main_arg2 : DevRef τ sig) := by after_results_simp
theorem sDense_arg11 (W : Valuation τ sig (Elt F)) : after sDense W (main_arg11 : DevRef τ sig) = W (main_arg11 : DevRef τ sig) := by after_results_simp
theorem sDense_arg12 (W : Valuation τ sig (Elt F)) : after sDense W (main_arg12 : DevRef τ sig) = W (main_arg12 : DevRef τ sig) := by after_results_simp
theorem sDense_arg13 (W : Valuation τ sig (Elt F)) : after sDense W (main_arg13 : DevRef τ sig) = W (main_arg13 : DevRef τ sig) := by after_results_simp
theorem sDense_arg14 (W : Valuation τ sig (Elt F)) : after sDense W (main_arg14 : DevRef τ sig) = W (main_arg14 : DevRef τ sig) := by after_results_simp
theorem sDense_arg15 (W : Valuation τ sig (Elt F)) : after sDense W (main_arg15 : DevRef τ sig) = W (main_arg15 : DevRef τ sig) := by after_results_simp
theorem sDense_arg16 (W : Valuation τ sig (Elt F)) : after sDense W (main_arg16 : DevRef τ sig) = W (main_arg16 : DevRef τ sig) := by after_results_simp
theorem sSparse_v18 (W : Valuation τ sig (Elt F)) : after sSparse W (main_v18 : DevRef τ sig) = W (main_v18 : DevRef τ sig) := by after_results_simp
theorem sSparse_arg11 (W : Valuation τ sig (Elt F)) : after sSparse W (main_arg11 : DevRef τ sig) = W (main_arg11 : DevRef τ sig) := by after_results_simp
theorem sSparse_arg12 (W : Valuation τ sig (Elt F)) : after sSparse W (main_arg12 : DevRef τ sig) = W (main_arg12 : DevRef τ sig) := by after_results_simp
theorem sSparse_arg13 (W : Valuation τ sig (Elt F)) : after sSparse W (main_arg13 : DevRef τ sig) = W (main_arg13 : DevRef τ sig) := by after_results_simp
theorem sSparse_arg14 (W : Valuation τ sig (Elt F)) : after sSparse W (main_arg14 : DevRef τ sig) = W (main_arg14 : DevRef τ sig) := by after_results_simp
theorem sSparse_arg15 (W : Valuation τ sig (Elt F)) : after sSparse W (main_arg15 : DevRef τ sig) = W (main_arg15 : DevRef τ sig) := by after_results_simp
theorem sSparse_arg16 (W : Valuation τ sig (Elt F)) : after sSparse W (main_arg16 : DevRef τ sig) = W (main_arg16 : DevRef τ sig) := by after_results_simp
theorem sCat_arg11 (W : Valuation τ sig (Elt F)) : after sCat W (main_arg11 : DevRef τ sig) = W (main_arg11 : DevRef τ sig) := by after_results_simp
theorem sCat_arg12 (W : Valuation τ sig (Elt F)) : after sCat W (main_arg12 : DevRef τ sig) = W (main_arg12 : DevRef τ sig) := by after_results_simp
theorem sCat_arg13 (W : Valuation τ sig (Elt F)) : after sCat W (main_arg13 : DevRef τ sig) = W (main_arg13 : DevRef τ sig) := by after_results_simp
theorem sCat_arg14 (W : Valuation τ sig (Elt F)) : after sCat W (main_arg14 : DevRef τ sig) = W (main_arg14 : DevRef τ sig) := by after_results_simp
theorem sCat_arg15 (W : Valuation τ sig (Elt F)) : after sCat W (main_arg15 : DevRef τ sig) = W (main_arg15 : DevRef τ sig) := by after_results_simp
theorem sCat_arg16 (W : Valuation τ sig (Elt F)) : after sCat W (main_arg16 : DevRef τ sig) = W (main_arg16 : DevRef τ sig) := by after_results_simp
theorem sInter_arg11 (W : Valuation τ sig (Elt F)) : after sInter W (main_arg11 : DevRef τ sig) = W (main_arg11 : DevRef τ sig) := by after_results_simp
theorem sInter_arg12 (W : Valuation τ sig (Elt F)) : after sInter W (main_arg12 : DevRef τ sig) = W (main_arg12 : DevRef τ sig) := by after_results_simp
theorem sInter_arg13 (W : Valuation τ sig (Elt F)) : after sInter W (main_arg13 : DevRef τ sig) = W (main_arg13 : DevRef τ sig) := by after_results_simp
theorem sInter_arg14 (W : Valuation τ sig (Elt F)) : after sInter W (main_arg14 : DevRef τ sig) = W (main_arg14 : DevRef τ sig) := by after_results_simp
theorem sInter_arg15 (W : Valuation τ sig (Elt F)) : after sInter W (main_arg15 : DevRef τ sig) = W (main_arg15 : DevRef τ sig) := by after_results_simp
theorem sInter_arg16 (W : Valuation τ sig (Elt F)) : after sInter W (main_arg16 : DevRef τ sig) = W (main_arg16 : DevRef τ sig) := by after_results_simp
theorem sHidden0_arg13 (W : Valuation τ sig (Elt F)) : after sHidden0 W (main_arg13 : DevRef τ sig) = W (main_arg13 : DevRef τ sig) := by after_results_simp
theorem sHidden0_arg14 (W : Valuation τ sig (Elt F)) : after sHidden0 W (main_arg14 : DevRef τ sig) = W (main_arg14 : DevRef τ sig) := by after_results_simp
theorem sHidden0_arg15 (W : Valuation τ sig (Elt F)) : after sHidden0 W (main_arg15 : DevRef τ sig) = W (main_arg15 : DevRef τ sig) := by after_results_simp
theorem sHidden0_arg16 (W : Valuation τ sig (Elt F)) : after sHidden0 W (main_arg16 : DevRef τ sig) = W (main_arg16 : DevRef τ sig) := by after_results_simp
theorem sHidden1_arg15 (W : Valuation τ sig (Elt F)) : after sHidden1 W (main_arg15 : DevRef τ sig) = W (main_arg15 : DevRef τ sig) := by after_results_simp
theorem sHidden1_arg16 (W : Valuation τ sig (Elt F)) : after sHidden1 W (main_arg16 : DevRef τ sig) = W (main_arg16 : DevRef τ sig) := by after_results_simp

/-- The line is the stages' lines in order. -/
theorem ops_split : (ops : List (HloOp τ sig (Elt F))) = sDense ++ (sSparse ++ (sCat ++ (sInter ++ (sHidden0 ++ (sHidden1 ++ (sLogit ++ sOut)))))) := rfl

/-- The whole line leaves `result` of the arguments' contents at main_v59: stage by stage, each stage's result read by the
    next, the arguments it reads untouched by the stages before it. -/
theorem out_eq (V : Valuation τ sig (Elt F)) :
    after ops V (main_v59 : DevRef τ sig) = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  rw [ops_split, after_app, after_app, after_app, after_app, after_app, after_app, after_app]
  rw [sOut_out, sLogit_out, sHidden1_out, sHidden1_arg15, sHidden1_arg16,
    sHidden0_out, sHidden0_arg13, sHidden0_arg14, sHidden0_arg15, sHidden0_arg16,
    sInter_out, sInter_arg11, sInter_arg12, sInter_arg13, sInter_arg14, sInter_arg15, sInter_arg16,
    sCat_out, sCat_arg11, sCat_arg12, sCat_arg13, sCat_arg14, sCat_arg15, sCat_arg16,
    sSparse_out, sSparse_v18, sSparse_arg11, sSparse_arg12, sSparse_arg13, sSparse_arg14, sSparse_arg15, sSparse_arg16,
    sDense_out, sDense_arg1, sDense_arg2, sDense_arg11, sDense_arg12, sDense_arg13, sDense_arg14, sDense_arg15, sDense_arg16]
  rfl

/-! ## No operation writes an argument -/
theorem ops_arg0 (V : Valuation τ sig (Elt F)) : after ops V (main_arg0 : DevRef τ sig) = V (main_arg0 : DevRef τ sig) := by after_results_simp
theorem ops_arg1 (V : Valuation τ sig (Elt F)) : after ops V (main_arg1 : DevRef τ sig) = V (main_arg1 : DevRef τ sig) := by after_results_simp
theorem ops_arg2 (V : Valuation τ sig (Elt F)) : after ops V (main_arg2 : DevRef τ sig) = V (main_arg2 : DevRef τ sig) := by after_results_simp
theorem ops_arg3 (V : Valuation τ sig (Elt F)) : after ops V (main_arg3 : DevRef τ sig) = V (main_arg3 : DevRef τ sig) := by after_results_simp
theorem ops_arg4 (V : Valuation τ sig (Elt F)) : after ops V (main_arg4 : DevRef τ sig) = V (main_arg4 : DevRef τ sig) := by after_results_simp
theorem ops_arg5 (V : Valuation τ sig (Elt F)) : after ops V (main_arg5 : DevRef τ sig) = V (main_arg5 : DevRef τ sig) := by after_results_simp
theorem ops_arg6 (V : Valuation τ sig (Elt F)) : after ops V (main_arg6 : DevRef τ sig) = V (main_arg6 : DevRef τ sig) := by after_results_simp
theorem ops_arg7 (V : Valuation τ sig (Elt F)) : after ops V (main_arg7 : DevRef τ sig) = V (main_arg7 : DevRef τ sig) := by after_results_simp
theorem ops_arg8 (V : Valuation τ sig (Elt F)) : after ops V (main_arg8 : DevRef τ sig) = V (main_arg8 : DevRef τ sig) := by after_results_simp
theorem ops_arg9 (V : Valuation τ sig (Elt F)) : after ops V (main_arg9 : DevRef τ sig) = V (main_arg9 : DevRef τ sig) := by after_results_simp
theorem ops_arg10 (V : Valuation τ sig (Elt F)) : after ops V (main_arg10 : DevRef τ sig) = V (main_arg10 : DevRef τ sig) := by after_results_simp
theorem ops_arg11 (V : Valuation τ sig (Elt F)) : after ops V (main_arg11 : DevRef τ sig) = V (main_arg11 : DevRef τ sig) := by after_results_simp
theorem ops_arg12 (V : Valuation τ sig (Elt F)) : after ops V (main_arg12 : DevRef τ sig) = V (main_arg12 : DevRef τ sig) := by after_results_simp
theorem ops_arg13 (V : Valuation τ sig (Elt F)) : after ops V (main_arg13 : DevRef τ sig) = V (main_arg13 : DevRef τ sig) := by after_results_simp
theorem ops_arg14 (V : Valuation τ sig (Elt F)) : after ops V (main_arg14 : DevRef τ sig) = V (main_arg14 : DevRef τ sig) := by after_results_simp
theorem ops_arg15 (V : Valuation τ sig (Elt F)) : after ops V (main_arg15 : DevRef τ sig) = V (main_arg15 : DevRef τ sig) := by after_results_simp
theorem ops_arg16 (V : Valuation τ sig (Elt F)) : after ops V (main_arg16 : DevRef τ sig) = V (main_arg16 : DevRef τ sig) := by after_results_simp

/-- On every device, for any float values, from any memory with zero counters: every weakly fair execution of
    @main terminates with main_v59 at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = result (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v59).trans (out_eq _),
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _),
      (h c main_arg6).trans (ops_arg6 _),
      (h c main_arg7).trans (ops_arg7 _),
      (h c main_arg8).trans (ops_arg8 _),
      (h c main_arg9).trans (ops_arg9 _),
      (h c main_arg10).trans (ops_arg10 _),
      (h c main_arg11).trans (ops_arg11 _),
      (h c main_arg12).trans (ops_arg12 _),
      (h c main_arg13).trans (ops_arg13 _),
      (h c main_arg14).trans (ops_arg14 _),
      (h c main_arg15).trans (ops_arg15 _),
      (h c main_arg16).trans (ops_arg16 _)⟩)
    (run_seq scopedRefs_eq scopedSems_eq defs main (fun _ => ops) main_eq (fun _ => ops_sub) m ρ)

end Cert.ReferenceIdeal.RefRun

end
-- ==== Proof.SparsePrefix.lean ====
/-
  Both programs compute the gathered embedding rows with the same host operations (index + 1 modulo 100000, the per-table
  gather, the transposes and the reshape to [512, 416]): the array the kernel's region finds is the reference's function of
  the same two arguments. The chain is never opened.
-/
import proofs.«182230_j49744311222349_2_alg».proof.Proof.Gen.KernelIdeal.Frame
import proofs.«182230_j49744311222349_2_alg».proof.Proof.RefRun
import Idealize.ShloMosaic.Lib.StableHlo.Run

set_option maxRecDepth 16384

noncomputable section

open Idealize.ShloMosaic Idealize.ShloMosaic.TcCoe Idealize.SL.Sem

namespace Cert.KernelIdeal.Prefix

open Cert.KernelIdeal Cert.KernelIdeal.Gen Idealize.ShloMosaic.StableHlo

variable {F : FTy → Type} [FloatOps F]
variable (m : (ℓ : Loc nD τ sig) → Buf (Elt F) ℓ)

/-- The embedding array as the region finds it. -/
theorem found_sparse (c : Dev nD) :
    V m c main_v12 = Cert.ReferenceIdeal.RefRun.sparseFlat (F := F) (m ((c : Thread nD τ).loc main_arg1))
      (m ((c : Thread nD τ).loc main_arg2)) := by
  dsimp only [Gen.V]
  simp only [Gen.hostOps0, Gen.hostOps0_1, Gen.hostOps0_2, List.flatten_cons, List.flatten_nil, List.append_nil,
    List.cons_append, List.nil_append]
  after_results_simp
  rfl

end Cert.KernelIdeal.Prefix

end
-- ==== Proof.HostInteraction.lean ====
/-
  The host's interaction array and its first hidden layer, read at indices given by coordinates over the extended reals.

  From `Z : [512, 432]` the host forms all pairwise products of a row's entries: `Z` lifted to `[512, 432, 1]` and repeated along
  the last axis, times `Z` lifted to `[512, 1, 432]` and repeated along the middle axis — entry `(b, i, j)` is
  `Z(b, i) · Z(b, j)` — and flattens the two trailing axes row-major to `186624 = 432 · 432` columns, so column `k` of row `b`
  is `Z(b, k / 432) · Z(b, k % 432)`. A rectified dense layer on that array (weights rounded to bf16, the identity here; the bias
  vector read as a row) has entry `(b, h)`

      max(Σ_{k < 186624} (Z(b, k / 432) · Z(b, k % 432)) · PW(k, h) + pb(h), 0).
-/
import proofs.«182230_j49744311222349_2_alg».proof.Proof.LibAffine
import proofs.«182230_j49744311222349_2_alg».proof.Proof.LibSoftplusLayers
import proofs.«182230_j49744311222349_2_alg».proof.Proof.LibReluMlp
import proofs.«182230_j49744311222349_2_alg».proof.Proof.LibFlatten
import proofs.«182230_j49744311222349_2_alg».proof.Proof.LibLastAxis
import proofs.«182230_j49744311222349_2_alg».proof.Proof.InteractionSum

namespace Cert.KernelIdeal.HostInteraction

open Idealize.ShloMosaic Idealize.ShloMosaic.ValueIdx
open Cert.KernelIdeal.InteractionSum (pairFst_lt pairSnd_lt)

section Lifts
variable {α : Type} {a b c : ℕ}

/-- A matrix `[a, c]` lifted to `[a, 1, c]` (`broadcast_in_dim`, dims `[0, 2]`) reads, at `(i, u, k)`, the entry `(i, k)`. -/
theorem broadcastInDim_ac_a1c_apply (x : (⟨2, ![a, c]⟩ : Shape).Idx → α)
    (h : (⟨2, ![a, c]⟩ : Shape).BroadcastsInDim ⟨3, ![a, 1, c]⟩ (![0, 2] : Fin 2 → Fin 3)) (i : Fin a) (u : Fin 1) (k : Fin c) :
    broadcastInDim ⟨3, ![a, 1, c]⟩ ![0, 2] h x (ix3 i u k) = x (ix2 i k) := by
  refine broadcastInDim_apply _ h x (ix3 i u k) (ix2 i k) fun ax => ?_
  match ax with
  | ⟨0, _⟩ =>
    show i.val = if a = 1 then 0 else i.val
    split
    · have := i.isLt; omega
    · rfl
  | ⟨1, _⟩ =>
    show k.val = if c = 1 then 0 else k.val
    split
    · have := k.isLt; omega
    · rfl

/-- An `[a, 1, c]` array broadcast to `[a, b, c]` (`broadcast_in_dim`, dims `[0, 1, 2]`) reads, at `(i, j, k)`, the entry
    `(i, 0, k)`. -/
theorem broadcastInDim_a1c_abc_apply (x : (⟨3, ![a, 1, c]⟩ : Shape).Idx → α)
    (h : (⟨3, ![a, 1, c]⟩ : Shape).BroadcastsInDim ⟨3, ![a, b, c]⟩ (![0, 1, 2] : Fin 3 → Fin 3)) (i : Fin a) (j : Fin b) (k : Fin c) :
    broadcastInDim ⟨3, ![a, b, c]⟩ ![0, 1, 2] h x (ix3 i j k) = x (ix3 i (0 : Fin 1) k) := by
  refine broadcastInDim_apply _ h x (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Lifts

/-- The interaction array at `(b, k)`: the product of the row's entries `k / 432` and `k % 432`. -/
theorem inter_apply (Zr : FVec Ideal ⟨2, ![512, 432]⟩ .f32)
    (gA : (⟨3, ![512, 432, 1]⟩ : Shape).BroadcastsInDim ⟨3, ![512, 432, 432]⟩ (![0, 1, 2] : Fin 3 → Fin 3))
    (gB : (⟨2, ![512, 432]⟩ : Shape).BroadcastsInDim ⟨3, ![512, 432, 1]⟩ (![0, 1] : Fin 2 → Fin 3))
    (gC : (⟨3, ![512, 1, 432]⟩ : Shape).BroadcastsInDim ⟨3, ![512, 432, 432]⟩ (![0, 1, 2] : Fin 3 → Fin 3))
    (gD : (⟨2, ![512, 432]⟩ : Shape).BroadcastsInDim ⟨3, ![512, 1, 432]⟩ (![0, 2] : Fin 2 → Fin 3))
    (hcast : (⟨3, ![512, 432, 432]⟩ : Shape).ShapeCasts ⟨2, ![512, 186624]⟩) (b : Fin 512) (k : Fin 186624) :
    shapeCast ⟨2, ![512, 186624]⟩
        (mulf
          (broadcastInDim ⟨3, ![512, 432, 432]⟩ ![0, 1, 2] gA (broadcastInDim ⟨3, ![512, 432, 1]⟩ ![0, 1] gB Zr))
          (broadcastInDim ⟨3, ![512, 432, 432]⟩ ![0, 1, 2] gC (broadcastInDim ⟨3, ![512, 1, 432]⟩ ![0, 2] gD Zr)))
        hcast (ix2 b k)
      = Zr (ix2 b ⟨k.val / 432, pairFst_lt k⟩) * Zr (ix2 b ⟨k.val % 432, pairSnd_lt k⟩) := by
  -- column `k` is `(k / 432) · 432 + k % 432`
  have hr : k.val / 432 * 432 + k.val % 432 < 186624 := by rw [Nat.div_add_mod']; exact k.isLt
  have hk : k = ⟨k.val / 432 * 432 + k.val % 432, hr⟩ := Fin.ext (Nat.div_add_mod' _ _).symm
  refine (congrArg (fun q => shapeCast ⟨2, ![512, 186624]⟩ _ hcast (ix2 b q)) hk).trans ?_
  refine (Flatten.merge12_apply _ hcast b ⟨k.val / 432, pairFst_lt k⟩ ⟨k.val % 432, pairSnd_lt k⟩ hr (by norm_num)).trans ?_
  refine (mulf_apply _ _ _).trans ?_
  refine congrArg₂ (· * ·) ?_ ?_
  · refine (LastAxis.broadcastInDim_ab1_abc_apply _ gA b _ _).trans ?_
    exact LastAxis.broadcastInDim_ab_ab1_apply Zr gB b _ 0
  · refine (broadcastInDim_a1c_abc_apply _ gC b _ _).trans ?_
    exact broadcastInDim_ac_a1c_apply Zr gD b 0 _

/-- The first hidden layer on an array whose entry `(b, k)` is the pair product: the contraction plus the bias, rectified. -/
theorem hidden_apply (Zr : FVec Ideal ⟨2, ![512, 432]⟩ .f32) (inter : FVec Ideal ⟨2, ![512, 186624]⟩ .f32)
    (hinter : ∀ (b : Fin 512) (k : Fin 186624),
      inter (ix2 b k) = Zr (ix2 b ⟨k.val / 432, pairFst_lt k⟩) * Zr (ix2 b ⟨k.val % 432, pairSnd_lt k⟩))
    (PW : FVec Ideal ⟨2, ![186624, 512]⟩ .f32) (pb : FVec Ideal ⟨1, ![512]⟩ .f32)
    (ht : FTy.bf16.bits < FTy.f32.bits) (hc : (⟨1, ![512]⟩ : Shape).ShapeCasts ⟨2, ![1, 512]⟩)
    (i : (⟨2, ![512, 512]⟩ : Shape).Idx) :
    ReluMlp.layer inter (truncf .bf16 PW ht) (shapeCast ⟨2, ![1, 512]⟩ pb hc) i
      = ReluMlp.relu
          ((∑ k : Fin 186624,
              (Zr (ix2 ⟨(i 0).val, idx2_lt0 i⟩ ⟨k.val / 432, pairFst_lt k⟩)
                * Zr (ix2 ⟨(i 0).val, idx2_lt0 i⟩ ⟨k.val % 432, pairSnd_lt k⟩)) * PW (ix2 k ⟨(i 1).val, idx2_lt1 i⟩))
            + pb (ix1 ⟨(i 1).val, idx2_lt1 i⟩)) := by
  obtain ⟨b, h, rfl⟩ : ∃ (b h : Fin 512), i = ix2 b h := ⟨i 0, i 1, eq_ix2 i⟩
  show ReluMlp.relu (Affine.affine inter (truncf .bf16 PW ht) (shapeCast ⟨2, ![1, 512]⟩ pb hc) (ix2 b h)) = _
  refine congrArg ReluMlp.relu ?_
  rw [Affine.affine_ix2, shapeCast_a_1a_apply]
  refine congrArg (· + pb (ix1 h)) (Finset.sum_congr rfl fun k _ => ?_)
  rw [hinter b k]
  rfl

end Cert.KernelIdeal.HostInteraction
-- ==== Proof.TailHost.lean ====
/-
  The host's spelling of the whole tail. From the contraction's result `Hacc : [512, 512]` the host adds the bias (a vector
  lifted to a row and then to the rows), takes the maximum with a rank-0 zero broadcast to the shape, applies a rectified layer
  of width 256 and a last layer of width 1 (`dot_general`, lifted biases), then `1 / (1 + exp(−x))` with rank-0 ones broadcast
  to the shape, and reshapes the column to a vector. That is the same function `predict` of the rectified sum that the kernel
  body's last payload is.
-/
import proofs.«182230_j49744311222349_2_alg».proof.Proof.Tail

namespace Cert.KernelIdeal.Tail

open Idealize.ShloMosaic Idealize.ShloMosaic.ValueIdx Cert.KernelIdeal Cert.KernelIdeal.Gen

section HostBias
variable {A M : ℕ}

/-- The host's rectified sum of a matrix and a bias vector (the bias lifted to a row and then to the rows, the zero a rank-0
    array broadcast to the shape): entry `(p, q)` is `max(x(p, q) + b(q), 0)`. -/
theorem hostBiasRelu_eq (g1 : (⟨1, ![M]⟩ : Shape).BroadcastsInDim ⟨2, ![1, M]⟩ ![1])
    (g2 : (⟨2, ![1, M]⟩ : Shape).BroadcastsInDim ⟨2, ![A, M]⟩ ![0, 1])
    (z : (⟨0, ![]⟩ : Shape).BroadcastsInDim ⟨2, ![A, M]⟩ ![])
    (x : FVec Ideal ⟨2, ![A, M]⟩ .f32) (b : FVec Ideal ⟨1, ![M]⟩ .f32) :
    maximumf (addf x (broadcastInDim ⟨2, ![A, M]⟩ ![0, 1] g2 (broadcastInDim ⟨2, ![1, M]⟩ ![1] g1 b)))
        (broadcastInDim ⟨2, ![A, M]⟩ ![] z (constant (F := Ideal) ⟨0, ![]⟩ .f32 0x00000000#32))
      = fun i => ReluMlp.relu (x i + b (ix1 ⟨(i 1).val, idx2_lt1 i⟩)) := by
  funext i
  obtain ⟨p, q, rfl⟩ : ∃ (p : Fin A) (q : Fin M), i = ix2 p q := ⟨i 0, i 1, eq_ix2 i⟩
  show ReluMlp.relu (x (ix2 p q)
      + broadcastInDim ⟨2, ![A, M]⟩ ![0, 1] g2 (broadcastInDim ⟨2, ![1, M]⟩ ![1] g1 b) (ix2 p q))
    = ReluMlp.relu (x (ix2 p q) + b (ix1 q))
  rw [Affine.bias_rows_apply]

end HostBias

/-- The host's tail from the contraction's result `Hacc : [512, 512]`: the bias added and rectified, a rectified layer of
    width 256, a last layer of width 1, `1 / (1 + exp(−x))`, the column reshaped to a vector — is `predict` of the rectified
    sum. -/
theorem host_predict_eq {d1 : DotDims ⟨2, ![512, 512]⟩ ⟨2, ![512, 256]⟩ ⟨2, ![512, 256]⟩}
    {d2 : DotDims ⟨2, ![512, 256]⟩ ⟨2, ![256, 1]⟩ ⟨2, ![512, 1]⟩}
    (hd1 : d1 = DotDims.plain 512 512 256) (hd2 : d2 = DotDims.plain 512 256 1)
    (g01 : (⟨1, ![512]⟩ : Shape).BroadcastsInDim ⟨2, ![1, 512]⟩ ![1])
    (g02 : (⟨2, ![1, 512]⟩ : Shape).BroadcastsInDim ⟨2, ![512, 512]⟩ ![0, 1])
    (z0 : (⟨0, ![]⟩ : Shape).BroadcastsInDim ⟨2, ![512, 512]⟩ ![])
    (g11 : (⟨1, ![256]⟩ : Shape).BroadcastsInDim ⟨2, ![1, 256]⟩ ![1])
    (g12 : (⟨2, ![1, 256]⟩ : Shape).BroadcastsInDim ⟨2, ![512, 256]⟩ ![0, 1])
    (z1 : (⟨0, ![]⟩ : Shape).BroadcastsInDim ⟨2, ![512, 256]⟩ ![])
    (g21 : (⟨1, ![1]⟩ : Shape).BroadcastsInDim ⟨2, ![1, 1]⟩ ![1])
    (g22 : (⟨2, ![1, 1]⟩ : Shape).BroadcastsInDim ⟨2, ![512, 1]⟩ ![0, 1])
    (z2 : (⟨0, ![]⟩ : Shape).BroadcastsInDim ⟨2, ![512, 1]⟩ ![])
    (h : (⟨2, ![512, 1]⟩ : Shape).ShapeCasts ⟨1, ![512]⟩)
    (Hacc : FVec Ideal ⟨2, ![512, 512]⟩ .f32) (b0 : FVec Ideal ⟨1, ![512]⟩ .f32)
    (W1 : FVec Ideal ⟨2, ![512, 256]⟩ .f32) (b1 : FVec Ideal ⟨1, ![256]⟩ .f32)
    (W2 : FVec Ideal ⟨2, ![256, 1]⟩ .f32) (b2 : FVec Ideal ⟨1, ![1]⟩ .f32) :
    shapeCast ⟨1, ![512]⟩
        (Host.divf (broadcastInDim ⟨2, ![512, 1]⟩ ![] z2 (constant (F := Ideal) ⟨0, ![]⟩ .f32 0x3F800000#32))
          (addf (broadcastInDim ⟨2, ![512, 1]⟩ ![] z2 (constant (F := Ideal) ⟨0, ![]⟩ .f32 0x3F800000#32))
            (Host.exp (Host.negf
              (addf (Host.dotGeneral d2 none
                  (maximumf
                    (addf (Host.dotGeneral d1 none
                        (maximumf
                          (addf Hacc
                            (broadcastInDim ⟨2, ![512, 512]⟩ ![0, 1] g02 (broadcastInDim ⟨2, ![1, 512]⟩ ![1] g01 b0)))
                          (broadcastInDim ⟨2, ![512, 512]⟩ ![] z0 (constant (F := Ideal) ⟨0, ![]⟩ .f32 0x00000000#32)))
                        W1)
                      (broadcastInDim ⟨2, ![512, 256]⟩ ![0, 1] g12 (broadcastInDim ⟨2, ![1, 256]⟩ ![1] g11 b1)))
                    (broadcastInDim ⟨2, ![512, 256]⟩ ![] z1 (constant (F := Ideal) ⟨0, ![]⟩ .f32 0x00000000#32)))
                  W2)
                (broadcastInDim ⟨2, ![512, 1]⟩ ![0, 1] g22 (broadcastInDim ⟨2, ![1, 1]⟩ ![1] g21 b2))))))) h
      = predict (fun i => ReluMlp.relu (Hacc i + b0 (ix1 ⟨(i 1).val, idx2_lt1 i⟩))) W1 b1 W2 b2 := by
  rw [host_logistic_eq, hostBiasRelu_eq g01 g02 z0 Hacc b0]
  show (fun i : (⟨1, ![512]⟩ : Shape).Idx => Ideal.logistic
      (SoftplusLayers.denseH d2 g21 g22
        (ReluMlp.reluH z1 (SoftplusLayers.denseH d1 g11 g12
          (fun i => ReluMlp.relu (Hacc i + b0 (ix1 ⟨(i 1).val, idx2_lt1 i⟩))) W1 b1)) W2 b2
        (ix2 (⟨(i 0).val, vecIdx_lt i⟩ : Fin 512) (0 : Fin 1)))) = _
  unfold predict ReluMlp.layer
  rw [SoftplusLayers.denseH_eq hd1 g11 g12 bitsLt_bf16_f32 shapeCasts_S256_S1x256, ReluMlp.reluH_eq,
    SoftplusLayers.denseH_eq hd2 g21 g22 bitsLt_bf16_f32 shapeCasts_S1_S1x1]

end Cert.KernelIdeal.Tail
-- ==== Proof.RefValue.lean ====
/-
  The reference's result in closed form, at the exact-arithmetic instance. The dense tower is the four-layer function of
  the rows; the first hidden layer's contraction of the flattened pairwise products against its weights is, entry by entry,
  the sum over the 186624 column pairs `z(b, k / 432) · z(b, k % 432) · W(k, h)`; the rest of the network (bias and rectifier,
  two more layers, the logistic function) is the same function of that sum. The embedding lookup is left as the program
  spells it.
-/
import proofs.«182230_j49744311222349_2_alg».proof.Proof.RefRun
import proofs.«182230_j49744311222349_2_alg».proof.Proof.DenseStack
import proofs.«182230_j49744311222349_2_alg».proof.Proof.HostInteraction
import proofs.«182230_j49744311222349_2_alg».proof.Proof.TailHost
import proofs.«182230_j49744311222349_2_alg».proof.Proof.LibPlainDot
import proofs.«182230_j49744311222349_2_alg».proof.Proof.Closed

noncomputable section

namespace Cert.ReferenceIdeal.RefValue

open Cert.ReferenceIdeal Idealize.ShloMosaic Idealize.ShloMosaic.ValueIdx
open Cert.ReferenceIdeal.Facts₀ Cert.ReferenceIdeal.Facts

variable [Facts]

set_option quotPrecheck false in
local notation "𝕋[" s ", " e "]" => (⟨s, e⟩ : BufTy).Contents (Elt Ideal)

/-- The dense tower as the program spells it is the four-layer function of the rows. -/
theorem dense_eq (a0 : 𝕋[S512x13, .f32]) (a3 : 𝕋[S13x512, .f32]) (a4 : 𝕋[S512, .f32]) (a5 : 𝕋[S512x256, .f32]) (a6 : 𝕋[S256, .f32]) (a7 : 𝕋[S256x64, .f32]) (a8 : 𝕋[S64, .f32]) (a9 : 𝕋[S64x16, .f32]) (a10 : 𝕋[S16, .f32]) :
    RefRun.denseOut (F := Ideal) a0 a3 a4 a5 a6 a7 a8 a9 a10
      = Cert.KernelIdeal.DenseStack.denseOut a0 a3 a4 a5 a6 a7 a8 a9 a10 := by
  unfold RefRun.denseOut RefRun.dense3 RefRun.dense2 RefRun.dense1 RefRun.dense0
  exact Cert.KernelIdeal.DenseStack.host_eq (d0 := dot_S512x13_S13x512_S512x512_1_0_0_1_n_n)
    (d1 := dot_S512x512_S512x256_S512x256_1_0_0_1_n_n) (d2 := dot_S512x256_S256x64_S512x64_1_0_0_1_n_n)
    (d3 := dot_S512x64_S64x16_S512x16_1_0_0_1_n_n) rfl rfl rfl rfl
    bcast_S512_S1x512_1 bcast_S1x512_S512x512_0_1 bcast_S_S512x512
    bcast_S256_S1x256_1 bcast_S1x256_S512x256_0_1 bcast_S_S512x256
    bcast_S64_S1x64_1 bcast_S1x64_S512x64_0_1 bcast_S_S512x64
    bcast_S16_S1x16_1 bcast_S1x16_S512x16_0_1
    a0 a3 a4 a5 a6 a7 a8 a9 a10

/-- Everything after the first hidden layer's contraction is `predict` of the rectified sum of the contraction and the bias. -/
theorem tail_eq (x : 𝕋[S512x186624, .f32]) (a11 : 𝕋[S186624x512, .f32]) (a12 : 𝕋[S512, .f32]) (a13 : 𝕋[S512x256, .f32]) (a14 : 𝕋[S256, .f32]) (a15 : 𝕋[S256x1, .f32]) (a16 : 𝕋[S1, .f32]) :
    RefRun.sigmoidOut (F := Ideal) (RefRun.logit (RefRun.hidden1 (RefRun.hidden0 x a11 a12) a13 a14) a15 a16)
      = Cert.KernelIdeal.Tail.predict
          (fun i => ReluMlp.relu (Host.dotGeneral (F := Ideal) (φ₁ := .f32) (φ₂ := .f32) dot_S512x186624_S186624x512_S512x512_1_0_0_1_n_n none x a11 i + a12 (ix1 ⟨(i 1).val, idx2_lt1 i⟩)))
          a13 a14 a15 a16 := by
  unfold RefRun.sigmoidOut RefRun.logit RefRun.hidden1 RefRun.hidden0
  exact Cert.KernelIdeal.Tail.host_predict_eq (d1 := dot_S512x512_S512x256_S512x256_1_0_0_1_n_n)
    (d2 := dot_S512x256_S256x1_S512x1_1_0_0_1_n_n) rfl rfl
    bcast_S512_S1x512_1 bcast_S1x512_S512x512_0_1 bcast_S_S512x512
    bcast_S256_S1x256_1 bcast_S1x256_S512x256_0_1 bcast_S_S512x256
    bcast_S1_S1x1_1 bcast_S1x1_S512x1_0_1 bcast_S_S512x1 shapeCasts_S512x1_S512
    (Host.dotGeneral (F := Ideal) (φ₁ := .f32) (φ₂ := .f32) dot_S512x186624_S186624x512_S512x512_1_0_0_1_n_n none x a11) a12 a13 a14 a15 a16

/-- The contraction of the flattened pairwise products against the weights, entry `(b, h)`: the sum over the column pairs. -/
theorem contraction_apply (Z : 𝕋[S512x432, .f32]) (a11 : 𝕋[S186624x512, .f32]) (i : S512x512.Idx) :
    Host.dotGeneral (F := Ideal) (φ₁ := .f32) (φ₂ := .f32) dot_S512x186624_S186624x512_S512x512_1_0_0_1_n_n none (RefRun.inter (F := Ideal) Z) a11 i = Cert.Closed.pairSum Z a11 i := by
  have hd : dot_S512x186624_S186624x512_S512x512_1_0_0_1_n_n = DotDims.plain 512 186624 512 := rfl
  rw [hd]
  refine (PlainDot.dotGeneral_apply none .single (RefRun.inter (F := Ideal) Z) a11 i).trans ?_
  unfold Cert.Closed.pairSum
  refine Finset.sum_congr rfl fun k _ => ?_
  refine congrArg (· * a11 (ix2 k ⟨(i 1).val, idx2_lt1 i⟩)) ?_
  exact Cert.KernelIdeal.HostInteraction.inter_apply Z bcast_S512x432x1_S512x432x432_0_1_2 bcast_S512x432_S512x432x1_0_1
    bcast_S512x1x432_S512x432x432_0_1_2 bcast_S512x432_S512x1x432_0_2 shapeCasts_S512x432x432_S512x186624
    ⟨(i 0).val, idx2_lt0 i⟩ k

/-- The reference's result is the closed form's prediction from the concatenation of the dense tower's output and the
    looked-up embeddings. -/
theorem result_eq (a0 : 𝕋[S512x13, .f32]) (a1 : 𝕋[S512x26, .i32]) (a2 : 𝕋[S26x100000x16, .f32]) (a3 : 𝕋[S13x512, .f32]) (a4 : 𝕋[S512, .f32]) (a5 : 𝕋[S512x256, .f32]) (a6 : 𝕋[S256, .f32]) (a7 : 𝕋[S256x64, .f32]) (a8 : 𝕋[S64, .f32]) (a9 : 𝕋[S64x16, .f32]) (a10 : 𝕋[S16, .f32]) (a11 : 𝕋[S186624x512, .f32]) (a12 : 𝕋[S512, .f32]) (a13 : 𝕋[S512x256, .f32]) (a14 : 𝕋[S256, .f32]) (a15 : 𝕋[S256x1, .f32]) (a16 : 𝕋[S1, .f32]) :
    RefRun.result (F := Ideal) a0 a1 a2 a3 a4 a5 a6 a7 a8 a9 a10 a11 a12 a13 a14 a15 a16
      = Cert.Closed.predictFrom
          (RefRun.zcat (Cert.KernelIdeal.DenseStack.denseOut a0 a3 a4 a5 a6 a7 a8 a9 a10) (RefRun.sparseFlat a1 a2))
          a11 a12 a13 a14 a15 a16 := by
  unfold RefRun.result
  rw [dense_eq]
  generalize RefRun.zcat (Cert.KernelIdeal.DenseStack.denseOut a0 a3 a4 a5 a6 a7 a8 a9 a10) (RefRun.sparseFlat a1 a2) = Z
  rw [tail_eq]
  unfold Cert.Closed.predictFrom
  exact congrArg (fun H => Cert.KernelIdeal.Tail.predict H a13 a14 a15 a16)
    (funext fun i => by rw [contraction_apply Z a11 i])

end Cert.ReferenceIdeal.RefValue

end
-- ==== Proof.lean ====
/-
  A recommendation model's forward pass, a Pallas kernel against its jnp reference, equal as extended reals.

  Both programs compute, for 512 rows: a four-layer dense network on 13 features (16 outputs); 26 embedding rows of 16
  numbers gathered at (index + 1) mod 100000 (416 numbers); z, the two laid side by side (432 numbers); the 186624 products
  z(f)·z(g) of pairs of entries of z, contracted against a [186624, 512] weight matrix; bias and rectifier; a rectified layer
  of 256; a last layer of one output; the logistic function.

  The reference materialises the [512, 186624] array of products and makes ONE contraction. The kernel never does: over 54
  grid steps it multiplies eight rows of the transposed z against all of z, flattens those 3456 products, contracts them
  against the matching 3456 rows of the weights, and adds the result into an accumulator zeroed at the first step; the last
  step finishes the network from the accumulator. The one law that joins the two is that a sum over 54·3456 positions is the
  sum of 54 runs of 3456 — commutativity and associativity of addition, which hold on all extended reals, so the inputs'
  finiteness is never used. The kernel rounds matrix operands to bf16, which is the identity here; its logistic function is
  the host's 1/(1 + exp(−x)). The embedding gather is the same chain of host operations in both programs and is carried as
  one function, never opened.

  The frames are the generated ones (the reference's is its run with the result dropped); the idealization rewrote nothing.
-/
import proofs.«182230_j49744311222349_2_alg».proof.Defs
import proofs.«182230_j49744311222349_2_alg».proof.Proof.Gen.Kernel
import proofs.«182230_j49744311222349_2_alg».proof.Proof.Gen.Kernel.Frame
import proofs.«182230_j49744311222349_2_alg».proof.Proof.Gen.KernelIdeal
import proofs.«182230_j49744311222349_2_alg».proof.Proof.Gen.KernelIdeal.Frame
import proofs.«182230_j49744311222349_2_alg».proof.Proof.Gen.KernelIdeal.Value
import proofs.«182230_j49744311222349_2_alg».proof.Proof.Gen.ReferenceIdeal
import proofs.«182230_j49744311222349_2_alg».proof.Proof.Gen.Pre_finite_inputs
import proofs.«182230_j49744311222349_2_alg».proof.Proof.KernelValue
import proofs.«182230_j49744311222349_2_alg».proof.Proof.SparsePrefix
import proofs.«182230_j49744311222349_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The prediction as ONE function of the seventeen argument arrays: what both programs' result arrays end holding. -/
def common
    (a0 : (⟨Cert.ReferenceIdeal.S512x13, .f32⟩ : BufTy).Contents (Elt Ideal))
    (a1 : (⟨Cert.ReferenceIdeal.S512x26, .i32⟩ : BufTy).Contents (Elt Ideal))
    (a2 : (⟨Cert.ReferenceIdeal.S26x100000x16, .f32⟩ : BufTy).Contents (Elt Ideal))
    (a3 : (⟨Cert.ReferenceIdeal.S13x512, .f32⟩ : BufTy).Contents (Elt Ideal))
    (a4 : (⟨Cert.ReferenceIdeal.S512, .f32⟩ : BufTy).Contents (Elt Ideal))
    (a5 : (⟨Cert.ReferenceIdeal.S512x256, .f32⟩ : BufTy).Contents (Elt Ideal))
    (a6 : (⟨Cert.ReferenceIdeal.S256, .f32⟩ : BufTy).Contents (Elt Ideal))
    (a7 : (⟨Cert.ReferenceIdeal.S256x64, .f32⟩ : BufTy).Contents (Elt Ideal))
    (a8 : (⟨Cert.ReferenceIdeal.S64, .f32⟩ : BufTy).Contents (Elt Ideal))
    (a9 : (⟨Cert.ReferenceIdeal.S64x16, .f32⟩ : BufTy).Contents (Elt Ideal))
    (a10 : (⟨Cert.ReferenceIdeal.S16, .f32⟩ : BufTy).Contents (Elt Ideal))
    (a11 : (⟨Cert.ReferenceIdeal.S186624x512, .f32⟩ : BufTy).Contents (Elt Ideal))
    (a12 : (⟨Cert.ReferenceIdeal.S512, .f32⟩ : BufTy).Contents (Elt Ideal))
    (a13 : (⟨Cert.ReferenceIdeal.S512x256, .f32⟩ : BufTy).Contents (Elt Ideal))
    (a14 : (⟨Cert.ReferenceIdeal.S256, .f32⟩ : BufTy).Contents (Elt Ideal))
    (a15 : (⟨Cert.ReferenceIdeal.S256x1, .f32⟩ : BufTy).Contents (Elt Ideal))
    (a16 : (⟨Cert.ReferenceIdeal.S1, .f32⟩ : BufTy).Contents (Elt Ideal)) :
    (⟨Cert.ReferenceIdeal.S512, .f32⟩ : BufTy).Contents (Elt Ideal) :=
  Cert.Closed.predictFrom
    (Cert.ReferenceIdeal.RefRun.zcat (Cert.KernelIdeal.DenseStack.denseOut a0 a3 a4 a5 a6 a7 a8 a9 a10)
      (Cert.ReferenceIdeal.RefRun.sparseFlat a1 a2)) a11 a12 a13 a14 a15 a16

/-- The kernel's result array is that function of its argument arrays. -/
theorem kernel_value (m : (ℓ : Loc Cert.KernelIdeal.nD Cert.KernelIdeal.τ Cert.KernelIdeal.sig) → Buf (Elt Ideal) ℓ)
    (c : Dev Cert.KernelIdeal.nD) :
    Cert.KernelIdeal.Sweep.resultK m c = common
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)) := by
  rw [Cert.KernelIdeal.KValue.result_eq]
  unfold Cert.KernelIdeal.KValue.zArr
  rw [Cert.KernelIdeal.ZLayout.zlay_eq_concat _ _ Cert.ReferenceIdeal.Facts₀.concatenates_S512x16_S512x416_S512x432_d1,
    Cert.KernelIdeal.Prefix.found_sparse,
    Cert.KernelIdeal.Gen.V_main_arg0, Cert.KernelIdeal.Gen.V_main_arg3, Cert.KernelIdeal.Gen.V_main_arg4, Cert.KernelIdeal.Gen.V_main_arg5, Cert.KernelIdeal.Gen.V_main_arg6, Cert.KernelIdeal.Gen.V_main_arg7, Cert.KernelIdeal.Gen.V_main_arg8, Cert.KernelIdeal.Gen.V_main_arg9, Cert.KernelIdeal.Gen.V_main_arg10, Cert.KernelIdeal.Gen.V_main_arg11, Cert.KernelIdeal.Gen.V_main_arg12, Cert.KernelIdeal.Gen.V_main_arg13, Cert.KernelIdeal.Gen.V_main_arg14, Cert.KernelIdeal.Gen.V_main_arg15, Cert.KernelIdeal.Gen.V_main_arg16]
  rfl

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the arguments both programs end with the common prediction in their result arrays. -/
theorem algebraic : Cert.algebraic_KernelIdeal_ReferenceIdeal := by
  intro m ρ m' ρ' _ hagree
  refine ⟨fun c => common
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono (fun r h c => ⟨(h c).1.trans (kernel_value m c), (h c).2⟩)
      (Cert.KernelIdeal.Sweep.run m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11, e12, e13, e14, e15, e16⟩ := hagree c
    rw [Cert.ReferenceIdeal.RefValue.result_eq, e0, e1, e2, e3, e4, e5, e6, e7, e8, e9, e10, e11, e12, e13, e14, e15, e16]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
